-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v16_1)) (v1 : (c : Dev Cert.KernelIdeal.nD) → Buf (Elt Ideal) ((c.tc : Thread Cert.KernelIdeal.nD Cert.KernelIdeal.τ).loc Cert.KernelIdeal.main_v16_2)) (v2 : (c : Dev Cert.KernelIdeal.nD) → Buf (Elt Ideal) ((c.tc : Thread Cert.KernelIdeal.nD Cert.KernelIdeal.τ).loc Cert.KernelIdeal.main_v23_0)) (v3 : (c : Dev Cert.KernelIdeal.nD) → Buf (Elt Ideal) ((c.tc : Thread Cert.KernelIdeal.nD Cert.KernelIdeal.τ).loc Cert.KernelIdeal.main_v22_0)) (v4 : (c : Dev Cert.KernelIdeal.nD) → Buf (Elt Ideal) ((c.tc : Thread Cert.KernelIdeal.nD Cert.KernelIdeal.τ).loc Cert.KernelIdeal.main_v22_1)) (v5 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_1) = v0 c
          ∧ r.2.mem ((c.tc : Thread Cert.KernelIdeal.nD Cert.KernelIdeal.τ).loc Cert.KernelIdeal.main_v16_2) = v1 c
          ∧ r.2.mem ((c.tc : Thread Cert.KernelIdeal.nD Cert.KernelIdeal.τ).loc Cert.KernelIdeal.main_v23_0) = v2 c
          ∧ r.2.mem ((c.tc : Thread Cert.KernelIdeal.nD Cert.KernelIdeal.τ).loc Cert.KernelIdeal.main_v22_0) = v3 c
          ∧ r.2.mem ((c.tc : Thread Cert.KernelIdeal.nD Cert.KernelIdeal.τ).loc Cert.KernelIdeal.main_v22_1) = v4 c
          ∧ r.2.mem ((c.tc : Thread Cert.KernelIdeal.nD Cert.KernelIdeal.τ).loc Cert.KernelIdeal.main_v23_1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_v37) = v4 c
          ∧ r.2.mem ((c.tc : Thread Cert.ReferenceIdeal.nD Cert.ReferenceIdeal.τ).loc Cert.ReferenceIdeal.main_v59) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x200 : Shape := ⟨2, ![512, 200]⟩
abbrev S200 : Shape := ⟨1, ![200]⟩
abbrev S200x128 : Shape := ⟨2, ![200, 128]⟩
abbrev S128 : Shape := ⟨1, ![128]⟩
abbrev S4096x200 : Shape := ⟨2, ![4096, 200]⟩
abbrev S128x200 : Shape := ⟨2, ![128, 200]⟩
abbrev S200x512 : Shape := ⟨2, ![200, 512]⟩
abbrev S512 : Shape := ⟨1, ![512]⟩
abbrev S128x128 : Shape := ⟨2, ![128, 128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x200 : S_.BroadcastsInDim S512x200 (![] : Fin 0 → Fin S512x200.rank)
  reducesTo_S512x200_S_d0_1 : S512x200.ReducesTo [0, 1] S_
  bcast_S_S200 : S_.BroadcastsInDim S200 (![] : Fin 0 → Fin S200.rank)
  reducesTo_S200_S_d0 : S200.ReducesTo [0] S_
  bcast_S_S200x128 : S_.BroadcastsInDim S200x128 (![] : Fin 0 → Fin S200x128.rank)
  reducesTo_S200x128_S_d0_1 : S200x128.ReducesTo [0, 1] S_
  bcast_S_S128 : S_.BroadcastsInDim S128 (![] : Fin 0 → Fin S128.rank)
  reducesTo_S128_S_d0 : S128.ReducesTo [0] S_
  bcast_S_S4096x200 : S_.BroadcastsInDim S4096x200 (![] : Fin 0 → Fin S4096x200.rank)
  reducesTo_S4096x200_S_d0_1 : S4096x200.ReducesTo [0, 1] S_
  bcast_S_S128x200 : S_.BroadcastsInDim S128x200 (![] : Fin 0 → Fin S128x200.rank)
  reducesTo_S128x200_S_d0_1 : S128x200.ReducesTo [0, 1] S_
  bcast_S_S200x512 : S_.BroadcastsInDim S200x512 (![] : Fin 0 → Fin S200x512.rank)
  reducesTo_S200x512_S_d0_1 : S200x512.ReducesTo [0, 1] S_
  bcast_S_S512 : S_.BroadcastsInDim S512 (![] : Fin 0 → Fin S512.rank)
  reducesTo_S512_S_d0 : S512.ReducesTo [0] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_arg18 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg14 : FVec F S512 .f32) (main_arg15 : FVec F S128x128 .f32) (main_arg16 : FVec F S128 .f32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128x200 .f32) (main_arg12 : FVec F S200 .f32) (main_arg13 : FVec F S200x512 .f32) (main_arg14 : FVec F S512 .f32) (main_arg15 : FVec F S128x128 .f32) (main_arg16 : FVec F S128 .f32) (main_arg17 : FVec F S128x128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x200 .f32 := Host.absf main_arg11
  let main_cst_20 : FVec F S_ .f32 := constant S_ .f32 0x7F800000#32
  let main_v55 : FVec F S128x200 .f32 := broadcastInDim S128x200 ![] bcast_S_S128x200 main_cst_20
  let main_v56 : IVec S128x200 1 := cmpf .olt main_v54 main_v55
  let main_c_21 : IVec S_ 1 := constantI S_ 1 1#1
  let main_v57 : IVec S_ 1 := (fun x v => Host.reduce IntOp.andi x v reducesTo_S128x200_S_d0_1 h_S_) main_v56 main_c_21
  let main_v58 : IVec S_ 1 := andi main_v53 main_v57
  let main_v59 : FVec F S200 .f32 := Host.absf main_arg12
  let main_cst_22 : FVec F S_ .f32 := constant S_ .f32 0x7F800000#32
  let main_v60 : FVec F S200 .f32 := broadcastInDim S200 ![] bcast_S_S200 main_cst_22
  let main_v61 : IVec S200 1 := cmpf .olt main_v59 main_v60
  let main_c_23 : IVec S_ 1 := constantI S_ 1 1#1
  let main_v62 : IVec S_ 1 := (fun x v => Host.reduce IntOp.andi x v reducesTo_S200_S_d0 h_S_) main_v61 main_c_23
  let main_v63 : IVec S_ 1 := andi main_v58 main_v62
  let main_v64 : FVec F S200x512 .f32 := Host.absf main_arg13
  let main_cst_24 : FVec F S_ .f32 := constant S_ .f32 0x7F800000#32
  let main_v65 : FVec F S200x512 .f32 := broadcastInDim S200x512 ![] bcast_S_S200x512 main_cst_24
  let main_v66 : IVec S200x512 1 := cmpf .olt main_v64 main_v65
  let main_c_25 : IVec S_ 1 := constantI S_ 1 1#1
  let main_v67 : IVec S_ 1 := (fun x v => Host.reduce IntOp.andi x v reducesTo_S200x512_S_d0_1 h_S_) main_v66 main_c_25
  fn_part4 (F := F) main_arg14 main_arg15 main_arg16 main_arg17 main_arg18 main_v63 main_v67

def fn_part2 {F : FTy → Type} [FloatOps F] (main_arg7 : FVec F S4096x200 .f32) (main_arg8 : FVec F S200 .f32) (main_arg9 : FVec F S200x128 .f32) (main_arg10 : FVec F S128 .f32) (main_arg11 : FVec F S128x200 .f32) (main_arg12 : FVec F S200 .f32) (main_arg13 : FVec F S200x512 .f32) (main_arg14 : FVec F S512 .f32) (main_arg15 : FVec F S128x128 .f32) (main_arg16 : FVec F S128 .f32) (main_arg17 : FVec F S128x128 .f32) (main_arg18 : FVec F S128 .f32) (main_v33 : IVec S_ 1) : IVec S_ 1 :=
  let main_v34 : FVec F S4096x200 .f32 := Host.absf main_arg7
  let main_cst_12 : FVec F S_ .f32 := constant S_ .f32 0x7F800000#32
  let main_v35 : FVec F S4096x200 .f32 := broadcastInDim S4096x200 ![] bcast_S_S4096x200 main_cst_12
  let main_v36 : IVec S4096x200 1 := cmpf .olt main_v34 main_v35
  let main_c_13 : IVec S_ 1 := constantI S_ 1 1#1
  let main_v37 : IVec S_ 1 := (fun x v => Host.reduce IntOp.andi x v reducesTo_S4096x200_S_d0_1 h_S_) main_v36 main_c_13
  let main_v38 : IVec S_ 1 := andi main_v33 main_v37
  let main_v39 : FVec F S200 .f32 := Host.absf main_arg8
  let main_cst_14 : FVec F S_ .f32 := constant S_ .f32 0x7F800000#32
  let main_v40 : FVec F S200 .f32 := broadcastInDim S200 ![] bcast_S_S200 main_cst_14
  let main_v41 : IVec S200 1 := cmpf .olt main_v39 main_v40
  let main_c_15 : IVec S_ 1 := constantI S_ 1 1#1
  let main_v42 : IVec S_ 1 := (fun x v => Host.reduce IntOp.andi x v reducesTo_S200_S_d0 h_S_) main_v41 main_c_15
  let main_v43 : IVec S_ 1 := andi main_v38 main_v42
  let main_v44 : FVec F S200x128 .f32 := Host.absf main_arg9
  let main_cst_16 : FVec F S_ .f32 := constant S_ .f32 0x7F800000#32
  let main_v45 : FVec F S200x128 .f32 := broadcastInDim S200x128 ![] bcast_S_S200x128 main_cst_16
  let main_v46 : IVec S200x128 1 := cmpf .olt main_v44 main_v45
  let main_c_17 : IVec S_ 1 := constantI S_ 1 1#1
  let main_v47 : IVec S_ 1 := (fun x v => Host.reduce IntOp.andi x v reducesTo_S200x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_v48 main_v49 main_v50

def fn_part1 {F : FTy → Type} [FloatOps F] (main_arg4 : FVec F S200 .f32) (main_arg5 : FVec F S200x128 .f32) (main_arg6 : FVec F S128 .f32) (main_arg7 : FVec F S4096x200 .f32) (main_arg8 : FVec F S200 .f32) (main_arg9 : FVec F S200x128 .f32) (main_arg10 : FVec F S128 .f32) (main_arg11 : FVec F S128x200 .f32) (main_arg12 : FVec F S200 .f32) (main_arg13 : FVec F S200x512 .f32) (main_arg14 : FVec F S512 .f32) (main_arg15 : FVec F S128x128 .f32) (main_arg16 : FVec F S128 .f32) (main_arg17 : FVec F S128x128 .f32) (main_arg18 : FVec F S128 .f32) (main_v13 : IVec S_ 1) (main_v16 : IVec S512x200 1) : IVec S_ 1 :=
  let main_c_5 : IVec S_ 1 := constantI S_ 1 1#1
  let main_v17 : IVec S_ 1 := (fun x v => Host.reduce IntOp.andi x v reducesTo_S512x200_S_d0_1 h_S_) main_v16 main_c_5
  let main_v18 : IVec S_ 1 := andi main_v13 main_v17
  let main_v19 : FVec F S200 .f32 := Host.absf main_arg4
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S200x128 .f32 := Host.absf main_arg5
  let main_cst_8 : FVec F S_ .f32 := constant S_ .f32 0x7F800000#32
  let main_v25 : FVec F S200x128 .f32 := broadcastInDim S200x128 ![] bcast_S_S200x128 main_cst_8
  let main_v26 : IVec S200x128 1 := cmpf .olt main_v24 main_v25
  let main_c_9 : IVec S_ 1 := constantI S_ 1 1#1
  let main_v27 : IVec S_ 1 := (fun x v => Host.reduce IntOp.andi x v reducesTo_S200x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x512 .f32) (main_arg1 : FVec F S4096x4096 .f32) (main_arg2 : FVec F S4096x4096 .f32) (main_arg3 : FVec F S512x200 .f32) (main_arg4 : FVec F S200 .f32) (main_arg5 : FVec F S200x128 .f32) (main_arg6 : FVec F S128 .f32) (main_arg7 : FVec F S4096x200 .f32) (main_arg8 : FVec F S200 .f32) (main_arg9 : FVec F S200x128 .f32) (main_arg10 : FVec F S128 .f32) (main_arg11 : FVec F S128x200 .f32) (main_arg12 : FVec F S200 .f32) (main_arg13 : FVec F S200x512 .f32) (main_arg14 : FVec F S512 .f32) (main_arg15 : FVec F S128x128 .f32) (main_arg16 : FVec F S128 .f32) (main_arg17 : FVec F S128x128 .f32) (main_arg18 : FVec F S128 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S512x200 .f32 := Host.absf main_arg3
  let main_cst_4 : FVec F S_ .f32 := constant S_ .f32 0x7F800000#32
  let main_v15 : FVec F S512x200 .f32 := broadcastInDim S512x200 ![] bcast_S_S512x200 main_cst_4
  let main_v16 : IVec S512x200 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x512 : Shape := ⟨2, ![4096, 512]⟩
abbrev S4096x4096 : Shape := ⟨2, ![4096, 4096]⟩
abbrev S512x200 : Shape := ⟨2, ![512, 200]⟩
abbrev S200 : Shape := ⟨1, ![200]⟩
abbrev S200x128 : Shape := ⟨2, ![200, 128]⟩
abbrev S128 : Shape := ⟨1, ![128]⟩
abbrev S4096x200 : Shape := ⟨2, ![4096, 200]⟩
abbrev S128x200 : Shape := ⟨2, ![128, 200]⟩
abbrev S200x512 : Shape := ⟨2, ![200, 512]⟩
abbrev S512 : Shape := ⟨1, ![512]⟩
abbrev S128x128 : Shape := ⟨2, ![128, 128]⟩
abbrev S_ : Shape := ⟨0, ![]⟩
abbrev S4096x256 : Shape := ⟨2, ![4096, 256]⟩
abbrev S256 : Shape := ⟨1, ![256]⟩
abbrev S1x256 : Shape := ⟨2, ![1, 256]⟩
abbrev S256x128 : Shape := ⟨2, ![256, 128]⟩
abbrev S512x256 : Shape := ⟨2, ![512, 256]⟩
abbrev S128x256 : Shape := ⟨2, ![128, 256]⟩
abbrev S256x512 : Shape := ⟨2, ![256, 512]⟩
abbrev S1x128 : Shape := ⟨2, ![1, 128]⟩
abbrev S1x512 : Shape := ⟨2, ![1, 512]⟩
abbrev S4096x128 : Shape := ⟨2, ![4096, 128]⟩
abbrev S256x4096 : Shape := ⟨2, ![256, 4096]⟩
abbrev S256x256 : Shape := ⟨2, ![256, 256]⟩

abbrev nBuf : Space → Nat
  | .hbm => 67
  | .vmem => 56
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x4096, .f32⟩
  | .hbm, ⟨3, _⟩ => ⟨S512x200, .f32⟩
  | .hbm, ⟨4, _⟩ => ⟨S200, .f32⟩
  | .hbm, ⟨5, _⟩ => ⟨S200x128, .f32⟩
  | .hbm, ⟨6, _⟩ => ⟨S128, .f32⟩
  | .hbm, ⟨7, _⟩ => ⟨S4096x200, .f32⟩
  | .hbm, ⟨8, _⟩ => ⟨S200, .f32⟩
  | .hbm, ⟨9, _⟩ => ⟨S200x128, .f32⟩
  | .hbm, ⟨10, _⟩ => ⟨S128, .f32⟩
  | .hbm, ⟨11, _⟩ => ⟨S128x200, .f32⟩
  | .hbm, ⟨12, _⟩ => ⟨S200, .f32⟩
  | .hbm, ⟨13, _⟩ => ⟨S200x512, .f32⟩
  | .hbm, ⟨14, _⟩ => ⟨S512, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S_, .i32⟩
  | .hbm, ⟨20, _⟩ => ⟨S_, .f32⟩
  | .hbm, ⟨21, _⟩ => ⟨S4096x256, .f32⟩
  | .hbm, ⟨22, _⟩ => ⟨S_, .i32⟩
  | .hbm, ⟨23, _⟩ => ⟨S_, .f32⟩
  | .hbm, ⟨24, _⟩ => ⟨S256, .f32⟩
  | .hbm, ⟨25, _⟩ => ⟨S1x256, .f32⟩
  | .hbm, ⟨26, _⟩ => ⟨S_, .i32⟩
  | .hbm, ⟨27, _⟩ => ⟨S_, .f32⟩
  | .hbm, ⟨28, _⟩ => ⟨S256x128, .f32⟩
  | .hbm, ⟨29, _⟩ => ⟨S_, .i32⟩
  | .hbm, ⟨30, _⟩ => ⟨S_, .f32⟩
  | .hbm, ⟨31, _⟩ => ⟨S512x256, .f32⟩
  | .hbm, ⟨32, _⟩ => ⟨S_, .i32⟩
  | .hbm, ⟨33, _⟩ => ⟨S_, .f32⟩
  | .hbm, ⟨34, _⟩ => ⟨S256, .f32⟩
  | .hbm, ⟨35, _⟩ => ⟨S1x256, .f32⟩
  | .hbm, ⟨36, _⟩ => ⟨S_, .i32⟩
  | .hbm, ⟨37, _⟩ => ⟨S_, .f32⟩
  | .hbm, ⟨38, _⟩ => ⟨S256x128, .f32⟩
  | .hbm, ⟨39, _⟩ => ⟨S_, .i32⟩
  | .hbm, ⟨40, _⟩ => ⟨S_, .f32⟩
  | .hbm, ⟨41, _⟩ => ⟨S128x256, .f32⟩
  | .hbm, ⟨42, _⟩ => ⟨S_, .i32⟩
  | .hbm, ⟨43, _⟩ => ⟨S_, .f32⟩
  | .hbm, ⟨44, _⟩ => ⟨S256, .f32⟩
  | .hbm, ⟨45, _⟩ => ⟨S1x256, .f32⟩
  | .hbm, ⟨46, _⟩ => ⟨S_, .i32⟩
  | .hbm, ⟨47, _⟩ => ⟨S_, .f32⟩
  | .hbm, ⟨48, _⟩ => ⟨S256x512, .f32⟩
  | .hbm, ⟨49, _⟩ => ⟨S1x128, .f32⟩
  | .hbm, ⟨50, _⟩ => ⟨S1x512, .f32⟩
  | .hbm, ⟨51, _⟩ => ⟨S1x128, .f32⟩
  | .hbm, ⟨52, _⟩ => ⟨S1x128, .f32⟩
  | .hbm, ⟨53, _⟩ => ⟨S4096x256, .f32⟩
  | .hbm, ⟨54, _⟩ => ⟨S4096x128, .f32⟩
  | .hbm, ⟨55, _⟩ => ⟨S4096x512, .f32⟩
  | .hbm, ⟨56, _⟩ => ⟨S4096x128, .f32⟩
  | .hbm, ⟨57, _⟩ => ⟨S4096x128, .f32⟩
  | .hbm, ⟨58, _⟩ => ⟨S1x128, .f32⟩
  | .hbm, ⟨59, _⟩ => ⟨S1x512, .f32⟩
  | .hbm, ⟨60, _⟩ => ⟨S1x128, .f32⟩
  | .hbm, ⟨61, _⟩ => ⟨S1x128, .f32⟩
  | .hbm, ⟨62, _⟩ => ⟨S4096x128, .f32⟩
  | .hbm, ⟨63, _⟩ => ⟨S4096x512, .f32⟩
  | .hbm, ⟨64, _⟩ => ⟨S4096x128, .f32⟩
  | .hbm, ⟨65, _⟩ => ⟨S4096x4096, .f32⟩
  | .hbm, ⟨66, _⟩ => ⟨S4096x4096, .f32⟩
  | .local _ .vmem, ⟨0, _⟩ => ⟨S256x512, .f32⟩
  | .local _ .vmem, ⟨1, _⟩ => ⟨S256x512, .f32⟩
  | .local _ .vmem, ⟨2, _⟩ => ⟨S256x4096, .f32⟩
  | .local _ .vmem, ⟨3, _⟩ => ⟨S256x4096, .f32⟩
  | .local _ .vmem, ⟨4, _⟩ => ⟨S4096x256, .f32⟩
  | .local _ .vmem, ⟨5, _⟩ => ⟨S512x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S128x256, .f32⟩
  | .local _ .vmem, ⟨10, _⟩ => ⟨S1x256, .f32⟩
  | .local _ .vmem, ⟨11, _⟩ => ⟨S256x512, .f32⟩
  | .local _ .vmem, ⟨12, _⟩ => ⟨S1x512, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S256x256, .f32⟩
  | .local _ .vmem, ⟨18, _⟩ => ⟨S256x256, .f32⟩
  | .local _ .vmem, ⟨19, _⟩ => ⟨S256x128, .f32⟩
  | .local _ .vmem, ⟨20, _⟩ => ⟨S256x128, .f32⟩
  | .local _ .vmem, ⟨21, _⟩ => ⟨S256x512, .f32⟩
  | .local _ .vmem, ⟨22, _⟩ => ⟨S256x512, .f32⟩
  | .local _ .vmem, ⟨23, _⟩ => ⟨S256x128, .f32⟩
  | .local _ .vmem, ⟨24, _⟩ => ⟨S256x128, .f32⟩
  | .local _ .vmem, ⟨25, _⟩ => ⟨S256x4096, .f32⟩
  | .local _ .vmem, ⟨26, _⟩ => ⟨S256x4096, .f32⟩
  | .local _ .vmem, ⟨27, _⟩ => ⟨S4096x256, .f32⟩
  | .local _ .vmem, ⟨28, _⟩ => ⟨S1x256, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | .local _ .vmem, ⟨32, _⟩ => ⟨S256x4096, .f32⟩
  | .local _ .vmem, ⟨33, _⟩ => ⟨S256x4096, .f32⟩
  | .local _ .vmem, ⟨34, _⟩ => ⟨S4096x128, .f32⟩
  | .local _ .vmem, ⟨35, _⟩ => ⟨S1x128, .f32⟩
  | .local _ .vmem, ⟨36, _⟩ => ⟨S128x256, .f32⟩
  | .local _ .vmem, ⟨37, _⟩ => ⟨S1x256, .f32⟩
  | .local _ .vmem, ⟨38, _⟩ => ⟨S256x512, .f32⟩
  | .local _ .vmem, ⟨39, _⟩ => ⟨S1x512, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S256x128, .f32⟩
  | .local _ .vmem, ⟨45, _⟩ => ⟨S256x128, .f32⟩
  | .local _ .vmem, ⟨46, _⟩ => ⟨S256x512, .f32⟩
  | .local _ .vmem, ⟨47, _⟩ => ⟨S256x512, .f32⟩
  | .local _ .vmem, ⟨48, _⟩ => ⟨S256x128, .f32⟩
  | .local _ .vmem, ⟨49, _⟩ => ⟨S256x128, .f32⟩
  | .local _ .vmem, ⟨50, _⟩ => ⟨S4096x128, .f32⟩
  | .local _ .vmem, ⟨51, _⟩ => ⟨S4096x128, .f32⟩
  | .local _ .vmem, ⟨52, _⟩ => ⟨S256x4096, .f32⟩
  | .local _ .vmem, ⟨53, _⟩ => ⟨S256x4096, .f32⟩
  | .local _ .vmem, ⟨54, _⟩ => ⟨S256x4096, .f32⟩
  | .local _ .vmem, ⟨55, _⟩ => ⟨S256x4096, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_call0_v0 : Ref sig .tc := ⟨.hbm, 20, rfl⟩
abbrev main_v0 : Ref sig .tc := ⟨.hbm, 21, rfl⟩
abbrev main_c_0 : Ref sig .tc := ⟨.hbm, 22, rfl⟩
abbrev main_call1_v0 : Ref sig .tc := ⟨.hbm, 23, rfl⟩
abbrev main_v1 : Ref sig .tc := ⟨.hbm, 24, rfl⟩
abbrev main_v2 : Ref sig .tc := ⟨.hbm, 25, rfl⟩
abbrev main_c_1 : Ref sig .tc := ⟨.hbm, 26, rfl⟩
abbrev main_call2_v0 : Ref sig .tc := ⟨.hbm, 27, rfl⟩
abbrev main_v3 : Ref sig .tc := ⟨.hbm, 28, rfl⟩
abbrev main_c_2 : Ref sig .tc := ⟨.hbm, 29, rfl⟩
abbrev main_call3_v0 : Ref sig .tc := ⟨.hbm, 30, rfl⟩
abbrev main_v4 : Ref sig .tc := ⟨.hbm, 31, rfl⟩
abbrev main_c_3 : Ref sig .tc := ⟨.hbm, 32, rfl⟩
abbrev main_call4_v0 : Ref sig .tc := ⟨.hbm, 33, rfl⟩
abbrev main_v5 : Ref sig .tc := ⟨.hbm, 34, rfl⟩
abbrev main_v6 : Ref sig .tc := ⟨.hbm, 35, rfl⟩
abbrev main_c_4 : Ref sig .tc := ⟨.hbm, 36, rfl⟩
abbrev main_call5_v0 : Ref sig .tc := ⟨.hbm, 37, rfl⟩
abbrev main_v7 : Ref sig .tc := ⟨.hbm, 38, rfl⟩
abbrev main_c_5 : Ref sig .tc := ⟨.hbm, 39, rfl⟩
abbrev main_call6_v0 : Ref sig .tc := ⟨.hbm, 40, rfl⟩
abbrev main_v8 : Ref sig .tc := ⟨.hbm, 41, rfl⟩
abbrev main_c_6 : Ref sig .tc := ⟨.hbm, 42, rfl⟩
abbrev main_call7_v0 : Ref sig .tc := ⟨.hbm, 43, rfl⟩
abbrev main_v9 : Ref sig .tc := ⟨.hbm, 44, rfl⟩
abbrev main_v10 : Ref sig .tc := ⟨.hbm, 45, rfl⟩
abbrev main_c_7 : Ref sig .tc := ⟨.hbm, 46, rfl⟩
abbrev main_call8_v0 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16_0 : Ref sig .tc := ⟨.hbm, 53, rfl⟩
abbrev main_v16_1 : Ref sig .tc := ⟨.hbm, 54, rfl⟩
abbrev main_v16_2 : Ref sig .tc := ⟨.hbm, 55, rfl⟩
abbrev main_v16_3 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22_0 : Ref sig .tc := ⟨.hbm, 62, rfl⟩
abbrev main_v22_1 : Ref sig .tc := ⟨.hbm, 63, rfl⟩
abbrev main_v22_2 : Ref sig .tc := ⟨.hbm, 64, rfl⟩
abbrev main_v23_0 : Ref sig .tc := ⟨.hbm, 65, rfl⟩
abbrev main_v23_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg2_0 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg4_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg9_0 : Ref sig .tc := ⟨.vmem, 42, rfl⟩
abbrev cc2_stg10_0 : Ref sig .tc := ⟨.vmem, 43, rfl⟩
abbrev cc2_stg11_0 : Ref sig .tc := ⟨.vmem, 44, rfl⟩
abbrev cc2_stg11_1 : Ref sig .tc := ⟨.vmem, 45, rfl⟩
abbrev cc2_stg12_0 : Ref sig .tc := ⟨.vmem, 46, rfl⟩
abbrev cc2_stg12_1 : Ref sig .tc := ⟨.vmem, 47, rfl⟩
abbrev cc2_stg13_0 : Ref sig .tc := ⟨.vmem, 48, rfl⟩
abbrev cc2_stg13_1 : Ref sig .tc := ⟨.vmem, 49, rfl⟩
abbrev cc3_stg0_0 : Ref sig .tc := ⟨.vmem, 50, rfl⟩
abbrev cc3_stg1_0 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc1_sem0_0 : DmaSem sig := 25
abbrev cc1_sem0_1 : DmaSem sig := 26
abbrev cc1_sem1_0 : DmaSem sig := 27
abbrev cc1_sem2_0 : DmaSem sig := 28
abbrev cc1_sem3_0 : DmaSem sig := 29
abbrev cc1_sem4_0 : DmaSem sig := 30
abbrev cc1_sem4_1 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem8_0 : DmaSem sig := 41
abbrev cc2_sem9_0 : DmaSem sig := 42
abbrev cc2_sem10_0 : DmaSem sig := 43
abbrev cc2_sem11_0 : DmaSem sig := 44
abbrev cc2_sem11_1 : DmaSem sig := 45
abbrev cc2_sem12_0 : DmaSem sig := 46
abbrev cc2_sem12_1 : DmaSem sig := 47
abbrev cc2_sem13_0 : DmaSem sig := 48
abbrev cc2_sem13_1 : DmaSem sig := 49
abbrev cc3_sem0_0 : DmaSem sig := 50
abbrev cc3_sem1_0 : DmaSem sig := 51
abbrev cc3_sem2_0 : DmaSem sig := 52
abbrev cc3_sem2_1 : DmaSem sig := 53
abbrev cc3_sem3_0 : DmaSem sig := 54
abbrev cc3_sem3_1 : DmaSem sig := 55

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S256x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S256x512 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S256x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![16], ![false]⟩

def k3_off1 (i : grid3.Coords) : Fin 2 → Nat :=
  let arg0 : BitVec 32 := BitVec.ofNat 32 (i 0).val
  let c256_i32 : BitVec 32 := 256#32
  let v0 : BitVec 32 := Scalar.muli arg0 c256_i32
  let v1 : Index := Scalar.indexCast v0
  let c0 : Index := 0#32
  ![v1.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S4096x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S4096x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x4096 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  pads_S4096x200_S4096x256_000_0560 : S4096x200.Pads (![0, 0] : Fin 2 → Nat) ![0, 56] ![0, 0] S4096x256
  h_S_ : 0 < S_.numel
  pads_S200_S256_0560 : S200.Pads (![0] : Fin 1 → Nat) ![56] ![0] S256
  shapeCasts_S256_S1x256 : S256.ShapeCasts S1x256
  pads_S200x128_S256x128_0560_000 : S200x128.Pads (![0, 0] : Fin 2 → Nat) ![56, 0] ![0, 0] S256x128
  pads_S512x200_S512x256_000_0560 : S512x200.Pads (![0, 0] : Fin 2 → Nat) ![0, 56] ![0, 0] S512x256
  pads_S128x200_S128x256_000_0560 : S128x200.Pads (![0, 0] : Fin 2 → Nat) ![0, 56] ![0, 0] S128x256
  pads_S200x512_S256x512_0560_000 : S200x512.Pads (![0, 0] : Fin 2 → Nat) ![56, 0] ![0, 0] S256x512
  shapeCasts_S128_S1x128 : S128.ShapeCasts S1x128
  shapeCasts_S512_S1x512 : S512.ShapeCasts S1x512
  inb_S256x4096_S256x4096_0_0 : ∀ a, (![0, 0] : Fin 2 → Nat) a + S256x4096.size a ≤ S256x4096.size a
  h_S256x4096 : 0 < S256x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256x512_S256x512_0_0 : ∀ a, (![0, 0] : Fin 2 → Nat) a + S256x512.size a ≤ S256x512.size a
  h_S256x512 : 0 < S256x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S128x128_S128x128_0_0 : ∀ a, (![0, 0] : Fin 2 → Nat) a + S128x128.size a ≤ S128x128.size a
  h_S128x128 : 0 < S128x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  dot_S256x4096_S4096x256_S256x256_1_0_0_1_n_n_wf : DotDims.WF S256x4096 S4096x256 S256x256 [1] [0] [0] [1] [] []
  dot_S256x512_S512x256_S256x256_1_0_0_1_n_n_wf : DotDims.WF S256x512 S512x256 S256x256 [1] [0] [0] [1] [] []
  dot_S256x256_S256x128_S256x128_1_0_0_1_n_n_wf : DotDims.WF S256x256 S256x128 S256x128 [1] [0] [0] [1] [] []
  dot_S256x128_S128x256_S256x256_1_0_0_1_n_n_wf : DotDims.WF S256x128 S128x256 S256x256 [1] [0] [0] [1] [] []
  dot_S256x256_S256x512_S256x512_1_0_0_1_n_n_wf : DotDims.WF S256x256 S256x512 S256x512 [1] [0] [0] [1] [] []
  dot_S256x128_S128x128_S256x128_1_0_0_1_n_n_wf : DotDims.WF S256x128 S128x128 S256x128 [1] [0] [0] [1] [] []
  dot_S256x4096_S4096x128_S256x128_1_0_0_1_n_n_wf : DotDims.WF S256x4096 S4096x128 S256x128 [1] [0] [0] [1] [] []
  dot_S256x128_S4096x128_S256x4096_1_1_0_0_n_n_wf : DotDims.WF S256x128 S4096x128 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S256x512.size a
  hwx0_9 : ∀ i : grid0.Coords, EltTy.bits .f32 = 32 ∨ (Rect.block (s := S256x512) S256x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S4096x256.size a
  hwx0_15 : ∀ i : grid0.Coords, EltTy.bits .f32 = 32 ∨ (Rect.block (s := S4096x256) S256x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x128.size a ≤ S4096x128.size a
  hwx0_16 : ∀ i : grid0.Coords, EltTy.bits .f32 = 32 ∨ (Rect.block (s := S4096x128) S256x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x512.size a ≤ S4096x512.size a
  hwx0_17 : ∀ i : grid0.Coords, EltTy.bits .f32 = 32 ∨ (Rect.block (s := S4096x512) S256x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x128.size a ≤ S4096x128.size a
  hwx0_18 : ∀ i : grid0.Coords, EltTy.bits .f32 = 32 ∨ (Rect.block (s := S4096x128) S256x128.size (cc0_transform_18 i) (hinb0_18 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S4096x128.size a
  hwx1_4 : ∀ i : grid1.Coords, EltTy.bits .f32 = 32 ∨ (Rect.block (s := S4096x128) S256x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .f32 = 32 ∨ (Rect.block (s := S4096x4096) S256x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S4096x128.size a
  hwx2_1 : ∀ i : grid2.Coords, EltTy.bits .f32 = 32 ∨ (Rect.block (s := S4096x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x512.size a ≤ S256x512.size a
  hwx2_5 : ∀ i : grid2.Coords, EltTy.bits .f32 = 32 ∨ (Rect.block (s := S256x512) S256x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S256x128.size a ≤ S4096x128.size a
  hwx2_11 : ∀ i : grid2.Coords, EltTy.bits .f32 = 32 ∨ (Rect.block (s := S4096x128) S256x128.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S256x512.size a ≤ S4096x512.size a
  hwx2_12 : ∀ i : grid2.Coords, EltTy.bits .f32 = 32 ∨ (Rect.block (s := S4096x512) S256x512.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S256x128.size a ≤ S4096x128.size a
  hwx2_13 : ∀ i : grid2.Coords, EltTy.bits .f32 = 32 ∨ (Rect.block (s := S4096x128) S256x128.size (cc2_transform_13 i) (hinb2_13 i)).WholeWords (EltTy.packing .f32)
  hrank3 : 0 < grid3.rank
  k3_off1_inb : ∀ i : grid3.Coords, ∀ a, (k3_off1 i) a + S256x128.size a ≤ S4096x128.size a
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S4096x128.size a
  hwx3_0 : ∀ i : grid3.Coords, EltTy.bits .f32 = 32 ∨ (Rect.block (s := S4096x128) S4096x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S4096x128.size a
  hwx3_1 : ∀ i : grid3.Coords, EltTy.bits .f32 = 32 ∨ (Rect.block (s := S4096x128) S4096x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x4096.size a ≤ S4096x4096.size a
  hwx3_2 : ∀ i : grid3.Coords, EltTy.bits .f32 = 32 ∨ (Rect.block (s := S4096x4096) S256x4096.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x4096.size a ≤ S4096x4096.size a
  hwx3_3 : ∀ i : grid3.Coords, EltTy.bits .f32 = 32 ∨ (Rect.block (s := S4096x4096) S256x4096.size (cc3_transform_3 i) (hinb3_3 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S256x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg17) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16_0) S256x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v16_1) S256x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v16_2) S256x512.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v16_3) S256x128.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16_0) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4096x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S256x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg15) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v20) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg17) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v21) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v22_0) S256x128.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v22_1) S256x512.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v22_2) S256x128.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_v16_3) S4096x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v22_2) S4096x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v23_0) S256x4096.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v23_1) S256x4096.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x200 : Shape := ⟨2, ![512, 200]⟩
abbrev S200 : Shape := ⟨1, ![200]⟩
abbrev S200x128 : Shape := ⟨2, ![200, 128]⟩
abbrev S128 : Shape := ⟨1, ![128]⟩
abbrev S4096x200 : Shape := ⟨2, ![4096, 200]⟩
abbrev S128x200 : Shape := ⟨2, ![128, 200]⟩
abbrev S200x512 : Shape := ⟨2, ![200, 512]⟩
abbrev S512 : Shape := ⟨1, ![512]⟩
abbrev S128x128 : Shape := ⟨2, ![128, 128]⟩
abbrev S1x200 : Shape := ⟨2, ![1, 200]⟩
abbrev S_ : Shape := ⟨0, ![]⟩
abbrev S4096x128 : Shape := ⟨2, ![4096, 128]⟩
abbrev S1x128 : Shape := ⟨2, ![1, 128]⟩
abbrev S1x512 : Shape := ⟨2, ![1, 512]⟩
abbrev S128x4096 : Shape := ⟨2, ![128, 4096]⟩

abbrev nBuf : Space → Nat
  | .hbm => 91
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x4096, .f32⟩
  | .hbm, ⟨3, _⟩ => ⟨S512x200, .f32⟩
  | .hbm, ⟨4, _⟩ => ⟨S200, .f32⟩
  | .hbm, ⟨5, _⟩ => ⟨S200x128, .f32⟩
  | .hbm, ⟨6, _⟩ => ⟨S128, .f32⟩
  | .hbm, ⟨7, _⟩ => ⟨S4096x200, .f32⟩
  | .hbm, ⟨8, _⟩ => ⟨S200, .f32⟩
  | .hbm, ⟨9, _⟩ => ⟨S200x128, .f32⟩
  | .hbm, ⟨10, _⟩ => ⟨S128, .f32⟩
  | .hbm, ⟨11, _⟩ => ⟨S128x200, .f32⟩
  | .hbm, ⟨12, _⟩ => ⟨S200, .f32⟩
  | .hbm, ⟨13, _⟩ => ⟨S200x512, .f32⟩
  | .hbm, ⟨14, _⟩ => ⟨S512, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S4096x200, .f32⟩
  | .hbm, ⟨20, _⟩ => ⟨S1x200, .f32⟩
  | .hbm, ⟨21, _⟩ => ⟨S4096x200, .f32⟩
  | .hbm, ⟨22, _⟩ => ⟨S4096x200, .f32⟩
  | .hbm, ⟨23, _⟩ => ⟨S_, .f32⟩
  | .hbm, ⟨24, _⟩ => ⟨S4096x200, .f32⟩
  | .hbm, ⟨25, _⟩ => ⟨S4096x200, .f32⟩
  | .hbm, ⟨26, _⟩ => ⟨S4096x128, .f32⟩
  | .hbm, ⟨27, _⟩ => ⟨S1x128, .f32⟩
  | .hbm, ⟨28, _⟩ => ⟨S4096x128, .f32⟩
  | .hbm, ⟨29, _⟩ => ⟨S4096x128, .f32⟩
  | .hbm, ⟨30, _⟩ => ⟨S4096x200, .f32⟩
  | .hbm, ⟨31, _⟩ => ⟨S4096x200, .f32⟩
  | .hbm, ⟨32, _⟩ => ⟨S1x200, .f32⟩
  | .hbm, ⟨33, _⟩ => ⟨S4096x200, .f32⟩
  | .hbm, ⟨34, _⟩ => ⟨S4096x200, .f32⟩
  | .hbm, ⟨35, _⟩ => ⟨S_, .f32⟩
  | .hbm, ⟨36, _⟩ => ⟨S4096x200, .f32⟩
  | .hbm, ⟨37, _⟩ => ⟨S4096x200, .f32⟩
  | .hbm, ⟨38, _⟩ => ⟨S4096x128, .f32⟩
  | .hbm, ⟨39, _⟩ => ⟨S4096x128, .f32⟩
  | .hbm, ⟨40, _⟩ => ⟨S1x128, .f32⟩
  | .hbm, ⟨41, _⟩ => ⟨S4096x128, .f32⟩
  | .hbm, ⟨42, _⟩ => ⟨S4096x128, .f32⟩
  | .hbm, ⟨43, _⟩ => ⟨S4096x200, .f32⟩
  | .hbm, ⟨44, _⟩ => ⟨S1x200, .f32⟩
  | .hbm, ⟨45, _⟩ => ⟨S4096x200, .f32⟩
  | .hbm, ⟨46, _⟩ => ⟨S4096x200, .f32⟩
  | .hbm, ⟨47, _⟩ => ⟨S_, .f32⟩
  | .hbm, ⟨48, _⟩ => ⟨S4096x200, .f32⟩
  | .hbm, ⟨49, _⟩ => ⟨S4096x200, .f32⟩
  | .hbm, ⟨50, _⟩ => ⟨S4096x512, .f32⟩
  | .hbm, ⟨51, _⟩ => ⟨S1x512, .f32⟩
  | .hbm, ⟨52, _⟩ => ⟨S4096x512, .f32⟩
  | .hbm, ⟨53, _⟩ => ⟨S4096x512, .f32⟩
  | .hbm, ⟨54, _⟩ => ⟨S4096x200, .f32⟩
  | .hbm, ⟨55, _⟩ => ⟨S1x200, .f32⟩
  | .hbm, ⟨56, _⟩ => ⟨S4096x200, .f32⟩
  | .hbm, ⟨57, _⟩ => ⟨S4096x200, .f32⟩
  | .hbm, ⟨58, _⟩ => ⟨S_, .f32⟩
  | .hbm, ⟨59, _⟩ => ⟨S4096x200, .f32⟩
  | .hbm, ⟨60, _⟩ => ⟨S4096x200, .f32⟩
  | .hbm, ⟨61, _⟩ => ⟨S4096x512, .f32⟩
  | .hbm, ⟨62, _⟩ => ⟨S1x512, .f32⟩
  | .hbm, ⟨63, _⟩ => ⟨S4096x512, .f32⟩
  | .hbm, ⟨64, _⟩ => ⟨S4096x512, .f32⟩
  | .hbm, ⟨65, _⟩ => ⟨S4096x128, .f32⟩
  | .hbm, ⟨66, _⟩ => ⟨S1x128, .f32⟩
  | .hbm, ⟨67, _⟩ => ⟨S4096x128, .f32⟩
  | .hbm, ⟨68, _⟩ => ⟨S4096x128, .f32⟩
  | .hbm, ⟨69, _⟩ => ⟨S_, .f32⟩
  | .hbm, ⟨70, _⟩ => ⟨S4096x128, .f32⟩
  | .hbm, ⟨71, _⟩ => ⟨S4096x128, .f32⟩
  | .hbm, ⟨72, _⟩ => ⟨S4096x128, .f32⟩
  | .hbm, ⟨73, _⟩ => ⟨S1x128, .f32⟩
  | .hbm, ⟨74, _⟩ => ⟨S4096x128, .f32⟩
  | .hbm, ⟨75, _⟩ => ⟨S4096x128, .f32⟩
  | .hbm, ⟨76, _⟩ => ⟨S128x4096, .f32⟩
  | .hbm, ⟨77, _⟩ => ⟨S4096x4096, .f32⟩
  | .hbm, ⟨78, _⟩ => ⟨S4096x128, .f32⟩
  | .hbm, ⟨79, _⟩ => ⟨S1x128, .f32⟩
  | .hbm, ⟨80, _⟩ => ⟨S4096x128, .f32⟩
  | .hbm, ⟨81, _⟩ => ⟨S4096x128, .f32⟩
  | .hbm, ⟨82, _⟩ => ⟨S_, .f32⟩
  | .hbm, ⟨83, _⟩ => ⟨S4096x128, .f32⟩
  | .hbm, ⟨84, _⟩ => ⟨S4096x128, .f32⟩
  | .hbm, ⟨85, _⟩ => ⟨S4096x128, .f32⟩
  | .hbm, ⟨86, _⟩ => ⟨S1x128, .f32⟩
  | .hbm, ⟨87, _⟩ => ⟨S4096x128, .f32⟩
  | .hbm, ⟨88, _⟩ => ⟨S4096x128, .f32⟩
  | .hbm, ⟨89, _⟩ => ⟨S128x4096, .f32⟩
  | .hbm, ⟨90, _⟩ => ⟨S4096x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call1_cst : Ref sig .tc := ⟨.hbm, 35, rfl⟩
abbrev main_call1_v0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call2_cst : Ref sig .tc := ⟨.hbm, 47, rfl⟩
abbrev main_call2_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call3_cst : Ref sig .tc := ⟨.hbm, 58, rfl⟩
abbrev main_call3_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call4_cst : Ref sig .tc := ⟨.hbm, 69, rfl⟩
abbrev main_call4_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call5_cst : Ref sig .tc := ⟨.hbm, 82, rfl⟩
abbrev main_call5_v0 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]

class Facts₀ : Prop where
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  bcast_S_S4096x200 : S_.BroadcastsInDim S4096x200 (![] : Fin 0 → Fin S4096x200.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x128 : S_.BroadcastsInDim S4096x128 (![] : Fin 0 → Fin S4096x128.rank)
  transposes_S4096x128_S128x4096_1_0 : S4096x128.Transposes [1, 0] S128x4096
  dot_S4096x512_S512x200_S4096x200_1_0_0_1_n_n_wf : DotDims.WF S4096x512 S512x200 S4096x200 [1] [0] [0] [1] [] []
  dot_S4096x200_S200x128_S4096x128_1_0_0_1_n_n_wf : DotDims.WF S4096x200 S200x128 S4096x128 [1] [0] [0] [1] [] []
  dot_S4096x4096_S4096x200_S4096x200_1_0_0_1_n_n_wf : DotDims.WF S4096x4096 S4096x200 S4096x200 [1] [0] [0] [1] [] []
  dot_S4096x4096_S4096x128_S4096x128_1_0_0_1_n_n_wf : DotDims.WF S4096x4096 S4096x128 S4096x128 [1] [0] [0] [1] [] []
  dot_S4096x128_S128x200_S4096x200_1_0_0_1_n_n_wf : DotDims.WF S4096x128 S128x200 S4096x200 [1] [0] [0] [1] [] []
  dot_S4096x200_S200x512_S4096x512_1_0_0_1_n_n_wf : DotDims.WF S4096x200 S200x512 S4096x512 [1] [0] [0] [1] [] []
  dot_S4096x128_S128x128_S4096x128_1_0_0_1_n_n_wf : DotDims.WF S4096x128 S128x128 S4096x128 [1] [0] [0] [1] [] []
  dot_S4096x128_S128x4096_S4096x4096_1_0_0_1_n_n_wf : DotDims.WF S4096x128 S128x4096 S4096x4096 [1] [0] [0] [1] [] []

variable [Facts₀]

def dot_S4096x512_S512x200_S4096x200_1_0_0_1_n_n : DotDims S4096x512 S512x200 S4096x200 where
  lhsContracting := [1]
  rhsContracting := [0]
  lhsNonContracting := [0]
  rhsNonContracting := [1]
  lhsBatch := []
  rhsBatch := []
  wf := dot_S4096x512_S512x200_S4096x200_1_0_0_1_n_n_wf
def dot_S4096x200_S200x128_S4096x128_1_0_0_1_n_n : DotDims S4096x200 S200x128 S4096x128 where
  lhsContracting := [1]
  rhsContracting := [0]
  lhsNonContracting := [0]
  rhsNonContracting := [1]
  lhsBatch := []
  rhsBatch := []
  wf := dot_S4096x200_S200x128_S4096x128_1_0_0_1_n_n_wf
def dot_S4096x4096_S4096x200_S4096x200_1_0_0_1_n_n : DotDims S4096x4096 S4096x200 S4096x200 where
  lhsContracting := [1]
  rhsContracting := [0]
  lhsNonContracting := [0]
  rhsNonContracting := [1]
  lhsBatch := []
  rhsBatch := []
  wf := dot_S4096x4096_S4096x200_S4096x200_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x200_S4096x200_1_0_0_1_n_n : DotDims S4096x128 S128x200 S4096x200 where
  lhsContracting := [1]
  rhsContracting := [0]
  lhsNonContracting := [0]
  rhsNonContracting := [1]
  lhsBatch := []
  rhsBatch := []
  wf := dot_S4096x128_S128x200_S4096x200_1_0_0_1_n_n_wf
def dot_S4096x200_S200x512_S4096x512_1_0_0_1_n_n : DotDims S4096x200 S200x512 S4096x512 where
  lhsContracting := [1]
  rhsContracting := [0]
  lhsNonContracting := [0]
  rhsNonContracting := [1]
  lhsBatch := []
  rhsBatch := []
  wf := dot_S4096x200_S200x512_S4096x512_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.KernelRun.lean ====
/-
  The whole run of the idealized program with its results named.

  The program is nineteen short stretches of host operations (the zero paddings of the hidden width and the biases
  laid out as one-row arrays), the first two kernels, one more stretch, and the last two kernels. Its run is the run
  of these segments in order, and the buffer contents after each segment are a fold from the launch memory: a host
  stretch applies its operations, a kernel leaves each of its arrays at what its write-backs leave and every other
  buffer as it found it. Every weakly fair execution terminates, nothing faulting, and the final memory holds every
  unscoped buffer at the last stage of that fold. Read at the six result buffers this names the results; read at the
  nineteen argument buffers, which no segment writes, it gives back the launch contents.
-/
import proofs.«141271_g66125316489530_cont_sun_m_792_6_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; each result buffer ends at the last stage of the fold
    of buffer contents, and each argument buffer as launched. -/
theorem run_final : θ_run defs (onTc (τ := τ) (main (F := F))) ⟨m, fun _ => 0, ρ⟩ (fun r => ∀ c : Dev nD,
      r.2.mem ((c.tc : Thread nD τ).loc main_v16_1) = W24 m ρ c (Proc.devRef .tc main_v16_1)
      ∧       r.2.mem ((c.tc : Thread nD τ).loc main_v16_2) = W24 m ρ c (Proc.devRef .tc main_v16_2)
      ∧       r.2.mem ((c.tc : Thread nD τ).loc main_v23_0) = W24 m ρ c (Proc.devRef .tc main_v23_0)
      ∧       r.2.mem ((c.tc : Thread nD τ).loc main_v22_0) = W24 m ρ c (Proc.devRef .tc main_v22_0)
      ∧       r.2.mem ((c.tc : Thread nD τ).loc main_v22_1) = W24 m ρ c (Proc.devRef .tc main_v22_1)
      ∧       r.2.mem ((c.tc : Thread nD τ).loc main_v23_1) = W24 m ρ c (Proc.devRef .tc main_v23_1)
      ∧       r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v16_1 (by decide)),
       h c _ (mem_uc main_v16_2 (by decide)),
       h c _ (mem_uc main_v23_0 (by decide)),
       h c _ (mem_uc main_v22_0 (by decide)),
       h c _ (mem_uc main_v22_1 (by decide)),
       h c _ (mem_uc main_v23_1 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c),
       (h c _ (mem_uc main_arg14 (by decide))).trans (W24_main_arg14 m ρ c),
       (h c _ (mem_uc main_arg15 (by decide))).trans (W24_main_arg15 m ρ c),
       (h c _ (mem_uc main_arg16 (by decide))).trans (W24_main_arg16 m ρ c),
       (h c _ (mem_uc main_arg17 (by decide))).trans (W24_main_arg17 m ρ c),
       (h c _ (mem_uc main_arg18 (by decide))).trans (W24_main_arg18 m ρ c)⟩)

end Cert.KernelIdeal.Run

end
-- ==== Proof.Mat.lean ====
/-
  Arrays of extended reals with two axes, and the few operations this network is made of.

  An array of a rows and b columns is a function of a two-coordinate index. The network composes four operations:
  the matrix product (entry (i, j) is the sum over k of l (i, k) · r (k, j)), the product with the transpose of the
  right factor (the sum over k of l (i, k) · r (j, k)), the addition of a one-row array to every row, and the
  positive part, max(x, 0). All four act row by row: row i of the result depends on the left factor only through its
  row i, so a block of rows of a result is the same operation applied to that block of rows.

  The hidden width 200 is stored zero-padded to 256. A product whose right factor has zero rows from row 200 on
  ignores what the left factor holds in those columns, because x · 0 = 0 for every extended real x (the infinities
  included); a product or a row addition whose right factor is zero-padded in its columns agrees with the unpadded
  one on the first 200 columns. Nothing here needs the entries to be finite.
-/
import Idealize.ShloMosaic.Lib.ValueIdx
import Idealize.ShloMosaic.PureOps.Ideal

noncomputable section

namespace Cert.Mat

open Idealize.ShloMosaic Idealize.ShloMosaic.ValueIdx

/-- An array of `a` rows and `b` columns of extended reals. -/
abbrev Arr (a b : Nat) : Type := (⟨2, ![a, b]⟩ : Shape).Idx → EReal

variable {a k b : Nat}

/-- The matrix product: entry (i, j) is the sum over x of l (i, x) · r (x, j). -/
def mm (l : Arr a k) (r : Arr k b) : Arr a b := fun y => ∑ x : Fin k, l (ix2 (y 0) x) * r (ix2 x (y 1))

/-- The product with the transpose of the right factor: entry (i, j) is the sum over x of l (i, x) · r (j, x). -/
def mmT (l : Arr a k) (r : Arr b k) : Arr a b := fun y => ∑ x : Fin k, l (ix2 (y 0) x) * r (ix2 (y 1) x)

/-- A one-row array added to every row. -/
def addRow (x : Arr a b) (v : Arr 1 b) : Arr a b := fun y => x y + v (ix2 0 (y 1))

/-- The positive part, entry by entry. -/
def relu (x : Arr a b) : Arr a b := fun y => max (x y) 0

/-- An affine map of the rows: the product with a weight array, then a bias row added. -/
def lin (x : Arr a k) (w : Arr k b) (v : Arr 1 b) : Arr a b := addRow (mm x w) v

/-- The block of `n` rows starting at row `t · n`. -/
def rowsAt (n t : Nat) (h : t * n + n ≤ a) (x : Arr a b) : Arr n b :=
  fun y => x (ix2 ⟨t * n + (y 0).val, by have := idx2_lt0 y; omega⟩ (y 1))

/-! ## Every operation acts row by row -/

theorem rowsAt_mm (n t : Nat) (h : t * n + n ≤ a) (l : Arr a k) (r : Arr k b) :
    rowsAt n t h (mm l r) = mm (rowsAt n t h l) r := rfl

theorem rowsAt_mmT (n t : Nat) (h : t * n + n ≤ a) (l : Arr a k) (r : Arr b k) :
    rowsAt n t h (mmT l r) = mmT (rowsAt n t h l) r := rfl

theorem rowsAt_addRow (n t : Nat) (h : t * n + n ≤ a) (x : Arr a b) (v : Arr 1 b) :
    rowsAt n t h (addRow x v) = addRow (rowsAt n t h x) v := rfl

theorem rowsAt_relu (n t : Nat) (h : t * n + n ≤ a) (x : Arr a b) :
    rowsAt n t h (relu x) = relu (rowsAt n t h x) := rfl

theorem rowsAt_lin (n t : Nat) (h : t * n + n ≤ a) (x : Arr a k) (w : Arr k b) (v : Arr 1 b) :
    rowsAt n t h (lin x w v) = lin (rowsAt n t h x) w v := rfl

/-! ## Zero padding of the hidden width -/

variable {p q : Nat}

/-- `w` with zero columns appended: `q` columns where `w` has `p ≤ q`. -/
def padCols (q : Nat) (w : Arr a p) : Arr a q :=
  fun y => if h : (y 1).val < p then w (ix2 (y 0) ⟨(y 1).val, h⟩) else 0

/-- `w` with zero rows appended: `q` rows where `w` has `p ≤ q`. -/
def padRows (q : Nat) (w : Arr p b) : Arr q b :=
  fun y => if h : (y 0).val < p then w (ix2 ⟨(y 0).val, h⟩ (y 1)) else 0

/-- A sum over `q` terms that vanish from term `p` on is the sum of the first `p`. -/
theorem sum_pad (hpq : p ≤ q) (f : Fin q → EReal) (hf : ∀ x : Fin q, p ≤ x.val → f x = 0) :
    ∑ x : Fin q, f x = ∑ x : Fin p, f (Fin.castLE hpq x) := by
  obtain ⟨d, rfl⟩ := Nat.exists_eq_add_of_le hpq
  rw [Fin.sum_univ_add]
  have hz : ∑ x : Fin d, f (Fin.natAdd p x) = 0 :=
    Finset.sum_eq_zero fun x _ => hf _ (by simp)
  rw [hz, add_zero]
  rfl

/-- The first `p` columns of an array of `q ≥ p` columns. -/
def takeCols (hpq : p ≤ q) (l : Arr a q) : Arr a p :=
  fun (y : (⟨2, ![a, p]⟩ : Shape).Idx) => l (ix2 (y 0 : Fin a) (Fin.castLE hpq (y 1 : Fin p)))

theorem padRows_of_le (w : Arr p b) (x : Fin q) (j : Fin b) (hx : p ≤ x.val) : padRows q w (ix2 x j) = 0 := by
  show (if h : x.val < p then w (ix2 ⟨x.val, h⟩ j) else 0) = 0
  exact dif_neg (Nat.not_lt.mpr hx)

theorem padRows_castLE (hpq : p ≤ q) (w : Arr p b) (x : Fin p) (j : Fin b) :
    padRows q w (ix2 (Fin.castLE hpq x) j) = w (ix2 x j) := by
  show (if h : (Fin.castLE hpq x).val < p then w (ix2 ⟨(Fin.castLE hpq x).val, h⟩ j) else 0) = _
  rw [dif_pos (show (Fin.castLE hpq x).val < p from x.isLt)]
  rfl

theorem padCols_of_le (w : Arr a p) (i : Fin a) (x : Fin q) (hx : p ≤ x.val) : padCols q w (ix2 i x) = 0 := by
  show (if h : x.val < p then w (ix2 i ⟨x.val, h⟩) else 0) = 0
  exact dif_neg (Nat.not_lt.mpr hx)

theorem padCols_castLE (hpq : p ≤ q) (w : Arr a p) (i : Fin a) (x : Fin p) :
    padCols q w (ix2 i (Fin.castLE hpq x)) = w (ix2 i x) := by
  show (if h : (Fin.castLE hpq x).val < p then w (ix2 i ⟨(Fin.castLE hpq x).val, h⟩) else 0) = _
  rw [dif_pos (show (Fin.castLE hpq x).val < p from x.isLt)]
  rfl

/-- A product whose right factor is zero from row `p` on only sees the first `p` columns of the left factor:
    each later term is x · 0 = 0. -/
theorem mm_padRows (hpq : p ≤ q) (l : Arr a q) (w : Arr p b) :
    mm l (padRows q w) = mm (takeCols hpq l) w := by
  funext y
  unfold mm
  rw [sum_pad hpq _ (fun x hx => by rw [padRows_of_le w x (y 1) hx, mul_zero])]
  refine Finset.sum_congr rfl fun x _ => ?_
  rw [padRows_castLE hpq w x (y 1)]
  rfl

/-- The first `p` columns of a product with a column-padded right factor are the product with the unpadded one. -/
theorem takeCols_mm_padCols (hpq : p ≤ q) (l : Arr a k) (w : Arr k p) :
    takeCols hpq (mm l (padCols q w)) = mm l w := by
  funext y
  unfold takeCols mm
  refine Finset.sum_congr rfl fun x _ => ?_
  rw [show (ix2 (y 0 : Fin a) (Fin.castLE hpq (y 1 : Fin p)) : (⟨2, ![a, q]⟩ : Shape).Idx) 1 = Fin.castLE hpq (y 1) from rfl,
    padCols_castLE hpq w x (y 1)]
  rfl

/-- The first `p` columns of a row addition with a column-padded row are the addition of the unpadded row. -/
theorem takeCols_addRow_padCols (hpq : p ≤ q) (x : Arr a q) (v : Arr 1 p) :
    takeCols hpq (addRow x (padCols q v)) = addRow (takeCols hpq x) v := by
  funext y
  unfold takeCols addRow
  rw [show (ix2 (y 0 : Fin a) (Fin.castLE hpq (y 1 : Fin p)) : (⟨2, ![a, q]⟩ : Shape).Idx) 1 = Fin.castLE hpq (y 1) from rfl,
    padCols_castLE hpq v 0 (y 1)]

theorem takeCols_relu (hpq : p ≤ q) (x : Arr a q) : takeCols hpq (relu x) = relu (takeCols hpq x) := rfl

/-- THE PADDING LAW: a hidden layer computed at the padded width — weights padded in their columns, the bias row
    padded, the next weights padded in their rows — then multiplied on, equals the same at the true width. -/
theorem mm_relu_lin_pad (hpq : p ≤ q) (x : Arr a k) (w1 : Arr k p) (v1 : Arr 1 p) (w2 : Arr p b) :
    mm (relu (lin x (padCols q w1) (padCols q v1))) (padRows q w2) = mm (relu (lin x w1 v1)) w2 := by
  rw [mm_padRows hpq, takeCols_relu]
  unfold lin
  rw [takeCols_addRow_padCols, takeCols_mm_padCols]

end Cert.Mat

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.MatHost.lean ====
/-
  The host's layout operations and products, read as operations on two-axis arrays of extended reals.

  Padding an array's columns (or rows) with a value that is zero is appending zero columns (rows); a length-n array
  padded with zeros and laid out as one row is that row with zero columns appended; a length-n array broadcast to one
  row and then down the rows, added to an array, adds it to every row; the maximum with the broadcast zero constant is
  the positive part; the host's product contracting the left factor's columns with the right factor's rows is the
  matrix product, and against a transposed right factor it is the product with the transpose. The padding value in
  the program is the integer zero converted to a float, which is the real number zero exactly.
-/
import proofs.«141271_g66125316489530_cont_sun_m_792_6_alg».proof.Proof.Mat
import proofs.«141271_g66125316489530_cont_sun_m_792_6_alg».proof.Proof.LibDot
import Idealize.ShloMosaic.Lib.KernelVsHost
import Idealize.ShloMosaic.Lib.ValueLayout
import Idealize.ShloMosaic.Lib.Pipeline.Value

noncomputable section

namespace Cert.Mat

open Idealize.ShloMosaic Idealize.ShloMosaic.ValueIdx

variable {a p q n k b : Nat}

/-- A length-`n` array laid out as one row. -/
def row (v : (⟨1, ![n]⟩ : Shape).Idx → EReal) : Arr 1 n := fun y => v (ix1 (y 1))

/-- The integer zero converted to a float is the real number zero. -/
theorem sitofp_zero : FloatOps.sitofp (F := Ideal) .f32 (0#32 : BitVec 32) = 0 := by
  show ((((0#32 : BitVec 32).toInt : ℝ)) : EReal) = 0
  simp

/-- The one element of the rank-zero padding operand of the program: zero. -/
theorem padValue_zero (hu : 0 < (⟨0, ![]⟩ : Shape).numel) :
    (sitofp (F := Ideal) .f32 (constantI ⟨0, ![]⟩ 32 0#32)) (Shape.Idx.first hu) = 0 := sitofp_zero

/-- Padding the columns on the right with a zero value appends zero columns. -/
theorem pad_cols (hi : Fin 2 → Nat) (x : Arr a p) {u : Shape} (v : u.Idx → EReal)
    (h : (⟨2, ![a, p]⟩ : Shape).Pads ![0, 0] hi ![0, 0] ⟨2, ![a, q]⟩) (hu : 0 < u.numel) (hv : v (Shape.Idx.first hu) = 0) :
    (pad ⟨2, ![a, q]⟩ ![0, 0] hi ![0, 0] x v h hu : Arr a q) = padCols q x := by
  funext y
  show _ = (if hy : (y 1).val < p then x (ix2 (y 0) ⟨(y 1).val, hy⟩) else 0)
  by_cases hy : (y 1).val < p
  · rw [dif_pos hy]
    refine pad_apply_of_inside _ _ _ x _ _ _ y _ (fun ax => ?_)
    match ax with
    | ⟨0, _⟩ => simp
    | ⟨1, _⟩ => simp
  · rw [dif_neg hy]
    refine (pad_apply_of_not_inside _ _ _ x _ _ _ y (1 : Fin 2) (fun hh => hy ?_)).trans hv
    have := hh.2.2
    simpa using this

/-- Padding the rows at the bottom with a zero value appends zero rows. -/
theorem pad_rows (hi : Fin 2 → Nat) (x : Arr p b) {u : Shape} (v : u.Idx → EReal)
    (h : (⟨2, ![p, b]⟩ : Shape).Pads ![0, 0] hi ![0, 0] ⟨2, ![q, b]⟩) (hu : 0 < u.numel) (hv : v (Shape.Idx.first hu) = 0) :
    (pad ⟨2, ![q, b]⟩ ![0, 0] hi ![0, 0] x v h hu : Arr q b) = padRows q x := by
  funext y
  show _ = (if hy : (y 0).val < p then x (ix2 ⟨(y 0).val, hy⟩ (y 1)) else 0)
  by_cases hy : (y 0).val < p
  · rw [dif_pos hy]
    refine pad_apply_of_inside _ _ _ x _ _ _ y _ (fun ax => ?_)
    match ax with
    | ⟨0, _⟩ => simp
    | ⟨1, _⟩ => simp
  · rw [dif_neg hy]
    refine (pad_apply_of_not_inside _ _ _ x _ _ _ y (0 : Fin 2) (fun hh => hy ?_)).trans hv
    have := hh.2.2
    simpa using this

/-- A length-`n` array laid out as one row, by the shape cast. -/
theorem shapeCast_row (v : (⟨1, ![n]⟩ : Shape).Idx → EReal) (h : (⟨1, ![n]⟩ : Shape).ShapeCasts ⟨2, ![1, n]⟩) :
    (shapeCast ⟨2, ![1, n]⟩ v h : Arr 1 n) = row v := by
  funext y
  obtain ⟨u0, j, rfl⟩ : ∃ (u0 : Fin 1) (j : Fin n), y = ix2 u0 j := ⟨y 0, y 1, eq_ix2 y⟩
  exact shapeCast_a_1a_apply v h u0 j

/-- A length-`p` array padded with zeros to length `q`, as one row: the row with zero columns appended. -/
theorem shapeCast_pad_row (hi : Fin 1 → Nat) (v : (⟨1, ![p]⟩ : Shape).Idx → EReal) {u : Shape} (z : u.Idx → EReal)
    (h : (⟨1, ![p]⟩ : Shape).Pads ![0] hi ![0] ⟨1, ![q]⟩) (hu : 0 < u.numel) (hz : z (Shape.Idx.first hu) = 0)
    (hc : (⟨1, ![q]⟩ : Shape).ShapeCasts ⟨2, ![1, q]⟩) :
    (shapeCast ⟨2, ![1, q]⟩ (pad ⟨1, ![q]⟩ ![0] hi ![0] v z h hu) hc : Arr 1 q) = padCols q (row v) := by
  funext y
  obtain ⟨u0, j, rfl⟩ : ∃ (u0 : Fin 1) (j : Fin q), y = ix2 u0 j := ⟨y 0, y 1, eq_ix2 y⟩
  rw [shapeCast_a_1a_apply]
  show _ = (if hy : j.val < p then v (ix1 ⟨j.val, hy⟩) else 0)
  by_cases hy : j.val < p
  · rw [dif_pos hy]
    refine pad_apply_of_inside _ _ _ v _ _ _ (ix1 j) _ (fun ax => ?_)
    match ax with
    | ⟨0, _⟩ => simp
  · rw [dif_neg hy]
    refine (pad_apply_of_not_inside _ _ _ v _ _ _ (ix1 j) (0 : Fin 1) (fun hh => hy ?_)).trans hz
    have := hh.2.2
    simpa using this

/-! ## The reference's spellings -/

/-- A length-`n` array broadcast to one row and then down `a` rows, added to an array: the row added to every row. -/
theorem addf_bcast_row (x : Arr a n) (v : (⟨1, ![n]⟩ : Shape).Idx → EReal)
    (d1 : Fin 1 → Fin 2) (hd1 : d1 0 = 1) (h1 : (⟨1, ![n]⟩ : Shape).BroadcastsInDim ⟨2, ![1, n]⟩ d1)
    (d2 : Fin 2 → Fin 2) (hd20 : d2 0 = 0) (hd21 : d2 1 = 1) (h2 : (⟨2, ![1, n]⟩ : Shape).BroadcastsInDim ⟨2, ![a, n]⟩ d2) :
    (addf (F := Ideal) (φ := .f32) x (broadcastInDim ⟨2, ![a, n]⟩ d2 h2 (broadcastInDim ⟨2, ![1, n]⟩ d1 h1 v)) : Arr a n)
      = addRow x (row v) := by
  funext y
  obtain ⟨i, j, rfl⟩ : ∃ (i : Fin a) (j : Fin n), y = ix2 i j := ⟨y 0, y 1, eq_ix2 y⟩
  show x (ix2 i j) + _ = x (ix2 i j) + v (ix1 j)
  congr 1
  refine (broadcastInDim_apply d2 h2 _ (ix2 i j) (ix2 (0 : Fin 1) j) (fun ax => ?_)).trans
    (broadcastInDim_apply d1 h1 v (ix2 (0 : Fin 1) j) (ix1 j) (fun ax => ?_))
  · match ax with
    | ⟨0, _⟩ => simp
    | ⟨1, _⟩ =>
      show j.val = if n = 1 then 0 else ((ix2 i j) (d2 1)).val
      rw [hd21]
      split
      · omega
      · rfl
  · match ax with
    | ⟨0, _⟩ =>
      show j.val = if n = 1 then 0 else ((ix2 (0 : Fin 1) j) (d1 0)).val
      rw [hd1]
      split
      · omega
      · rfl

/-- The maximum with the zero constant broadcast to every entry is the positive part. -/
theorem maximumf_bcast_zero (x : Arr a n) (d : Fin 0 → Fin 2) (h : (⟨0, ![]⟩ : Shape).BroadcastsInDim ⟨2, ![a, n]⟩ d) :
    (maximumf (F := Ideal) (φ := .f32) x (broadcastInDim ⟨2, ![a, n]⟩ d h (constant ⟨0, ![]⟩ .f32 0x00000000#32)) : Arr a n)
      = relu x := by
  funext y
  show max (x y) _ = max (x y) 0
  congr 1
  exact Ideal.ofBits_zero_f32

/-- The host's product contracting the left factor's columns with the right factor's rows is the matrix product. -/
theorem hostDot_eq_mm {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : Arr M K) (r : Arr K N) :
    (Host.dotGeneral (F := Ideal) (φ₁ := .f32) (φ₂ := .f32) d prec l r : Arr M N) = mm l r := by
  funext y
  simp only [Host.dotGeneral]
  exact Cert.LibDot.dotGeneral_plain_apply d hlc hrc hln hrn hlb hrb _ _ l r y

/-- A product against a transposed right factor is the product with the transpose. -/
theorem mm_transpose {M K N : Nat} (l : Arr M K) (r : Arr N K)
    (h : (⟨2, ![N, K]⟩ : Shape).Transposes [1, 0] ⟨2, ![K, N]⟩) :
    mm l (transpose ⟨2, ![K, N]⟩ [1, 0] r h) = mmT l r := by
  funext y
  unfold mm mmT
  refine Finset.sum_congr rfl fun x _ => ?_
  rw [transpose_ix2_apply r h x (y 1)]

end Cert.Mat

end
-- ==== Proof.Spec.lean ====
/-
  What the network computes, as one function of its nineteen arguments per result.

  An encoder takes the features through a hidden layer of width 200 (an affine map, the positive part) to codes of
  width 128 (an affine map). The graph encoder does the same on the graph: the adjacency times (the node features
  times a weight array), a bias, the positive part, times a weight array, the adjacency applied once more, a bias.
  From codes z of either encoder: the feature decoder is a hidden layer of width 200 and an affine map to width 512;
  the adjacency decoder is a hidden layer of width 128 and an affine map to width 128, whose result h gives the
  4096 × 4096 array of inner products of its rows, h · hᵀ.
-/
import proofs.«141271_g66125316489530_cont_sun_m_792_6_alg».proof.Proof.Mat
import proofs.«141271_g66125316489530_cont_sun_m_792_6_alg».proof.Proof.MatHost

noncomputable section

namespace Cert.Spec

open Cert.Mat Idealize.ShloMosaic

/-- A length-`n` array of extended reals. -/
abbrev Vec1 (n : Nat) : Type := (⟨1, ![n]⟩ : Shape).Idx → EReal

/-- The codes of the feature encoder. -/
def enc (x : Arr 4096 512) (w1 : Arr 512 200) (b1 : Vec1 200) (w2 : Arr 200 128) (b2 : Vec1 128) : Arr 4096 128 :=
  lin (relu (lin x w1 (row b1))) w2 (row b2)

/-- The codes of the graph encoder. -/
def gcn (adj df : Arr 4096 4096) (w1 : Arr 4096 200) (b1 : Vec1 200) (w2 : Arr 200 128) (b2 : Vec1 128) : Arr 4096 128 :=
  lin adj (mm (relu (lin adj (mm df w1) (row b1))) w2) (row b2)

/-- The feature decoder. -/
def decF (z : Arr 4096 128) (w1 : Arr 128 200) (b1 : Vec1 200) (w2 : Arr 200 512) (b2 : Vec1 512) : Arr 4096 512 :=
  lin (relu (lin z w1 (row b1))) w2 (row b2)

/-- The adjacency decoder's rows, before the inner products. -/
def decH (z : Arr 4096 128) (w1 : Arr 128 128) (b1 : Vec1 128) (w2 : Arr 128 128) (b2 : Vec1 128) : Arr 4096 128 :=
  lin (relu (lin z w1 (row b1))) w2 (row b2)

/-- The adjacency decoder: the inner products of the rows. -/
def decA (z : Arr 4096 128) (w1 : Arr 128 128) (b1 : Vec1 128) (w2 : Arr 128 128) (b2 : Vec1 128) : Arr 4096 4096 :=
  mmT (decH z w1 b1 w2 b2) (decH z w1 b1 w2 b2)

end Cert.Spec

end
-- ==== Proof.RefValue.lean ====
/-
  The reference computes the specification.

  The reference is a straight line of host operations. Read as operations on two-axis arrays: each product is the
  matrix product, each bias is broadcast to a row and down the rows and added, each activation is the maximum with a
  broadcast zero, and each adjacency decoder multiplies its rows' array with its own transpose. Rewriting the run's
  composed term by these readings, innermost first, leaves the specification's term.
-/
import proofs.«141271_g66125316489530_cont_sun_m_792_6_alg».proof.Proof.Gen.ReferenceIdeal.Run
import proofs.«141271_g66125316489530_cont_sun_m_792_6_alg».proof.Proof.Spec

set_option maxRecDepth 16384

noncomputable section

namespace Cert.ReferenceIdeal.RefValue

open Cert.ReferenceIdeal Cert.ReferenceIdeal.Gen Cert.Mat Cert.Spec Idealize.ShloMosaic Idealize.ShloMosaic.TcCoe

theorem dot0 (l : FVec Ideal S4096x512 .f32) (r : FVec Ideal S512x200 .f32) :
    Host.dotGeneral dot_S4096x512_S512x200_S4096x200_1_0_0_1_n_n none l r = (mm l r : Arr 4096 200) :=
  hostDot_eq_mm dot_S4096x512_S512x200_S4096x200_1_0_0_1_n_n rfl rfl rfl rfl rfl rfl none l r
theorem dot1 (l : FVec Ideal S4096x200 .f32) (r : FVec Ideal S200x128 .f32) :
    Host.dotGeneral dot_S4096x200_S200x128_S4096x128_1_0_0_1_n_n none l r = (mm l r : Arr 4096 128) :=
  hostDot_eq_mm dot_S4096x200_S200x128_S4096x128_1_0_0_1_n_n rfl rfl rfl rfl rfl rfl none l r
theorem dot2 (l : FVec Ideal S4096x4096 .f32) (r : FVec Ideal S4096x200 .f32) :
    Host.dotGeneral dot_S4096x4096_S4096x200_S4096x200_1_0_0_1_n_n none l r = (mm l r : Arr 4096 200) :=
  hostDot_eq_mm dot_S4096x4096_S4096x200_S4096x200_1_0_0_1_n_n rfl rfl rfl rfl rfl rfl none l r
theorem dot3 (l : FVec Ideal S4096x4096 .f32) (r : FVec Ideal S4096x128 .f32) :
    Host.dotGeneral dot_S4096x4096_S4096x128_S4096x128_1_0_0_1_n_n none l r = (mm l r : Arr 4096 128) :=
  hostDot_eq_mm dot_S4096x4096_S4096x128_S4096x128_1_0_0_1_n_n rfl rfl rfl rfl rfl rfl none l r
theorem dot4 (l : FVec Ideal S4096x128 .f32) (r : FVec Ideal S128x200 .f32) :
    Host.dotGeneral dot_S4096x128_S128x200_S4096x200_1_0_0_1_n_n none l r = (mm l r : Arr 4096 200) :=
  hostDot_eq_mm dot_S4096x128_S128x200_S4096x200_1_0_0_1_n_n rfl rfl rfl rfl rfl rfl none l r
theorem dot5 (l : FVec Ideal S4096x200 .f32) (r : FVec Ideal S200x512 .f32) :
    Host.dotGeneral dot_S4096x200_S200x512_S4096x512_1_0_0_1_n_n none l r = (mm l r : Arr 4096 512) :=
  hostDot_eq_mm dot_S4096x200_S200x512_S4096x512_1_0_0_1_n_n rfl rfl rfl rfl rfl rfl none l r
theorem dot6 (l : FVec Ideal S4096x128 .f32) (r : FVec Ideal S128x128 .f32) :
    Host.dotGeneral dot_S4096x128_S128x128_S4096x128_1_0_0_1_n_n none l r = (mm l r : Arr 4096 128) :=
  hostDot_eq_mm dot_S4096x128_S128x128_S4096x128_1_0_0_1_n_n rfl rfl rfl rfl rfl rfl none l r
theorem dot7 (l : FVec Ideal S4096x128 .f32) (r : FVec Ideal S128x4096 .f32) :
    Host.dotGeneral dot_S4096x128_S128x4096_S4096x4096_1_0_0_1_n_n none l r = (mm l r : Arr 4096 4096) :=
  hostDot_eq_mm dot_S4096x128_S128x4096_S4096x4096_1_0_0_1_n_n rfl rfl rfl rfl rfl rfl none l r

theorem bias200 (x : FVec Ideal S4096x200 .f32) (v : FVec Ideal S200 .f32) :
    addf x (broadcastInDim S4096x200 ![0, 1] bcast_S1x200_S4096x200_0_1 (broadcastInDim S1x200 ![1] bcast_S200_S1x200_1 v))
      = (addRow x (row v) : Arr 4096 200) :=
  addf_bcast_row x v ![1] rfl bcast_S200_S1x200_1 ![0, 1] rfl rfl bcast_S1x200_S4096x200_0_1
theorem bias128 (x : FVec Ideal S4096x128 .f32) (v : FVec Ideal S128 .f32) :
    addf x (broadcastInDim S4096x128 ![0, 1] bcast_S1x128_S4096x128_0_1 (broadcastInDim S1x128 ![1] bcast_S128_S1x128_1 v))
      = (addRow x (row v) : Arr 4096 128) :=
  addf_bcast_row x v ![1] rfl bcast_S128_S1x128_1 ![0, 1] rfl rfl bcast_S1x128_S4096x128_0_1
theorem bias512 (x : FVec Ideal S4096x512 .f32) (v : FVec Ideal S512 .f32) :
    addf x (broadcastInDim S4096x512 ![0, 1] bcast_S1x512_S4096x512_0_1 (broadcastInDim S1x512 ![1] bcast_S512_S1x512_1 v))
      = (addRow x (row v) : Arr 4096 512) :=
  addf_bcast_row x v ![1] rfl bcast_S512_S1x512_1 ![0, 1] rfl rfl bcast_S1x512_S4096x512_0_1

theorem relu200 (x : FVec Ideal S4096x200 .f32) :
    maximumf x (broadcastInDim S4096x200 ![] bcast_S_S4096x200 (constant (F := Ideal) S_ .f32 0x00000000#32)) = (relu x : Arr 4096 200) :=
  maximumf_bcast_zero x ![] bcast_S_S4096x200
theorem relu128 (x : FVec Ideal S4096x128 .f32) :
    maximumf x (broadcastInDim S4096x128 ![] bcast_S_S4096x128 (constant (F := Ideal) S_ .f32 0x00000000#32)) = (relu x : Arr 4096 128) :=
  maximumf_bcast_zero x ![] bcast_S_S4096x128

theorem trT (l : FVec Ideal S4096x128 .f32) (r : FVec Ideal S4096x128 .f32) :
    mm l (transpose S128x4096 [1, 0] r transposes_S4096x128_S128x4096_1_0) = mmT l r :=
  mm_transpose l r transposes_S4096x128_S128x4096_1_0

/-- The reference's result `main_v8` is the specification's. -/
theorem ref_main_v8 (x0 : FVec Ideal S4096x512 .f32) (x3 : FVec Ideal S512x200 .f32) (x4 : FVec Ideal S200 .f32) (x5 : FVec Ideal S200x128 .f32) (x6 : FVec Ideal S128 .f32) :
    ((addf (Host.dotGeneral dot_S4096x200_S200x128_S4096x128_1_0_0_1_n_n none (maximumf (addf (Host.dotGeneral dot_S4096x512_S512x200_S4096x200_1_0_0_1_n_n none x0 x3) (broadcastInDim S4096x200 ![0, 1] bcast_S1x200_S4096x200_0_1 (broadcastInDim S1x200 ![1] bcast_S200_S1x200_1 x4))) (broadcastInDim S4096x200 ![] bcast_S_S4096x200 (constant S_ .f32 0x00000000#32))) x5) (broadcastInDim S4096x128 ![0, 1] bcast_S1x128_S4096x128_0_1 (broadcastInDim S1x128 ![1] bcast_S128_S1x128_1 x6))) : FVec Ideal S4096x128 .f32)
      = enc x0 x3 x4 x5 x6 := by
  rw [dot0 x0 x3]
  rw [bias200 (mm x0 x3) x4]
  rw [relu200 (addRow (mm x0 x3) (row x4))]
  rw [dot1 (relu (addRow (mm x0 x3) (row x4))) x5]
  rw [bias128 (mm (relu (addRow (mm x0 x3) (row x4))) x5) x6]
  rfl

/-- The reference's result `main_v28` is the specification's. -/
theorem ref_main_v28 (x0 : FVec Ideal S4096x512 .f32) (x3 : FVec Ideal S512x200 .f32) (x4 : FVec Ideal S200 .f32) (x5 : FVec Ideal S200x128 .f32) (x6 : FVec Ideal S128 .f32) (x11 : FVec Ideal S128x200 .f32) (x12 : FVec Ideal S200 .f32) (x13 : FVec Ideal S200x512 .f32) (x14 : FVec Ideal S512 .f32) :
    ((addf (Host.dotGeneral dot_S4096x200_S200x512_S4096x512_1_0_0_1_n_n none (maximumf (addf (Host.dotGeneral dot_S4096x128_S128x200_S4096x200_1_0_0_1_n_n none (addf (Host.dotGeneral dot_S4096x200_S200x128_S4096x128_1_0_0_1_n_n none (maximumf (addf (Host.dotGeneral dot_S4096x512_S512x200_S4096x200_1_0_0_1_n_n none x0 x3) (broadcastInDim S4096x200 ![0, 1] bcast_S1x200_S4096x200_0_1 (broadcastInDim S1x200 ![1] bcast_S200_S1x200_1 x4))) (broadcastInDim S4096x200 ![] bcast_S_S4096x200 (constant S_ .f32 0x00000000#32))) x5) (broadcastInDim S4096x128 ![0, 1] bcast_S1x128_S4096x128_0_1 (broadcastInDim S1x128 ![1] bcast_S128_S1x128_1 x6))) x11) (broadcastInDim S4096x200 ![0, 1] bcast_S1x200_S4096x200_0_1 (broadcastInDim S1x200 ![1] bcast_S200_S1x200_1 x12))) (broadcastInDim S4096x200 ![] bcast_S_S4096x200 (constant S_ .f32 0x00000000#32))) x13) (broadcastInDim S4096x512 ![0, 1] bcast_S1x512_S4096x512_0_1 (broadcastInDim S1x512 ![1] bcast_S512_S1x512_1 x14))) : FVec Ideal S4096x512 .f32)
      = decF (enc x0 x3 x4 x5 x6) x11 x12 x13 x14 := by
  rw [dot0 x0 x3]
  rw [bias200 (mm x0 x3) x4]
  rw [relu200 (addRow (mm x0 x3) (row x4))]
  rw [dot1 (relu (addRow (mm x0 x3) (row x4))) x5]
  rw [bias128 (mm (relu (addRow (mm x0 x3) (row x4))) x5) x6]
  rw [dot4 (addRow (mm (relu (addRow (mm x0 x3) (row x4))) x5) (row x6)) x11]
  rw [bias200 (mm (addRow (mm (relu (addRow (mm x0 x3) (row x4))) x5) (row x6)) x11) x12]
  rw [relu200 (addRow (mm (addRow (mm (relu (addRow (mm x0 x3) (row x4))) x5) (row x6)) x11) (row x12))]
  rw [dot5 (relu (addRow (mm (addRow (mm (relu (addRow (mm x0 x3) (row x4))) x5) (row x6)) x11) (row x12))) x13]
  rw [bias512 (mm (relu (addRow (mm (addRow (mm (relu (addRow (mm x0 x3) (row x4))) x5) (row x6)) x11) (row x12))) x13) x14]
  rfl

/-- The reference's result `main_v48` is the specification's. -/
theorem ref_main_v48 (x0 : FVec Ideal S4096x512 .f32) (x3 : FVec Ideal S512x200 .f32) (x4 : FVec Ideal S200 .f32) (x5 : FVec Ideal S200x128 .f32) (x6 : FVec Ideal S128 .f32) (x15 : FVec Ideal S128x128 .f32) (x16 : FVec Ideal S128 .f32) (x17 : FVec Ideal S128x128 .f32) (x18 : FVec Ideal S128 .f32) :
    ((Host.dotGeneral dot_S4096x128_S128x4096_S4096x4096_1_0_0_1_n_n none (addf (Host.dotGeneral dot_S4096x128_S128x128_S4096x128_1_0_0_1_n_n none (maximumf (addf (Host.dotGeneral dot_S4096x128_S128x128_S4096x128_1_0_0_1_n_n none (addf (Host.dotGeneral dot_S4096x200_S200x128_S4096x128_1_0_0_1_n_n none (maximumf (addf (Host.dotGeneral dot_S4096x512_S512x200_S4096x200_1_0_0_1_n_n none x0 x3) (broadcastInDim S4096x200 ![0, 1] bcast_S1x200_S4096x200_0_1 (broadcastInDim S1x200 ![1] bcast_S200_S1x200_1 x4))) (broadcastInDim S4096x200 ![] bcast_S_S4096x200 (constant S_ .f32 0x00000000#32))) x5) (broadcastInDim S4096x128 ![0, 1] bcast_S1x128_S4096x128_0_1 (broadcastInDim S1x128 ![1] bcast_S128_S1x128_1 x6))) x15) (broadcastInDim S4096x128 ![0, 1] bcast_S1x128_S4096x128_0_1 (broadcastInDim S1x128 ![1] bcast_S128_S1x128_1 x16))) (broadcastInDim S4096x128 ![] bcast_S_S4096x128 (constant S_ .f32 0x00000000#32))) x17) (broadcastInDim S4096x128 ![0, 1] bcast_S1x128_S4096x128_0_1 (broadcastInDim S1x128 ![1] bcast_S128_S1x128_1 x18))) (transpose S128x4096 [1, 0] (addf (Host.dotGeneral dot_S4096x128_S128x128_S4096x128_1_0_0_1_n_n none (maximumf (addf (Host.dotGeneral dot_S4096x128_S128x128_S4096x128_1_0_0_1_n_n none (addf (Host.dotGeneral dot_S4096x200_S200x128_S4096x128_1_0_0_1_n_n none (maximumf (addf (Host.dotGeneral dot_S4096x512_S512x200_S4096x200_1_0_0_1_n_n none x0 x3) (broadcastInDim S4096x200 ![0, 1] bcast_S1x200_S4096x200_0_1 (broadcastInDim S1x200 ![1] bcast_S200_S1x200_1 x4))) (broadcastInDim S4096x200 ![] bcast_S_S4096x200 (constant S_ .f32 0x00000000#32))) x5) (broadcastInDim S4096x128 ![0, 1] bcast_S1x128_S4096x128_0_1 (broadcastInDim S1x128 ![1] bcast_S128_S1x128_1 x6))) x15) (broadcastInDim S4096x128 ![0, 1] bcast_S1x128_S4096x128_0_1 (broadcastInDim S1x128 ![1] bcast_S128_S1x128_1 x16))) (broadcastInDim S4096x128 ![] bcast_S_S4096x128 (constant S_ .f32 0x00000000#32))) x17) (broadcastInDim S4096x128 ![0, 1] bcast_S1x128_S4096x128_0_1 (broadcastInDim S1x128 ![1] bcast_S128_S1x128_1 x18))) transposes_S4096x128_S128x4096_1_0)) : FVec Ideal S4096x4096 .f32)
      = decA (enc x0 x3 x4 x5 x6) x15 x16 x17 x18 := by
  rw [dot0 x0 x3]
  rw [bias200 (mm x0 x3) x4]
  rw [relu200 (addRow (mm x0 x3) (row x4))]
  rw [dot1 (relu (addRow (mm x0 x3) (row x4))) x5]
  rw [bias128 (mm (relu (addRow (mm x0 x3) (row x4))) x5) x6]
  rw [dot6 (addRow (mm (relu (addRow (mm x0 x3) (row x4))) x5) (row x6)) x15]
  rw [bias128 (mm (addRow (mm (relu (addRow (mm x0 x3) (row x4))) x5) (row x6)) x15) x16]
  rw [relu128 (addRow (mm (addRow (mm (relu (addRow (mm x0 x3) (row x4))) x5) (row x6)) x15) (row x16))]
  rw [dot6 (relu (addRow (mm (addRow (mm (relu (addRow (mm x0 x3) (row x4))) x5) (row x6)) x15) (row x16))) x17]
  rw [bias128 (mm (relu (addRow (mm (addRow (mm (relu (addRow (mm x0 x3) (row x4))) x5) (row x6)) x15) (row x16))) x17) x18]
  rw [dot7 (addRow (mm (relu (addRow (mm (addRow (mm (relu (addRow (mm x0 x3) (row x4))) x5) (row x6)) x15) (row x16))) x17) (row x18)) (transpose S128x4096 [1, 0] (addRow (mm (relu (addRow (mm (addRow (mm (relu (addRow (mm x0 x3) (row x4))) x5) (row x6)) x15) (row x16))) x17) (row x18)) transposes_S4096x128_S128x4096_1_0)]
  rw [trT (addRow (mm (relu (addRow (mm (addRow (mm (relu (addRow (mm x0 x3) (row x4))) x5) (row x6)) x15) (row x16))) x17) (row x18)) (addRow (mm (relu (addRow (mm (addRow (mm (relu (addRow (mm x0 x3) (row x4))) x5) (row x6)) x15) (row x16))) x17) (row x18))]
  rfl

/-- The reference's result `main_v19` is the specification's. -/
theorem ref_main_v19 (x1 : FVec Ideal S4096x4096 .f32) (x2 : FVec Ideal S4096x4096 .f32) (x7 : FVec Ideal S4096x200 .f32) (x8 : FVec Ideal S200 .f32) (x9 : FVec Ideal S200x128 .f32) (x10 : FVec Ideal S128 .f32) :
    ((addf (Host.dotGeneral dot_S4096x4096_S4096x128_S4096x128_1_0_0_1_n_n none x1 (Host.dotGeneral dot_S4096x200_S200x128_S4096x128_1_0_0_1_n_n none (maximumf (addf (Host.dotGeneral dot_S4096x4096_S4096x200_S4096x200_1_0_0_1_n_n none x1 (Host.dotGeneral dot_S4096x4096_S4096x200_S4096x200_1_0_0_1_n_n none x2 x7)) (broadcastInDim S4096x200 ![0, 1] bcast_S1x200_S4096x200_0_1 (broadcastInDim S1x200 ![1] bcast_S200_S1x200_1 x8))) (broadcastInDim S4096x200 ![] bcast_S_S4096x200 (constant S_ .f32 0x00000000#32))) x9)) (broadcastInDim S4096x128 ![0, 1] bcast_S1x128_S4096x128_0_1 (broadcastInDim S1x128 ![1] bcast_S128_S1x128_1 x10))) : FVec Ideal S4096x128 .f32)
      = gcn x1 x2 x7 x8 x9 x10 := by
  rw [dot2 x2 x7]
  rw [dot2 x1 (mm x2 x7)]
  rw [bias200 (mm x1 (mm x2 x7)) x8]
  rw [relu200 (addRow (mm x1 (mm x2 x7)) (row x8))]
  rw [dot1 (relu (addRow (mm x1 (mm x2 x7)) (row x8))) x9]
  rw [dot3 x1 (mm (relu (addRow (mm x1 (mm x2 x7)) (row x8))) x9)]
  rw [bias128 (mm x1 (mm (relu (addRow (mm x1 (mm x2 x7)) (row x8))) x9)) x10]
  rfl

/-- The reference's result `main_v37` is the specification's. -/
theorem ref_main_v37 (x1 : FVec Ideal S4096x4096 .f32) (x2 : FVec Ideal S4096x4096 .f32) (x7 : FVec Ideal S4096x200 .f32) (x8 : FVec Ideal S200 .f32) (x9 : FVec Ideal S200x128 .f32) (x10 : FVec Ideal S128 .f32) (x11 : FVec Ideal S128x200 .f32) (x12 : FVec Ideal S200 .f32) (x13 : FVec Ideal S200x512 .f32) (x14 : FVec Ideal S512 .f32) :
    ((addf (Host.dotGeneral dot_S4096x200_S200x512_S4096x512_1_0_0_1_n_n none (maximumf (addf (Host.dotGeneral dot_S4096x128_S128x200_S4096x200_1_0_0_1_n_n none (addf (Host.dotGeneral dot_S4096x4096_S4096x128_S4096x128_1_0_0_1_n_n none x1 (Host.dotGeneral dot_S4096x200_S200x128_S4096x128_1_0_0_1_n_n none (maximumf (addf (Host.dotGeneral dot_S4096x4096_S4096x200_S4096x200_1_0_0_1_n_n none x1 (Host.dotGeneral dot_S4096x4096_S4096x200_S4096x200_1_0_0_1_n_n none x2 x7)) (broadcastInDim S4096x200 ![0, 1] bcast_S1x200_S4096x200_0_1 (broadcastInDim S1x200 ![1] bcast_S200_S1x200_1 x8))) (broadcastInDim S4096x200 ![] bcast_S_S4096x200 (constant S_ .f32 0x00000000#32))) x9)) (broadcastInDim S4096x128 ![0, 1] bcast_S1x128_S4096x128_0_1 (broadcastInDim S1x128 ![1] bcast_S128_S1x128_1 x10))) x11) (broadcastInDim S4096x200 ![0, 1] bcast_S1x200_S4096x200_0_1 (broadcastInDim S1x200 ![1] bcast_S200_S1x200_1 x12))) (broadcastInDim S4096x200 ![] bcast_S_S4096x200 (constant S_ .f32 0x00000000#32))) x13) (broadcastInDim S4096x512 ![0, 1] bcast_S1x512_S4096x512_0_1 (broadcastInDim S1x512 ![1] bcast_S512_S1x512_1 x14))) : FVec Ideal S4096x512 .f32)
      = decF (gcn x1 x2 x7 x8 x9 x10) x11 x12 x13 x14 := by
  rw [dot2 x2 x7]
  rw [dot2 x1 (mm x2 x7)]
  rw [bias200 (mm x1 (mm x2 x7)) x8]
  rw [relu200 (addRow (mm x1 (mm x2 x7)) (row x8))]
  rw [dot1 (relu (addRow (mm x1 (mm x2 x7)) (row x8))) x9]
  rw [dot3 x1 (mm (relu (addRow (mm x1 (mm x2 x7)) (row x8))) x9)]
  rw [bias128 (mm x1 (mm (relu (addRow (mm x1 (mm x2 x7)) (row x8))) x9)) x10]
  rw [dot4 (addRow (mm x1 (mm (relu (addRow (mm x1 (mm x2 x7)) (row x8))) x9)) (row x10)) x11]
  rw [bias200 (mm (addRow (mm x1 (mm (relu (addRow (mm x1 (mm x2 x7)) (row x8))) x9)) (row x10)) x11) x12]
  rw [relu200 (addRow (mm (addRow (mm x1 (mm (relu (addRow (mm x1 (mm x2 x7)) (row x8))) x9)) (row x10)) x11) (row x12))]
  rw [dot5 (relu (addRow (mm (addRow (mm x1 (mm (relu (addRow (mm x1 (mm x2 x7)) (row x8))) x9)) (row x10)) x11) (row x12))) x13]
  rw [bias512 (mm (relu (addRow (mm (addRow (mm x1 (mm (relu (addRow (mm x1 (mm x2 x7)) (row x8))) x9)) (row x10)) x11) (row x12))) x13) x14]
  rfl

/-- The reference's result `main_v59` is the specification's. -/
theorem ref_main_v59 (x1 : FVec Ideal S4096x4096 .f32) (x2 : FVec Ideal S4096x4096 .f32) (x7 : FVec Ideal S4096x200 .f32) (x8 : FVec Ideal S200 .f32) (x9 : FVec Ideal S200x128 .f32) (x10 : FVec Ideal S128 .f32) (x15 : FVec Ideal S128x128 .f32) (x16 : FVec Ideal S128 .f32) (x17 : FVec Ideal S128x128 .f32) (x18 : FVec Ideal S128 .f32) :
    ((Host.dotGeneral dot_S4096x128_S128x4096_S4096x4096_1_0_0_1_n_n none (addf (Host.dotGeneral dot_S4096x128_S128x128_S4096x128_1_0_0_1_n_n none (maximumf (addf (Host.dotGeneral dot_S4096x128_S128x128_S4096x128_1_0_0_1_n_n none (addf (Host.dotGeneral dot_S4096x4096_S4096x128_S4096x128_1_0_0_1_n_n none x1 (Host.dotGeneral dot_S4096x200_S200x128_S4096x128_1_0_0_1_n_n none (maximumf (addf (Host.dotGeneral dot_S4096x4096_S4096x200_S4096x200_1_0_0_1_n_n none x1 (Host.dotGeneral dot_S4096x4096_S4096x200_S4096x200_1_0_0_1_n_n none x2 x7)) (broadcastInDim S4096x200 ![0, 1] bcast_S1x200_S4096x200_0_1 (broadcastInDim S1x200 ![1] bcast_S200_S1x200_1 x8))) (broadcastInDim S4096x200 ![] bcast_S_S4096x200 (constant S_ .f32 0x00000000#32))) x9)) (broadcastInDim S4096x128 ![0, 1] bcast_S1x128_S4096x128_0_1 (broadcastInDim S1x128 ![1] bcast_S128_S1x128_1 x10))) x15) (broadcastInDim S4096x128 ![0, 1] bcast_S1x128_S4096x128_0_1 (broadcastInDim S1x128 ![1] bcast_S128_S1x128_1 x16))) (broadcastInDim S4096x128 ![] bcast_S_S4096x128 (constant S_ .f32 0x00000000#32))) x17) (broadcastInDim S4096x128 ![0, 1] bcast_S1x128_S4096x128_0_1 (broadcastInDim S1x128 ![1] bcast_S128_S1x128_1 x18))) (transpose S128x4096 [1, 0] (addf (Host.dotGeneral dot_S4096x128_S128x128_S4096x128_1_0_0_1_n_n none (maximumf (addf (Host.dotGeneral dot_S4096x128_S128x128_S4096x128_1_0_0_1_n_n none (addf (Host.dotGeneral dot_S4096x4096_S4096x128_S4096x128_1_0_0_1_n_n none x1 (Host.dotGeneral dot_S4096x200_S200x128_S4096x128_1_0_0_1_n_n none (maximumf (addf (Host.dotGeneral dot_S4096x4096_S4096x200_S4096x200_1_0_0_1_n_n none x1 (Host.dotGeneral dot_S4096x4096_S4096x200_S4096x200_1_0_0_1_n_n none x2 x7)) (broadcastInDim S4096x200 ![0, 1] bcast_S1x200_S4096x200_0_1 (broadcastInDim S1x200 ![1] bcast_S200_S1x200_1 x8))) (broadcastInDim S4096x200 ![] bcast_S_S4096x200 (constant S_ .f32 0x00000000#32))) x9)) (broadcastInDim S4096x128 ![0, 1] bcast_S1x128_S4096x128_0_1 (broadcastInDim S1x128 ![1] bcast_S128_S1x128_1 x10))) x15) (broadcastInDim S4096x128 ![0, 1] bcast_S1x128_S4096x128_0_1 (broadcastInDim S1x128 ![1] bcast_S128_S1x128_1 x16))) (broadcastInDim S4096x128 ![] bcast_S_S4096x128 (constant S_ .f32 0x00000000#32))) x17) (broadcastInDim S4096x128 ![0, 1] bcast_S1x128_S4096x128_0_1 (broadcastInDim S1x128 ![1] bcast_S128_S1x128_1 x18))) transposes_S4096x128_S128x4096_1_0)) : FVec Ideal S4096x4096 .f32)
      = decA (gcn x1 x2 x7 x8 x9 x10) x15 x16 x17 x18 := by
  rw [dot2 x2 x7]
  rw [dot2 x1 (mm x2 x7)]
  rw [bias200 (mm x1 (mm x2 x7)) x8]
  rw [relu200 (addRow (mm x1 (mm x2 x7)) (row x8))]
  rw [dot1 (relu (addRow (mm x1 (mm x2 x7)) (row x8))) x9]
  rw [dot3 x1 (mm (relu (addRow (mm x1 (mm x2 x7)) (row x8))) x9)]
  rw [bias128 (mm x1 (mm (relu (addRow (mm x1 (mm x2 x7)) (row x8))) x9)) x10]
  rw [dot6 (addRow (mm x1 (mm (relu (addRow (mm x1 (mm x2 x7)) (row x8))) x9)) (row x10)) x15]
  rw [bias128 (mm (addRow (mm x1 (mm (relu (addRow (mm x1 (mm x2 x7)) (row x8))) x9)) (row x10)) x15) x16]
  rw [relu128 (addRow (mm (addRow (mm x1 (mm (relu (addRow (mm x1 (mm x2 x7)) (row x8))) x9)) (row x10)) x15) (row x16))]
  rw [dot6 (relu (addRow (mm (addRow (mm x1 (mm (relu (addRow (mm x1 (mm x2 x7)) (row x8))) x9)) (row x10)) x15) (row x16))) x17]
  rw [bias128 (mm (relu (addRow (mm (addRow (mm x1 (mm (relu (addRow (mm x1 (mm x2 x7)) (row x8))) x9)) (row x10)) x15) (row x16))) x17) x18]
  rw [dot7 (addRow (mm (relu (addRow (mm (addRow (mm x1 (mm (relu (addRow (mm x1 (mm x2 x7)) (row x8))) x9)) (row x10)) x15) (row x16))) x17) (row x18)) (transpose S128x4096 [1, 0] (addRow (mm (relu (addRow (mm (addRow (mm x1 (mm (relu (addRow (mm x1 (mm x2 x7)) (row x8))) x9)) (row x10)) x15) (row x16))) x17) (row x18)) transposes_S4096x128_S128x4096_1_0)]
  rw [trT (addRow (mm (relu (addRow (mm (addRow (mm x1 (mm (relu (addRow (mm x1 (mm x2 x7)) (row x8))) x9)) (row x10)) x15) (row x16))) x17) (row x18)) (addRow (mm (relu (addRow (mm (addRow (mm x1 (mm (relu (addRow (mm x1 (mm x2 x7)) (row x8))) x9)) (row x10)) x15) (row x16))) x17) (row x18))]
  rfl

end Cert.ReferenceIdeal.RefValue

end
-- ==== Proof.Chain19a.lean ====
/-
  The buffers the kernels read, as the first kernel finds them (part one).

  Before the first kernel the program only pads and re-lays arguments: a weight array of hidden width 200 gets 56
  zero columns (or zero rows) appended, a bias of length 200 gets 56 zeros appended and is laid out as one row of 256,
  a bias of the visible widths is laid out as one row; the padding value is the integer zero converted to a float.
  Each such buffer is written once and never again, and no argument buffer is written at all, so what each holds at
  the first kernel's entry is that one operation applied to the launch contents of its argument.
-/
import proofs.«141271_g66125316489530_cont_sun_m_792_6_alg».proof.Proof.Gen.KernelIdeal.Frame
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

/-- What `main_arg0` holds when the first kernel is entered. -/
theorem at19_main_arg0 (c : Dev nD) : W19 m ρ c (Proc.devRef .tc main_arg0)
    = (m ((c : Thread nD τ).loc main_arg0)) := by
  after_results
  all_goals rfl

/-- What `main_arg1` holds when the first kernel is entered. -/
theorem at19_main_arg1 (c : Dev nD) : W19 m ρ c (Proc.devRef .tc main_arg1)
    = (m ((c : Thread nD τ).loc main_arg1)) := by
  after_results
  all_goals rfl

/-- What `main_arg2` holds when the first kernel is entered. -/
theorem at19_main_arg2 (c : Dev nD) : W19 m ρ c (Proc.devRef .tc main_arg2)
    = (m ((c : Thread nD τ).loc main_arg2)) := by
  after_results
  all_goals rfl

/-- What `main_arg15` holds when the first kernel is entered. -/
theorem at19_main_arg15 (c : Dev nD) : W19 m ρ c (Proc.devRef .tc main_arg15)
    = (m ((c : Thread nD τ).loc main_arg15)) := by
  after_results
  all_goals rfl

/-- What `main_arg17` holds when the first kernel is entered. -/
theorem at19_main_arg17 (c : Dev nD) : W19 m ρ c (Proc.devRef .tc main_arg17)
    = (m ((c : Thread nD τ).loc main_arg17)) := by
  after_results
  all_goals rfl

/-- What `main_arg10` holds when the first kernel is entered. -/
theorem at19_main_arg10 (c : Dev nD) : W19 m ρ c (Proc.devRef .tc main_arg10)
    = (m ((c : Thread nD τ).loc main_arg10)) := by
  after_results
  all_goals rfl

/-- What `main_arg14` holds when the first kernel is entered. -/
theorem at19_main_arg14 (c : Dev nD) : W19 m ρ c (Proc.devRef .tc main_arg14)
    = (m ((c : Thread nD τ).loc main_arg14)) := by
  after_results
  all_goals rfl

/-- What `main_arg16` holds when the first kernel is entered. -/
theorem at19_main_arg16 (c : Dev nD) : W19 m ρ c (Proc.devRef .tc main_arg16)
    = (m ((c : Thread nD τ).loc main_arg16)) := by
  after_results
  all_goals rfl

/-- What `main_arg18` holds when the first kernel is entered. -/
theorem at19_main_arg18 (c : Dev nD) : W19 m ρ c (Proc.devRef .tc main_arg18)
    = (m ((c : Thread nD τ).loc main_arg18)) := by
  after_results
  all_goals rfl

/-- What `main_v0` holds when the first kernel is entered. -/
theorem at19_main_v0 (c : Dev nD) : W19 m ρ c (Proc.devRef .tc main_v0)
    = pad S4096x256 ![0, 0] ![0, 56] ![0, 0] (m ((c : Thread nD τ).loc main_arg7)) (sitofp (F := Ideal) .f32 (constantI S_ 32 0#32)) pads_S4096x200_S4096x256_000_0560 h_S_ := by
  after_results
  all_goals rfl

/-- What `main_v4` holds when the first kernel is entered. -/
theorem at19_main_v4 (c : Dev nD) : W19 m ρ c (Proc.devRef .tc main_v4)
    = pad S512x256 ![0, 0] ![0, 56] ![0, 0] (m ((c : Thread nD τ).loc main_arg3)) (sitofp (F := Ideal) .f32 (constantI S_ 32 0#32)) pads_S512x200_S512x256_000_0560 h_S_ := by
  after_results
  all_goals rfl

end Cert.KernelIdeal.Chain

end
-- ==== Proof.Chain19b.lean ====
/-
  The buffers the kernels read, as the first kernel finds them (part two).

  Before the first kernel the program only pads and re-lays arguments: a weight array of hidden width 200 gets 56
  zero columns (or zero rows) appended, a bias of length 200 gets 56 zeros appended and is laid out as one row of 256,
  a bias of the visible widths is laid out as one row; the padding value is the integer zero converted to a float.
  Each such buffer is written once and never again, and no argument buffer is written at all, so what each holds at
  the first kernel's entry is that one operation applied to the launch contents of its argument.
-/
import proofs.«141271_g66125316489530_cont_sun_m_792_6_alg».proof.Proof.Gen.KernelIdeal.Frame
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

/-- What `main_v8` holds when the first kernel is entered. -/
theorem at19_main_v8 (c : Dev nD) : W19 m ρ c (Proc.devRef .tc main_v8)
    = pad S128x256 ![0, 0] ![0, 56] ![0, 0] (m ((c : Thread nD τ).loc main_arg11)) (sitofp (F := Ideal) .f32 (constantI S_ 32 0#32)) pads_S128x200_S128x256_000_0560 h_S_ := by
  after_results
  all_goals rfl

/-- What `main_v3` holds when the first kernel is entered. -/
theorem at19_main_v3 (c : Dev nD) : W19 m ρ c (Proc.devRef .tc main_v3)
    = pad S256x128 ![0, 0] ![56, 0] ![0, 0] (m ((c : Thread nD τ).loc main_arg9)) (sitofp (F := Ideal) .f32 (constantI S_ 32 0#32)) pads_S200x128_S256x128_0560_000 h_S_ := by
  after_results
  all_goals rfl

/-- What `main_v7` holds when the first kernel is entered. -/
theorem at19_main_v7 (c : Dev nD) : W19 m ρ c (Proc.devRef .tc main_v7)
    = pad S256x128 ![0, 0] ![56, 0] ![0, 0] (m ((c : Thread nD τ).loc main_arg5)) (sitofp (F := Ideal) .f32 (constantI S_ 32 0#32)) pads_S200x128_S256x128_0560_000 h_S_ := by
  after_results
  all_goals rfl

/-- What `main_v11` holds when the first kernel is entered. -/
theorem at19_main_v11 (c : Dev nD) : W19 m ρ c (Proc.devRef .tc main_v11)
    = pad S256x512 ![0, 0] ![56, 0] ![0, 0] (m ((c : Thread nD τ).loc main_arg13)) (sitofp (F := Ideal) .f32 (constantI S_ 32 0#32)) pads_S200x512_S256x512_0560_000 h_S_ := by
  after_results
  all_goals rfl

/-- What `main_v2` holds when the first kernel is entered. -/
theorem at19_main_v2 (c : Dev nD) : W19 m ρ c (Proc.devRef .tc main_v2)
    = shapeCast S1x256 (pad S256 ![0] ![56] ![0] (m ((c : Thread nD τ).loc main_arg8)) (sitofp (F := Ideal) .f32 (constantI S_ 32 0#32)) pads_S200_S256_0560 h_S_) shapeCasts_S256_S1x256 := by
  after_results
  all_goals rfl

/-- What `main_v6` holds when the first kernel is entered. -/
theorem at19_main_v6 (c : Dev nD) : W19 m ρ c (Proc.devRef .tc main_v6)
    = shapeCast S1x256 (pad S256 ![0] ![56] ![0] (m ((c : Thread nD τ).loc main_arg4)) (sitofp (F := Ideal) .f32 (constantI S_ 32 0#32)) pads_S200_S256_0560 h_S_) shapeCasts_S256_S1x256 := by
  after_results
  all_goals rfl

/-- What `main_v10` holds when the first kernel is entered. -/
theorem at19_main_v10 (c : Dev nD) : W19 m ρ c (Proc.devRef .tc main_v10)
    = shapeCast S1x256 (pad S256 ![0] ![56] ![0] (m ((c : Thread nD τ).loc main_arg12)) (sitofp (F := Ideal) .f32 (constantI S_ 32 0#32)) pads_S200_S256_0560 h_S_) shapeCasts_S256_S1x256 := by
  after_results
  all_goals rfl

/-- What `main_v12` holds when the first kernel is entered. -/
theorem at19_main_v12 (c : Dev nD) : W19 m ρ c (Proc.devRef .tc main_v12)
    = shapeCast S1x128 (m ((c : Thread nD τ).loc main_arg6)) shapeCasts_S128_S1x128 := by
  after_results
  all_goals rfl

/-- What `main_v13` holds when the first kernel is entered. -/
theorem at19_main_v13 (c : Dev nD) : W19 m ρ c (Proc.devRef .tc main_v13)
    = shapeCast S1x512 (m ((c : Thread nD τ).loc main_arg14)) shapeCasts_S512_S1x512 := by
  after_results
  all_goals rfl

/-- What `main_v14` holds when the first kernel is entered. -/
theorem at19_main_v14 (c : Dev nD) : W19 m ρ c (Proc.devRef .tc main_v14)
    = shapeCast S1x128 (m ((c : Thread nD τ).loc main_arg16)) shapeCasts_S128_S1x128 := by
  after_results
  all_goals rfl

/-- What `main_v15` holds when the first kernel is entered. -/
theorem at19_main_v15 (c : Dev nD) : W19 m ρ c (Proc.devRef .tc main_v15)
    = shapeCast S1x128 (m ((c : Thread nD τ).loc main_arg18)) shapeCasts_S128_S1x128 := by
  after_results
  all_goals rfl

end Cert.KernelIdeal.Chain

end
-- ==== Proof.ChainUp.lean ====
/-
  The buffers the later kernels read, and the results, traced back through the kernels.

  A kernel leaves each of its own arrays at what its write-backs leave — for an array it only reads, what it found —
  and every other buffer as it found it; the one later stretch of host operations lays four more biases out as rows
  and writes nothing else. So a buffer a later kernel reads is either an argument or a padded weight from before the
  first kernel, or one of the four new bias rows, or an earlier kernel's output array; and each of the six results is
  the output array of the kernel that wrote it.
-/
import proofs.«141271_g66125316489530_cont_sun_m_792_6_alg».proof.Proof.Gen.KernelIdeal.Frame
import Idealize.ShloMosaic.Lib.StableHlo.Run
import Idealize.ShloMosaic.PureOps.Ideal
import proofs.«141271_g66125316489530_cont_sun_m_792_6_alg».proof.Proof.Chain19a
import proofs.«141271_g66125316489530_cont_sun_m_792_6_alg».proof.Proof.Chain19b
set_option maxRecDepth 16384

noncomputable section

namespace Cert.KernelIdeal.Chain

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

theorem at20_main_arg1 (c : Dev nD) : W20 m ρ c (Proc.devRef .tc main_arg1) = W19 m ρ c (Proc.devRef .tc main_arg1) := W20_of_ne m ρ c main_arg1 (by decide)

theorem at20_main_v2 (c : Dev nD) : W20 m ρ c (Proc.devRef .tc main_v2) = W19 m ρ c (Proc.devRef .tc main_v2) := W20_of_ne m ρ c main_v2 (by decide)

theorem at20_main_v3 (c : Dev nD) : W20 m ρ c (Proc.devRef .tc main_v3) = W19 m ρ c (Proc.devRef .tc main_v3) := W20_of_ne m ρ c main_v3 (by decide)

theorem at20_main_arg10 (c : Dev nD) : W20 m ρ c (Proc.devRef .tc main_arg10) = W19 m ρ c (Proc.devRef .tc main_arg10) := W20_of_ne m ρ c main_arg10 (by decide)

theorem at20_main_arg14 (c : Dev nD) : W20 m ρ c (Proc.devRef .tc main_arg14) = W19 m ρ c (Proc.devRef .tc main_arg14) := W20_of_ne m ρ c main_arg14 (by decide)

theorem at20_main_arg16 (c : Dev nD) : W20 m ρ c (Proc.devRef .tc main_arg16) = W19 m ρ c (Proc.devRef .tc main_arg16) := W20_of_ne m ρ c main_arg16 (by decide)

theorem at20_main_arg18 (c : Dev nD) : W20 m ρ c (Proc.devRef .tc main_arg18) = W19 m ρ c (Proc.devRef .tc main_arg18) := W20_of_ne m ρ c main_arg18 (by decide)

theorem at20_main_v16_0 (c : Dev nD) : W20 m ρ c (Proc.devRef .tc main_v16_0) = (dat0 (V19 m ρ) c).arrAt 15 cfg0.N := W20_arr m ρ c 15

theorem at20_main_v16_1 (c : Dev nD) : W20 m ρ c (Proc.devRef .tc main_v16_1) = (dat0 (V19 m ρ) c).arrAt 16 cfg0.N := W20_arr m ρ c 16

theorem at20_main_v16_2 (c : Dev nD) : W20 m ρ c (Proc.devRef .tc main_v16_2) = (dat0 (V19 m ρ) c).arrAt 17 cfg0.N := W20_arr m ρ c 17

theorem at20_main_v16_3 (c : Dev nD) : W20 m ρ c (Proc.devRef .tc main_v16_3) = (dat0 (V19 m ρ) c).arrAt 18 cfg0.N := W20_arr m ρ c 18

theorem at22_main_v8 (c : Dev nD) : W22 m ρ c (Proc.devRef .tc main_v8) = W19 m ρ c (Proc.devRef .tc main_v8) :=
  calc W22 m ρ c (Proc.devRef .tc main_v8)
    _ = W21 m ρ c (Proc.devRef .tc main_v8) := StableHlo.after_of_forall_not_mem (b := Proc.devRef .tc main_v8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W20 m ρ c (Proc.devRef .tc main_v8) := W21_of_ne m ρ c main_v8 (by decide)
    _ = W19 m ρ c (Proc.devRef .tc main_v8) := (W20_arr m ρ c 7).trans (((dat0 (V19 m ρ) c).arrAt_in 7 rfl _).trans (A_eq0 (V19 m ρ) c 7))

theorem at22_main_v10 (c : Dev nD) : W22 m ρ c (Proc.devRef .tc main_v10) = W19 m ρ c (Proc.devRef .tc main_v10) :=
  calc W22 m ρ c (Proc.devRef .tc main_v10)
    _ = W21 m ρ c (Proc.devRef .tc main_v10) := StableHlo.after_of_forall_not_mem (b := Proc.devRef .tc main_v10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W20 m ρ c (Proc.devRef .tc main_v10) := W21_of_ne m ρ c main_v10 (by decide)
    _ = W19 m ρ c (Proc.devRef .tc main_v10) := (W20_arr m ρ c 8).trans (((dat0 (V19 m ρ) c).arrAt_in 8 rfl _).trans (A_eq0 (V19 m ρ) c 8))

theorem at22_main_v11 (c : Dev nD) : W22 m ρ c (Proc.devRef .tc main_v11) = W19 m ρ c (Proc.devRef .tc main_v11) :=
  calc W22 m ρ c (Proc.devRef .tc main_v11)
    _ = W21 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W20 m ρ c (Proc.devRef .tc main_v11) := W21_of_ne m ρ c main_v11 (by decide)
    _ = W19 m ρ c (Proc.devRef .tc main_v11) := (W20_arr m ρ c 9).trans (((dat0 (V19 m ρ) c).arrAt_in 9 rfl _).trans (A_eq0 (V19 m ρ) c 9))

theorem at22_main_arg15 (c : Dev nD) : W22 m ρ c (Proc.devRef .tc main_arg15) = W19 m ρ c (Proc.devRef .tc main_arg15) :=
  calc W22 m ρ c (Proc.devRef .tc main_arg15)
    _ = W21 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W20 m ρ c (Proc.devRef .tc main_arg15) := W21_of_ne m ρ c main_arg15 (by decide)
    _ = W19 m ρ c (Proc.devRef .tc main_arg15) := (W20_arr m ρ c 11).trans (((dat0 (V19 m ρ) c).arrAt_in 11 rfl _).trans (A_eq0 (V19 m ρ) c 11))

theorem at22_main_arg17 (c : Dev nD) : W22 m ρ c (Proc.devRef .tc main_arg17) = W19 m ρ c (Proc.devRef .tc main_arg17) :=
  calc W22 m ρ c (Proc.devRef .tc main_arg17)
    _ = W21 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W20 m ρ c (Proc.devRef .tc main_arg17) := W21_of_ne m ρ c main_arg17 (by decide)
    _ = W19 m ρ c (Proc.devRef .tc main_arg17) := (W20_arr m ρ c 13).trans (((dat0 (V19 m ρ) c).arrAt_in 13 rfl _).trans (A_eq0 (V19 m ρ) c 13))

theorem at22_main_arg1 (c : Dev nD) : W22 m ρ c (Proc.devRef .tc main_arg1) = W19 m ρ c (Proc.devRef .tc main_arg1) :=
  calc W22 m ρ c (Proc.devRef .tc main_arg1)
    _ = W21 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W20 m ρ c (Proc.devRef .tc main_arg1) := (W21_arr m ρ c 0).trans (((dat1 (V20 m ρ) c).arrAt_in 0 rfl _).trans (A_eq1 (V20 m ρ) c 0))
    _ = W19 m ρ c (Proc.devRef .tc main_arg1) := W20_of_ne m ρ c main_arg1 (by decide)

theorem at22_main_v17 (c : Dev nD) : W22 m ρ c (Proc.devRef .tc main_v17) = (dat1 (V20 m ρ) c).arrAt 4 cfg1.N :=
  calc W22 m ρ c (Proc.devRef .tc main_v17)
    _ = W21 m ρ c (Proc.devRef .tc main_v17) := StableHlo.after_of_forall_not_mem (b := Proc.devRef .tc main_v17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat1 (V20 m ρ) c).arrAt 4 cfg1.N := W21_arr m ρ c 4

theorem at22_main_v18 (c : Dev nD) : W22 m ρ c (Proc.devRef .tc main_v18)
    = shapeCast S1x128 (m ((c : Thread nD τ).loc main_arg10)) shapeCasts_S128_S1x128 := by
  have e : W21 m ρ c (Proc.devRef .tc main_arg10) = m ((c : Thread nD τ).loc main_arg10) :=
    ((W21_of_ne m ρ c main_arg10 (by decide)).trans (at20_main_arg10 m ρ c)).trans (at19_main_arg10 m ρ c)
  show StableHlo.after hostOps2 (W21 m ρ c) (Proc.devRef .tc main_v18) = _
  after_results
  rw [e]
  all_goals rfl

theorem at22_main_v19 (c : Dev nD) : W22 m ρ c (Proc.devRef .tc main_v19)
    = shapeCast S1x512 (m ((c : Thread nD τ).loc main_arg14)) shapeCasts_S512_S1x512 := by
  have e : W21 m ρ c (Proc.devRef .tc main_arg14) = m ((c : Thread nD τ).loc main_arg14) :=
    ((W21_of_ne m ρ c main_arg14 (by decide)).trans (at20_main_arg14 m ρ c)).trans (at19_main_arg14 m ρ c)
  show StableHlo.after hostOps2 (W21 m ρ c) (Proc.devRef .tc main_v19) = _
  after_results
  rw [e]
  all_goals rfl

theorem at22_main_v20 (c : Dev nD) : W22 m ρ c (Proc.devRef .tc main_v20)
    = shapeCast S1x128 (m ((c : Thread nD τ).loc main_arg16)) shapeCasts_S128_S1x128 := by
  have e : W21 m ρ c (Proc.devRef .tc main_arg16) = m ((c : Thread nD τ).loc main_arg16) :=
    ((W21_of_ne m ρ c main_arg16 (by decide)).trans (at20_main_arg16 m ρ c)).trans (at19_main_arg16 m ρ c)
  show StableHlo.after hostOps2 (W21 m ρ c) (Proc.devRef .tc main_v20) = _
  after_results
  rw [e]
  all_goals rfl

theorem at22_main_v21 (c : Dev nD) : W22 m ρ c (Proc.devRef .tc main_v21)
    = shapeCast S1x128 (m ((c : Thread nD τ).loc main_arg18)) shapeCasts_S128_S1x128 := by
  have e : W21 m ρ c (Proc.devRef .tc main_arg18) = m ((c : Thread nD τ).loc main_arg18) :=
    ((W21_of_ne m ρ c main_arg18 (by decide)).trans (at20_main_arg18 m ρ c)).trans (at19_main_arg18 m ρ c)
  show StableHlo.after hostOps2 (W21 m ρ c) (Proc.devRef .tc main_v21) = _
  after_results
  rw [e]
  all_goals rfl

theorem at23_main_v16_3 (c : Dev nD) : W23 m ρ c (Proc.devRef .tc main_v16_3) = (dat0 (V19 m ρ) c).arrAt 18 cfg0.N :=
  calc W23 m ρ c (Proc.devRef .tc main_v16_3)
    _ = W22 m ρ c (Proc.devRef .tc main_v16_3) := W23_of_ne m ρ c main_v16_3 (by decide)
    _ = W21 m ρ c (Proc.devRef .tc main_v16_3) := StableHlo.after_of_forall_not_mem (b := Proc.devRef .tc main_v16_3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W20 m ρ c (Proc.devRef .tc main_v16_3) := W21_of_ne m ρ c main_v16_3 (by decide)
    _ = (dat0 (V19 m ρ) c).arrAt 18 cfg0.N := W20_arr m ρ c 18

theorem at23_main_v22_2 (c : Dev nD) : W23 m ρ c (Proc.devRef .tc main_v22_2) = (dat2 (V22 m ρ) c).arrAt 13 cfg2.N := W23_arr m ρ c 13

theorem at24_main_v23_0 (c : Dev nD) : W24 m ρ c (Proc.devRef .tc main_v23_0) = (dat3 (V23 m ρ) c).arrAt 2 cfg3.N := W24_arr m ρ c 2

theorem at24_main_v23_1 (c : Dev nD) : W24 m ρ c (Proc.devRef .tc main_v23_1) = (dat3 (V23 m ρ) c).arrAt 3 cfg3.N := W24_arr m ρ c 3

theorem at24_main_v22_0 (c : Dev nD) : W24 m ρ c (Proc.devRef .tc main_v22_0) = (dat2 (V22 m ρ) c).arrAt 11 cfg2.N :=
  (W24_of_ne m ρ c main_v22_0 (by decide)).trans (W23_arr m ρ c 11)

theorem at24_main_v22_1 (c : Dev nD) : W24 m ρ c (Proc.devRef .tc main_v22_1) = (dat2 (V22 m ρ) c).arrAt 12 cfg2.N :=
  (W24_of_ne m ρ c main_v22_1 (by decide)).trans (W23_arr m ρ c 12)

theorem at24_main_v16_1 (c : Dev nD) : W24 m ρ c (Proc.devRef .tc main_v16_1) = (dat0 (V19 m ρ) c).arrAt 16 cfg0.N :=
  calc W24 m ρ c (Proc.devRef .tc main_v16_1)
    _ = W23 m ρ c (Proc.devRef .tc main_v16_1) := W24_of_ne m ρ c main_v16_1 (by decide)
    _ = W22 m ρ c (Proc.devRef .tc main_v16_1) := W23_of_ne m ρ c main_v16_1 (by decide)
    _ = W21 m ρ c (Proc.devRef .tc main_v16_1) := StableHlo.after_of_forall_not_mem (b := Proc.devRef .tc main_v16_1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W20 m ρ c (Proc.devRef .tc main_v16_1) := W21_of_ne m ρ c main_v16_1 (by decide)
    _ = (dat0 (V19 m ρ) c).arrAt 16 cfg0.N := W20_arr m ρ c 16

theorem at24_main_v16_2 (c : Dev nD) : W24 m ρ c (Proc.devRef .tc main_v16_2) = (dat0 (V19 m ρ) c).arrAt 17 cfg0.N :=
  calc W24 m ρ c (Proc.devRef .tc main_v16_2)
    _ = W23 m ρ c (Proc.devRef .tc main_v16_2) := W24_of_ne m ρ c main_v16_2 (by decide)
    _ = W22 m ρ c (Proc.devRef .tc main_v16_2) := W23_of_ne m ρ c main_v16_2 (by decide)
    _ = W21 m ρ c (Proc.devRef .tc main_v16_2) := StableHlo.after_of_forall_not_mem (b := Proc.devRef .tc main_v16_2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W20 m ρ c (Proc.devRef .tc main_v16_2) := W21_of_ne m ρ c main_v16_2 (by decide)
    _ = (dat0 (V19 m ρ) c).arrAt 17 cfg0.N := W20_arr m ρ c 17

end Cert.KernelIdeal.Chain

end
-- ==== Proof.Entries.lean ====
/-
  What each kernel finds in the buffers it reads, in terms of the launch contents of the arguments.

  An argument read directly is the argument. A weight array of hidden width 200 arrives with zero columns (or zero
  rows) appended up to 256; a bias of length 200 arrives as one row with zero columns appended; a bias of a visible
  width arrives as one row. (The arrays one kernel passes to the next are not here: they are that kernel's outputs.)
-/
import proofs.«141271_g66125316489530_cont_sun_m_792_6_alg».proof.Proof.Gen.KernelIdeal.Frame
import Idealize.ShloMosaic.Lib.StableHlo.Run
import Idealize.ShloMosaic.PureOps.Ideal
import proofs.«141271_g66125316489530_cont_sun_m_792_6_alg».proof.Proof.ChainUp
import proofs.«141271_g66125316489530_cont_sun_m_792_6_alg».proof.Proof.MatHost
import proofs.«141271_g66125316489530_cont_sun_m_792_6_alg».proof.Proof.Spec
set_option maxRecDepth 16384

noncomputable section

namespace Cert.KernelIdeal.Entries

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

open Cert.KernelIdeal.Chain

variable (c : Dev nD)

/-- Argument 0 as launched. -/
abbrev a0 : Mat.Arr 4096 512 := m ((c : Thread nD τ).loc main_arg0)
/-- Argument 1 as launched. -/
abbrev a1 : Mat.Arr 4096 4096 := m ((c : Thread nD τ).loc main_arg1)
/-- Argument 2 as launched. -/
abbrev a2 : Mat.Arr 4096 4096 := m ((c : Thread nD τ).loc main_arg2)
/-- Argument 3 as launched. -/
abbrev a3 : Mat.Arr 512 200 := m ((c : Thread nD τ).loc main_arg3)
/-- Argument 4 as launched. -/
abbrev a4 : Spec.Vec1 200 := m ((c : Thread nD τ).loc main_arg4)
/-- Argument 5 as launched. -/
abbrev a5 : Mat.Arr 200 128 := m ((c : Thread nD τ).loc main_arg5)
/-- Argument 6 as launched. -/
abbrev a6 : Spec.Vec1 128 := m ((c : Thread nD τ).loc main_arg6)
/-- Argument 7 as launched. -/
abbrev a7 : Mat.Arr 4096 200 := m ((c : Thread nD τ).loc main_arg7)
/-- Argument 8 as launched. -/
abbrev a8 : Spec.Vec1 200 := m ((c : Thread nD τ).loc main_arg8)
/-- Argument 9 as launched. -/
abbrev a9 : Mat.Arr 200 128 := m ((c : Thread nD τ).loc main_arg9)
/-- Argument 10 as launched. -/
abbrev a10 : Spec.Vec1 128 := m ((c : Thread nD τ).loc main_arg10)
/-- Argument 11 as launched. -/
abbrev a11 : Mat.Arr 128 200 := m ((c : Thread nD τ).loc main_arg11)
/-- Argument 12 as launched. -/
abbrev a12 : Spec.Vec1 200 := m ((c : Thread nD τ).loc main_arg12)
/-- Argument 13 as launched. -/
abbrev a13 : Mat.Arr 200 512 := m ((c : Thread nD τ).loc main_arg13)
/-- Argument 14 as launched. -/
abbrev a14 : Spec.Vec1 512 := m ((c : Thread nD τ).loc main_arg14)
/-- Argument 15 as launched. -/
abbrev a15 : Mat.Arr 128 128 := m ((c : Thread nD τ).loc main_arg15)
/-- Argument 16 as launched. -/
abbrev a16 : Spec.Vec1 128 := m ((c : Thread nD τ).loc main_arg16)
/-- Argument 17 as launched. -/
abbrev a17 : Mat.Arr 128 128 := m ((c : Thread nD τ).loc main_arg17)
/-- Argument 18 as launched. -/
abbrev a18 : Spec.Vec1 128 := m ((c : Thread nD τ).loc main_arg18)

theorem e0_0 : (V19 m ρ c (Pipeline.arrRef spec0 0) : Mat.Arr 4096 512) = (a0 m c) :=
  at19_main_arg0 m ρ c

theorem e0_1 : (V19 m ρ c (Pipeline.arrRef spec0 1) : Mat.Arr 4096 4096) = (a2 m c) :=
  at19_main_arg2 m ρ c

theorem e0_2 : (V19 m ρ c (Pipeline.arrRef spec0 2) : Mat.Arr 4096 256) = Mat.padCols 256 (a7 m c) :=
  (at19_main_v0 m ρ c).trans (Mat.pad_cols _ _ _ _ _ (Mat.padValue_zero _))

theorem e0_3 : (V19 m ρ c (Pipeline.arrRef spec0 3) : Mat.Arr 512 256) = Mat.padCols 256 (a3 m c) :=
  (at19_main_v4 m ρ c).trans (Mat.pad_cols _ _ _ _ _ (Mat.padValue_zero _))

theorem e0_4 : (V19 m ρ c (Pipeline.arrRef spec0 4) : Mat.Arr 1 256) = Mat.padCols 256 (Mat.row (a4 m c)) :=
  (at19_main_v6 m ρ c).trans (Mat.shapeCast_pad_row _ _ _ _ _ (Mat.padValue_zero _) _)

theorem e0_5 : (V19 m ρ c (Pipeline.arrRef spec0 5) : Mat.Arr 256 128) = Mat.padRows 256 (a5 m c) :=
  (at19_main_v7 m ρ c).trans (Mat.pad_rows _ _ _ _ _ (Mat.padValue_zero _))

theorem e0_6 : (V19 m ρ c (Pipeline.arrRef spec0 6) : Mat.Arr 1 128) = Mat.row (a6 m c) :=
  (at19_main_v12 m ρ c).trans (Mat.shapeCast_row _ _)

theorem e0_7 : (V19 m ρ c (Pipeline.arrRef spec0 7) : Mat.Arr 128 256) = Mat.padCols 256 (a11 m c) :=
  (at19_main_v8 m ρ c).trans (Mat.pad_cols _ _ _ _ _ (Mat.padValue_zero _))

theorem e0_8 : (V19 m ρ c (Pipeline.arrRef spec0 8) : Mat.Arr 1 256) = Mat.padCols 256 (Mat.row (a12 m c)) :=
  (at19_main_v10 m ρ c).trans (Mat.shapeCast_pad_row _ _ _ _ _ (Mat.padValue_zero _) _)

theorem e0_9 : (V19 m ρ c (Pipeline.arrRef spec0 9) : Mat.Arr 256 512) = Mat.padRows 256 (a13 m c) :=
  (at19_main_v11 m ρ c).trans (Mat.pad_rows _ _ _ _ _ (Mat.padValue_zero _))

theorem e0_10 : (V19 m ρ c (Pipeline.arrRef spec0 10) : Mat.Arr 1 512) = Mat.row (a14 m c) :=
  (at19_main_v13 m ρ c).trans (Mat.shapeCast_row _ _)

theorem e0_11 : (V19 m ρ c (Pipeline.arrRef spec0 11) : Mat.Arr 128 128) = (a15 m c) :=
  at19_main_arg15 m ρ c

theorem e0_12 : (V19 m ρ c (Pipeline.arrRef spec0 12) : Mat.Arr 1 128) = Mat.row (a16 m c) :=
  (at19_main_v14 m ρ c).trans (Mat.shapeCast_row _ _)

theorem e0_13 : (V19 m ρ c (Pipeline.arrRef spec0 13) : Mat.Arr 128 128) = (a17 m c) :=
  at19_main_arg17 m ρ c

theorem e0_14 : (V19 m ρ c (Pipeline.arrRef spec0 14) : Mat.Arr 1 128) = Mat.row (a18 m c) :=
  (at19_main_v15 m ρ c).trans (Mat.shapeCast_row _ _)

theorem e1_0 : (V20 m ρ c (Pipeline.arrRef spec1 0) : Mat.Arr 4096 4096) = (a1 m c) :=
  (at20_main_arg1 m ρ c).trans (at19_main_arg1 m ρ c)

theorem e1_2 : (V20 m ρ c (Pipeline.arrRef spec1 2) : Mat.Arr 1 256) = Mat.padCols 256 (Mat.row (a8 m c)) :=
  (at20_main_v2 m ρ c).trans ((at19_main_v2 m ρ c).trans (Mat.shapeCast_pad_row _ _ _ _ _ (Mat.padValue_zero _) _))

theorem e1_3 : (V20 m ρ c (Pipeline.arrRef spec1 3) : Mat.Arr 256 128) = Mat.padRows 256 (a9 m c) :=
  (at20_main_v3 m ρ c).trans ((at19_main_v3 m ρ c).trans (Mat.pad_rows _ _ _ _ _ (Mat.padValue_zero _)))

theorem e2_0 : (V22 m ρ c (Pipeline.arrRef spec2 0) : Mat.Arr 4096 4096) = (a1 m c) :=
  (at22_main_arg1 m ρ c).trans (at19_main_arg1 m ρ c)

theorem e2_2 : (V22 m ρ c (Pipeline.arrRef spec2 2) : Mat.Arr 1 128) = Mat.row (a10 m c) :=
  (at22_main_v18 m ρ c).trans (Mat.shapeCast_row _ _)

theorem e2_3 : (V22 m ρ c (Pipeline.arrRef spec2 3) : Mat.Arr 128 256) = Mat.padCols 256 (a11 m c) :=
  (at22_main_v8 m ρ c).trans ((at19_main_v8 m ρ c).trans (Mat.pad_cols _ _ _ _ _ (Mat.padValue_zero _)))

theorem e2_4 : (V22 m ρ c (Pipeline.arrRef spec2 4) : Mat.Arr 1 256) = Mat.padCols 256 (Mat.row (a12 m c)) :=
  (at22_main_v10 m ρ c).trans ((at19_main_v10 m ρ c).trans (Mat.shapeCast_pad_row _ _ _ _ _ (Mat.padValue_zero _) _))

theorem e2_5 : (V22 m ρ c (Pipeline.arrRef spec2 5) : Mat.Arr 256 512) = Mat.padRows 256 (a13 m c) :=
  (at22_main_v11 m ρ c).trans ((at19_main_v11 m ρ c).trans (Mat.pad_rows _ _ _ _ _ (Mat.padValue_zero _)))

theorem e2_6 : (V22 m ρ c (Pipeline.arrRef spec2 6) : Mat.Arr 1 512) = Mat.row (a14 m c) :=
  (at22_main_v19 m ρ c).trans (Mat.shapeCast_row _ _)

theorem e2_7 : (V22 m ρ c (Pipeline.arrRef spec2 7) : Mat.Arr 128 128) = (a15 m c) :=
  (at22_main_arg15 m ρ c).trans (at19_main_arg15 m ρ c)

theorem e2_8 : (V22 m ρ c (Pipeline.arrRef spec2 8) : Mat.Arr 1 128) = Mat.row (a16 m c) :=
  (at22_main_v20 m ρ c).trans (Mat.shapeCast_row _ _)

theorem e2_9 : (V22 m ρ c (Pipeline.arrRef spec2 9) : Mat.Arr 128 128) = (a17 m c) :=
  (at22_main_arg17 m ρ c).trans (at19_main_arg17 m ρ c)

theorem e2_10 : (V22 m ρ c (Pipeline.arrRef spec2 10) : Mat.Arr 1 128) = Mat.row (a18 m c) :=
  (at22_main_v21 m ρ c).trans (Mat.shapeCast_row _ _)

end Cert.KernelIdeal.Entries

end
-- ==== Proof.SpecPad.lean ====
/-
  The padded network is the network.

  The kernels compute every hidden layer of width 200 at the stored width 256: the weights into the layer have 56
  zero columns appended, its bias 56 zeros, and the weights out of it 56 zero rows. The product out of the layer
  multiplies whatever the 56 extra hidden entries hold by zero, so it only sees the first 200, and those are computed
  from the unpadded weights and bias. For the graph encoder the padded array is itself a product (the node features
  times the padded weights) passed through the adjacency first; taking the first 200 columns commutes with both
  products on the left.
-/
import proofs.«141271_g66125316489530_cont_sun_m_792_6_alg».proof.Proof.Mat
import proofs.«141271_g66125316489530_cont_sun_m_792_6_alg».proof.Proof.MatHost
import proofs.«141271_g66125316489530_cont_sun_m_792_6_alg».proof.Proof.Spec

noncomputable section

namespace Cert.Mat

open Idealize.ShloMosaic Idealize.ShloMosaic.ValueIdx

variable {a k p q b : Nat}

/-- The first columns of a product are the product with the first columns of the right factor. -/
theorem takeCols_mm (hpq : p ≤ q) (l : Arr a k) (r : Arr k q) :
    takeCols hpq (mm l r) = mm l (takeCols hpq r) := rfl

end Cert.Mat

namespace Cert.Spec

open Cert.Mat Idealize.ShloMosaic

/-- The feature encoder at the padded hidden width. -/
theorem enc_pad (x : Arr 4096 512) (w1 : Arr 512 200) (b1 : Vec1 200) (w2 : Arr 200 128) (b2 : Vec1 128) :
    lin (relu (lin x (padCols 256 w1) (padCols 256 (row b1)))) (padRows 256 w2) (row b2) = enc x w1 b1 w2 b2 := by
  unfold enc
  show addRow (mm (relu (lin x (padCols 256 w1) (padCols 256 (row b1)))) (padRows 256 w2)) (row b2) = _
  rw [mm_relu_lin_pad (by decide : 200 ≤ 256)]
  rfl

/-- The feature decoder at the padded hidden width. -/
theorem decF_pad (z : Arr 4096 128) (w1 : Arr 128 200) (b1 : Vec1 200) (w2 : Arr 200 512) (b2 : Vec1 512) :
    lin (relu (lin z (padCols 256 w1) (padCols 256 (row b1)))) (padRows 256 w2) (row b2) = decF z w1 b1 w2 b2 := by
  unfold decF
  show addRow (mm (relu (lin z (padCols 256 w1) (padCols 256 (row b1)))) (padRows 256 w2)) (row b2) = _
  rw [mm_relu_lin_pad (by decide : 200 ≤ 256)]
  rfl

/-- The graph encoder's hidden layer at the padded width, multiplied on. -/
theorem gcn_hidden_pad (adj df : Arr 4096 4096) (w1 : Arr 4096 200) (b1 : Vec1 200) (w2 : Arr 200 128) :
    mm (relu (lin adj (mm df (padCols 256 w1)) (padCols 256 (row b1)))) (padRows 256 w2)
      = mm (relu (lin adj (mm df w1) (row b1))) w2 := by
  rw [mm_padRows (by decide : 200 ≤ 256), takeCols_relu]
  unfold lin
  rw [takeCols_addRow_padCols, takeCols_mm, takeCols_mm_padCols]

/-- The graph encoder at the padded hidden width. -/
theorem gcn_pad (adj df : Arr 4096 4096) (w1 : Arr 4096 200) (b1 : Vec1 200) (w2 : Arr 200 128) (b2 : Vec1 128) :
    lin adj (mm (relu (lin adj (mm df (padCols 256 w1)) (padCols 256 (row b1)))) (padRows 256 w2)) (row b2)
      = gcn adj df w1 b1 w2 b2 := by
  unfold gcn
  rw [gcn_hidden_pad]

end Cert.Spec

end
-- ==== Proof.Region0b.lean ====
/-
  Region 0's blocks as rows of their arrays.

  The grid has 16 points. A row-blocked window's block at point t sits at block index (t, 0), so its element (i, j) is
  the array's element (256 t + i, j): the block is the 256 rows starting at row 256 t. A whole-array window's block
  sits at block index (0, 0) and is the array itself.
-/
import proofs.«141271_g66125316489530_cont_sun_m_792_6_alg».proof.Proof.Gen.KernelIdeal.Frame
import proofs.«141271_g66125316489530_cont_sun_m_792_6_alg».proof.Proof.Mat

noncomputable section

namespace Cert.KernelIdeal.R0

open Idealize.ShloMosaic Idealize.ShloMosaic.ValueIdx Idealize.ShloMosaic.TcCoe Cert.KernelIdeal Cert.KernelIdeal.Gen

/-- A grid point is below 16. -/
theorem pt_lt (t : Fin cfg0.N) : t.val < 16 := lt_of_lt_of_eq t.isLt (N_0 : cfg0.N = 16)

/-- The rows of block t lie inside the 4096 rows. -/
theorem pt_rows (t : Fin cfg0.N) : t.val * 256 + 256 ≤ 4096 := by
  have := pt_lt t
  omega

/-! ## The printed index maps over the grid -/

theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_15.index t (0 : Fin 2) = t.val ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0)
    ∧ (win0_18.index t (0 : Fin 2) = t.val ∧ win0_18.index t (1 : Fin 2) = 0) :=
  (by decide +kernel : ∀ t : Fin grid0.N, _)

theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-! ## A row-blocked window's block of any array of its shape -/

theorem read_blk_1 (t : Fin cfg0.N) (G : Mat.Arr 4096 4096) :
    (((cfg0.win 1).blk t).view.read (Elt Ideal) G : Mat.Arr 256 4096) = Mat.rowsAt 256 t.val (pt_rows t) G := by
  funext y
  rw [View.read_apply]
  obtain ⟨-, ⟨e0, e1⟩, -⟩ := idx_rows t
  show G (((cfg0.win 1).blk t).view.emb y) = G (ix2 ⟨t.val * 256 + (y 0).val, _⟩ (y 1))
  refine congrArg G (funext fun a => Fin.ext ?_)
  match a with
  | ⟨0, _⟩ => show win0_1.index t (0 : Fin 2) * 256 + 1 * (y 0).val = t.val * 256 + (y 0).val; rw [e0]; omega
  | ⟨1, _⟩ => show win0_1.index t (1 : Fin 2) * 4096 + 1 * (y 1).val = (y 1).val; rw [e1]; omega

theorem read_blk_0 (t : Fin cfg0.N) (G : Mat.Arr 4096 512) :
    (((cfg0.win 0).blk t).view.read (Elt Ideal) G : Mat.Arr 256 512) = Mat.rowsAt 256 t.val (pt_rows t) G := by
  funext y
  rw [View.read_apply]
  obtain ⟨⟨e0, e1⟩, -, -, -, -, -⟩ := idx_rows t
  show G (((cfg0.win 0).blk t).view.emb y) = G (ix2 ⟨t.val * 256 + (y 0).val, _⟩ (y 1))
  refine congrArg G (funext fun a => Fin.ext ?_)
  match a with
  | ⟨0, _⟩ => show win0_0.index t (0 : Fin 2) * 256 + 1 * (y 0).val = t.val * 256 + (y 0).val; rw [e0]; omega
  | ⟨1, _⟩ => show win0_0.index t (1 : Fin 2) * 512 + 1 * (y 1).val = (y 1).val; rw [e1]; omega

theorem read_blk_15 (t : Fin cfg0.N) (G : Mat.Arr 4096 256) :
    (((cfg0.win 15).blk t).view.read (Elt Ideal) G : Mat.Arr 256 256) = Mat.rowsAt 256 t.val (pt_rows t) G := by
  funext y
  rw [View.read_apply]
  obtain ⟨-, -, ⟨e0, e1⟩, -, -, -⟩ := idx_rows t
  show G (((cfg0.win 15).blk t).view.emb y) = G (ix2 ⟨t.val * 256 + (y 0).val, _⟩ (y 1))
  refine congrArg G (funext fun a => Fin.ext ?_)
  match a with
  | ⟨0, _⟩ => show win0_15.index t (0 : Fin 2) * 256 + 1 * (y 0).val = t.val * 256 + (y 0).val; rw [e0]; omega
  | ⟨1, _⟩ => show win0_15.index t (1 : Fin 2) * 256 + 1 * (y 1).val = (y 1).val; rw [e1]; omega

theorem read_blk_16 (t : Fin cfg0.N) (G : Mat.Arr 4096 128) :
    (((cfg0.win 16).blk t).view.read (Elt Ideal) G : Mat.Arr 256 128) = Mat.rowsAt 256 t.val (pt_rows t) G := by
  funext y
  rw [View.read_apply]
  obtain ⟨-, -, -, ⟨e0, e1⟩, -, -⟩ := idx_rows t
  show G (((cfg0.win 16).blk t).view.emb y) = G (ix2 ⟨t.val * 256 + (y 0).val, _⟩ (y 1))
  refine congrArg G (funext fun a => Fin.ext ?_)
  match a with
  | ⟨0, _⟩ => show win0_16.index t (0 : Fin 2) * 256 + 1 * (y 0).val = t.val * 256 + (y 0).val; rw [e0]; omega
  | ⟨1, _⟩ => show win0_16.index t (1 : Fin 2) * 128 + 1 * (y 1).val = (y 1).val; rw [e1]; omega

theorem read_blk_17 (t : Fin cfg0.N) (G : Mat.Arr 4096 512) :
    (((cfg0.win 17).blk t).view.read (Elt Ideal) G : Mat.Arr 256 512) = Mat.rowsAt 256 t.val (pt_rows t) G := by
  funext y
  rw [View.read_apply]
  obtain ⟨-, -, -, -, ⟨e0, e1⟩, -⟩ := idx_rows t
  show G (((cfg0.win 17).blk t).view.emb y) = G (ix2 ⟨t.val * 256 + (y 0).val, _⟩ (y 1))
  refine congrArg G (funext fun a => Fin.ext ?_)
  match a with
  | ⟨0, _⟩ => show win0_17.index t (0 : Fin 2) * 256 + 1 * (y 0).val = t.val * 256 + (y 0).val; rw [e0]; omega
  | ⟨1, _⟩ => show win0_17.index t (1 : Fin 2) * 512 + 1 * (y 1).val = (y 1).val; rw [e1]; omega

theorem read_blk_18 (t : Fin cfg0.N) (G : Mat.Arr 4096 128) :
    (((cfg0.win 18).blk t).view.read (Elt Ideal) G : Mat.Arr 256 128) = Mat.rowsAt 256 t.val (pt_rows t) G := by
  funext y
  rw [View.read_apply]
  obtain ⟨-, -, -, -, -, ⟨e0, e1⟩⟩ := idx_rows t
  show G (((cfg0.win 18).blk t).view.emb y) = G (ix2 ⟨t.val * 256 + (y 0).val, _⟩ (y 1))
  refine congrArg G (funext fun a => Fin.ext ?_)
  match a with
  | ⟨0, _⟩ => show win0_18.index t (0 : Fin 2) * 256 + 1 * (y 0).val = t.val * 256 + (y 0).val; rw [e0]; omega
  | ⟨1, _⟩ => show win0_18.index t (1 : Fin 2) * 128 + 1 * (y 1).val = (y 1).val; rw [e1]; omega

/-! ## A whole-array window's block of any array of its shape -/

theorem read_blk_2 (t : Fin cfg0.N) (G : Mat.Arr 4096 256) :
    (((cfg0.win 2).blk t).view.read (Elt Ideal) G : Mat.Arr 4096 256) = G := by
  funext y
  rw [View.read_apply]
  obtain ⟨⟨e0, e1⟩, -, -, -, -, -, -, -, -, -, -, -, -⟩ := idx_whole t
  refine congrArg G (funext fun a => Fin.ext ?_)
  match a with
  | ⟨0, _⟩ => show win0_2.index t (0 : Fin 2) * 4096 + 1 * (y 0).val = (y 0).val; rw [e0]; omega
  | ⟨1, _⟩ => show win0_2.index t (1 : Fin 2) * 256 + 1 * (y 1).val = (y 1).val; rw [e1]; omega

theorem read_blk_3 (t : Fin cfg0.N) (G : Mat.Arr 512 256) :
    (((cfg0.win 3).blk t).view.read (Elt Ideal) G : Mat.Arr 512 256) = G := by
  funext y
  rw [View.read_apply]
  obtain ⟨-, ⟨e0, e1⟩, -, -, -, -, -, -, -, -, -, -, -⟩ := idx_whole t
  refine congrArg G (funext fun a => Fin.ext ?_)
  match a with
  | ⟨0, _⟩ => show win0_3.index t (0 : Fin 2) * 512 + 1 * (y 0).val = (y 0).val; rw [e0]; omega
  | ⟨1, _⟩ => show win0_3.index t (1 : Fin 2) * 256 + 1 * (y 1).val = (y 1).val; rw [e1]; omega

theorem read_blk_4 (t : Fin cfg0.N) (G : Mat.Arr 1 256) :
    (((cfg0.win 4).blk t).view.read (Elt Ideal) G : Mat.Arr 1 256) = G := by
  funext y
  rw [View.read_apply]
  obtain ⟨-, -, ⟨e0, e1⟩, -, -, -, -, -, -, -, -, -, -⟩ := idx_whole t
  refine congrArg G (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

theorem read_blk_5 (t : Fin cfg0.N) (G : Mat.Arr 256 128) :
    (((cfg0.win 5).blk t).view.read (Elt Ideal) G : Mat.Arr 256 128) = G := by
  funext y
  rw [View.read_apply]
  obtain ⟨-, -, -, ⟨e0, e1⟩, -, -, -, -, -, -, -, -, -⟩ := idx_whole t
  refine congrArg G (funext fun a => Fin.ext ?_)
  match a with
  | ⟨0, _⟩ => show win0_5.index t (0 : Fin 2) * 256 + 1 * (y 0).val = (y 0).val; rw [e0]; omega
  | ⟨1, _⟩ => show win0_5.index t (1 : Fin 2) * 128 + 1 * (y 1).val = (y 1).val; rw [e1]; omega

theorem read_blk_6 (t : Fin cfg0.N) (G : Mat.Arr 1 128) :
    (((cfg0.win 6).blk t).view.read (Elt Ideal) G : Mat.Arr 1 128) = G := by
  funext y
  rw [View.read_apply]
  obtain ⟨-, -, -, -, ⟨e0, e1⟩, -, -, -, -, -, -, -, -⟩ := idx_whole t
  refine congrArg G (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

theorem read_blk_7 (t : Fin cfg0.N) (G : Mat.Arr 128 256) :
    (((cfg0.win 7).blk t).view.read (Elt Ideal) G : Mat.Arr 128 256) = G := by
  funext y
  rw [View.read_apply]
  obtain ⟨-, -, -, -, -, ⟨e0, e1⟩, -, -, -, -, -, -, -⟩ := idx_whole t
  refine congrArg G (funext fun a => Fin.ext ?_)
  match a with
  | ⟨0, _⟩ => show win0_7.index t (0 : Fin 2) * 128 + 1 * (y 0).val = (y 0).val; rw [e0]; omega
  | ⟨1, _⟩ => show win0_7.index t (1 : Fin 2) * 256 + 1 * (y 1).val = (y 1).val; rw [e1]; omega

theorem read_blk_8 (t : Fin cfg0.N) (G : Mat.Arr 1 256) :
    (((cfg0.win 8).blk t).view.read (Elt Ideal) G : Mat.Arr 1 256) = G := by
  funext y
  rw [View.read_apply]
  obtain ⟨-, -, -, -, -, -, ⟨e0, e1⟩, -, -, -, -, -, -⟩ := idx_whole t
  refine congrArg G (funext fun a => Fin.ext ?_)
  match a with
  | ⟨0, _⟩ => show win0_8.index t (0 : Fin 2) * 1 + 1 * (y 0).val = (y 0).val; rw [e0]; omega
  | ⟨1, _⟩ => show win0_8.index t (1 : Fin 2) * 256 + 1 * (y 1).val = (y 1).val; rw [e1]; omega

theorem read_blk_9 (t : Fin cfg0.N) (G : Mat.Arr 256 512) :
    (((cfg0.win 9).blk t).view.read (Elt Ideal) G : Mat.Arr 256 512) = G := by
  funext y
  rw [View.read_apply]
  obtain ⟨-, -, -, -, -, -, -, ⟨e0, e1⟩, -, -, -, -, -⟩ := idx_whole t
  refine congrArg G (funext fun a => Fin.ext ?_)
  match a with
  | ⟨0, _⟩ => show win0_9.index t (0 : Fin 2) * 256 + 1 * (y 0).val = (y 0).val; rw [e0]; omega
  | ⟨1, _⟩ => show win0_9.index t (1 : Fin 2) * 512 + 1 * (y 1).val = (y 1).val; rw [e1]; omega

theorem read_blk_10 (t : Fin cfg0.N) (G : Mat.Arr 1 512) :
    (((cfg0.win 10).blk t).view.read (Elt Ideal) G : Mat.Arr 1 512) = G := by
  funext y
  rw [View.read_apply]
  obtain ⟨-, -, -, -, -, -, -, -, ⟨e0, e1⟩, -, -, -, -⟩ := idx_whole t
  refine congrArg G (funext fun a => Fin.ext ?_)
  match a with
  | ⟨0, _⟩ => show win0_10.index t (0 : Fin 2) * 1 + 1 * (y 0).val = (y 0).val; rw [e0]; omega
  | ⟨1, _⟩ => show win0_10.index t (1 : Fin 2) * 512 + 1 * (y 1).val = (y 1).val; rw [e1]; omega

theorem read_blk_11 (t : Fin cfg0.N) (G : Mat.Arr 128 128) :
    (((cfg0.win 11).blk t).view.read (Elt Ideal) G : Mat.Arr 128 128) = G := by
  funext y
  rw [View.read_apply]
  obtain ⟨-, -, -, -, -, -, -, -, -, ⟨e0, e1⟩, -, -, -⟩ := idx_whole t
  refine congrArg G (funext fun a => Fin.ext ?_)
  match a with
  | ⟨0, _⟩ => show win0_11.index t (0 : Fin 2) * 128 + 1 * (y 0).val = (y 0).val; rw [e0]; omega
  | ⟨1, _⟩ => show win0_11.index t (1 : Fin 2) * 128 + 1 * (y 1).val = (y 1).val; rw [e1]; omega

theorem read_blk_12 (t : Fin cfg0.N) (G : Mat.Arr 1 128) :
    (((cfg0.win 12).blk t).view.read (Elt Ideal) G : Mat.Arr 1 128) = G := by
  funext y
  rw [View.read_apply]
  obtain ⟨-, -, -, -, -, -, -, -, -, -, ⟨e0, e1⟩, -, -⟩ := idx_whole t
  refine congrArg G (funext fun a => Fin.ext ?_)
  match a with
  | ⟨0, _⟩ => show win0_12.index t (0 : Fin 2) * 1 + 1 * (y 0).val = (y 0).val; rw [e0]; omega
  | ⟨1, _⟩ => show win0_12.index t (1 : Fin 2) * 128 + 1 * (y 1).val = (y 1).val; rw [e1]; omega

theorem read_blk_13 (t : Fin cfg0.N) (G : Mat.Arr 128 128) :
    (((cfg0.win 13).blk t).view.read (Elt Ideal) G : Mat.Arr 128 128) = G := by
  funext y
  rw [View.read_apply]
  obtain ⟨-, -, -, -, -, -, -, -, -, -, -, ⟨e0, e1⟩, -⟩ := idx_whole t
  refine congrArg G (funext fun a => Fin.ext ?_)
  match a with
  | ⟨0, _⟩ => show win0_13.index t (0 : Fin 2) * 128 + 1 * (y 0).val = (y 0).val; rw [e0]; omega
  | ⟨1, _⟩ => show win0_13.index t (1 : Fin 2) * 128 + 1 * (y 1).val = (y 1).val; rw [e1]; omega

theorem read_blk_14 (t : Fin cfg0.N) (G : Mat.Arr 1 128) :
    (((cfg0.win 14).blk t).view.read (Elt Ideal) G : Mat.Arr 1 128) = G := by
  funext y
  rw [View.read_apply]
  obtain ⟨-, -, -, -, -, -, -, -, -, -, -, -, ⟨e0, e1⟩⟩ := idx_whole t
  refine congrArg G (funext fun a => Fin.ext ?_)
  match a with
  | ⟨0, _⟩ => show win0_14.index t (0 : Fin 2) * 1 + 1 * (y 0).val = (y 0).val; rw [e0]; omega
  | ⟨1, _⟩ => show win0_14.index t (1 : Fin 2) * 128 + 1 * (y 1).val = (y 1).val; rw [e1]; omega

/-! ## The input blocks at a point, at the region's entry contents -/

section Blocks

variable (V : (c : Dev nD) → (b : Ref sig .tc) → Buf (Elt Ideal) ((c : Thread nD τ).loc b)) (c : Dev nD) (t : Fin cfg0.N)

theorem iblk_0 : (iblk0 V c 0 t : Mat.Arr 256 512)
    = Mat.rowsAt 256 t.val (pt_rows t) (V c (Pipeline.arrRef spec0 0) : Mat.Arr 4096 512) :=
  read_blk_0 t _

theorem iblk_1 : (iblk0 V c 1 t : Mat.Arr 256 4096)
    = Mat.rowsAt 256 t.val (pt_rows t) (V c (Pipeline.arrRef spec0 1) : Mat.Arr 4096 4096) :=
  read_blk_1 t _

theorem iblk_2 : (iblk0 V c 2 t : Mat.Arr 4096 256) = (V c (Pipeline.arrRef spec0 2) : Mat.Arr 4096 256) :=
  read_blk_2 t _

theorem iblk_3 : (iblk0 V c 3 t : Mat.Arr 512 256) = (V c (Pipeline.arrRef spec0 3) : Mat.Arr 512 256) :=
  read_blk_3 t _

theorem iblk_4 : (iblk0 V c 4 t : Mat.Arr 1 256) = (V c (Pipeline.arrRef spec0 4) : Mat.Arr 1 256) :=
  read_blk_4 t _

theorem iblk_5 : (iblk0 V c 5 t : Mat.Arr 256 128) = (V c (Pipeline.arrRef spec0 5) : Mat.Arr 256 128) :=
  read_blk_5 t _

theorem iblk_6 : (iblk0 V c 6 t : Mat.Arr 1 128) = (V c (Pipeline.arrRef spec0 6) : Mat.Arr 1 128) :=
  read_blk_6 t _

theorem iblk_7 : (iblk0 V c 7 t : Mat.Arr 128 256) = (V c (Pipeline.arrRef spec0 7) : Mat.Arr 128 256) :=
  read_blk_7 t _

theorem iblk_8 : (iblk0 V c 8 t : Mat.Arr 1 256) = (V c (Pipeline.arrRef spec0 8) : Mat.Arr 1 256) :=
  read_blk_8 t _

theorem iblk_9 : (iblk0 V c 9 t : Mat.Arr 256 512) = (V c (Pipeline.arrRef spec0 9) : Mat.Arr 256 512) :=
  read_blk_9 t _

theorem iblk_10 : (iblk0 V c 10 t : Mat.Arr 1 512) = (V c (Pipeline.arrRef spec0 10) : Mat.Arr 1 512) :=
  read_blk_10 t _

theorem iblk_11 : (iblk0 V c 11 t : Mat.Arr 128 128) = (V c (Pipeline.arrRef spec0 11) : Mat.Arr 128 128) :=
  read_blk_11 t _

theorem iblk_12 : (iblk0 V c 12 t : Mat.Arr 1 128) = (V c (Pipeline.arrRef spec0 12) : Mat.Arr 1 128) :=
  read_blk_12 t _

theorem iblk_13 : (iblk0 V c 13 t : Mat.Arr 128 128) = (V c (Pipeline.arrRef spec0 13) : Mat.Arr 128 128) :=
  read_blk_13 t _

theorem iblk_14 : (iblk0 V c 14 t : Mat.Arr 1 128) = (V c (Pipeline.arrRef spec0 14) : Mat.Arr 1 128) :=
  read_blk_14 t _

end Blocks

end Cert.KernelIdeal.R0

end
-- ==== Proof.Region0a.lean ====
/-
  Region 0's arithmetic, block by block.

  At one grid point the kernel holds a block of 256 rows of each row-blocked operand and the whole of every weight.
  Each value it stores is a composition of the four row-wise operations: a matrix product into the zero accumulator
  is the plain sum over the contracted coordinate; a bias row broadcast down the 256 rows and added is the row
  addition; the maximum with the zero splat is the positive part. A change of float format and a shape cast to the
  same shape are the identity on extended reals, so the bf16 operands of the first product are the f32 ones.
-/
import proofs.«141271_g66125316489530_cont_sun_m_792_6_alg».proof.Proof.Gen.KernelIdeal.Skeleton
import proofs.«141271_g66125316489530_cont_sun_m_792_6_alg».proof.Proof.Mat
import proofs.«141271_g66125316489530_cont_sun_m_792_6_alg».proof.Proof.LibDot
import Idealize.ShloMosaic.Lib.Pipeline.Value

noncomputable section

namespace Cert.KernelIdeal.R0

open Idealize.ShloMosaic Idealize.ShloMosaic.ValueIdx Cert.KernelIdeal Cert.KernelIdeal.Gen

/-! ## The three non-product operations over any block -/

variable {a k b : Nat} {φ₁ φ₂ : FTy}

/-- A product into the zero accumulator, contracting the left factor's columns with the right factor's rows, is the
    matrix product. -/
theorem matmul_eq (d : DotDims ⟨2, ![a, k]⟩ ⟨2, ![k, b]⟩ ⟨2, ![a, b]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![a, k]⟩ φ₁) (r : FVec Ideal ⟨2, ![k, b]⟩ φ₂) :
    FloatOps.matmul d prec l r (constant ⟨2, ![a, b]⟩ .f32 0x00000000#32) = Mat.mm l r :=
  funext fun y => LibDot.matmul_zero_plain_apply d hlc hrc hln hrn hlb hrb prec l r y

/-- A one-row block broadcast down the rows and added is the row addition. -/
theorem addf_broadcastTo_eq (x : FVec Ideal ⟨2, ![a, b]⟩ .f32) (v : FVec Ideal ⟨2, ![1, b]⟩ .f32)
    (h : (⟨2, ![1, b]⟩ : Shape).Broadcasts ⟨2, ![a, b]⟩) :
    addf x (broadcastTo ⟨2, ![a, b]⟩ v h) = Mat.addRow x v := by
  funext y
  show x y + broadcastTo ⟨2, ![a, b]⟩ v h y = x y + v (ix2 0 (y 1))
  rw [broadcastTo_apply v h y (ix2 0 (y 1)) (fun c => by
    match c with
    | ⟨0, _⟩ => exact (if_pos rfl).symm
    | ⟨1, _⟩ =>
      by_cases hb : b = 1
      · subst hb
        have := idx2_lt1 y
        show (y 1).val = if (1 : Nat) = 1 then 0 else _
        rw [if_pos rfl]
        omega
      · show (y 1).val = if b = 1 then 0 else _
        rw [if_neg hb]
        rfl)]

/-- The maximum with the zero splat is the positive part. -/
theorem maximumf_zero_eq (x : FVec Ideal ⟨2, ![a, b]⟩ .f32) :
    maximumf x (broadcast ⟨2, ![a, b]⟩ (Scalar.ofBits (F := Ideal) .f32 0x00000000#32)) = Mat.relu x := by
  funext y
  show max (x y) (Ideal.ofBits .f32 0x00000000#32) = max (x y) 0
  rw [Ideal.ofBits_zero_f32]

/-- A product into the zero accumulator with a bias row broadcast and added is the affine map of the rows. -/
theorem lin_eq (d : DotDims ⟨2, ![a, k]⟩ ⟨2, ![k, b]⟩ ⟨2, ![a, b]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![a, k]⟩ .f32) (r : FVec Ideal ⟨2, ![k, b]⟩ .f32)
    (v : FVec Ideal ⟨2, ![1, b]⟩ .f32) (h : (⟨2, ![1, b]⟩ : Shape).Broadcasts ⟨2, ![a, b]⟩) :
    addf (FloatOps.matmul d prec l r (constant ⟨2, ![a, b]⟩ .f32 0x00000000#32)) (broadcastTo ⟨2, ![a, b]⟩ v h)
      = Mat.lin l r v :=
  (addf_broadcastTo_eq _ v h).trans
    (congrArg (fun z => Mat.addRow z v) (matmul_eq d hlc hrc hln hrn hlb hrb prec l r))

/-! ## The encoder -/

/-- The encoder on any number of rows: an affine layer to the hidden width, the positive part, an affine layer to the
    code width. -/
def Z {n : Nat} (x : Mat.Arr n 512) (w1 : Mat.Arr 512 256) (v1 : Mat.Arr 1 256) (w2 : Mat.Arr 256 128)
    (v2 : Mat.Arr 1 128) : Mat.Arr n 128 :=
  Mat.lin (Mat.relu (Mat.lin x w1 v1)) w2 v2

/-- The encoder acts row by row. -/
theorem rowsAt_Z {n : Nat} (m t : Nat) (h : t * m + m ≤ n) (x : Mat.Arr n 512) (w1 : Mat.Arr 512 256)
    (v1 : Mat.Arr 1 256) (w2 : Mat.Arr 256 128) (v2 : Mat.Arr 1 128) :
    Mat.rowsAt m t h (Z x w1 v1 w2 v2) = Z (Mat.rowsAt m t h x) w1 v1 w2 v2 := rfl

/-! ## The stored values -/

/-- The first output's block: the product of the block of rows with the whole right factor. -/
theorem pay3_eq (x0 : Vec Ideal S256x4096 .f32) (x1 : Vec Ideal S4096x256 .f32) :
    k0_pay3 (F := Ideal) x0 x1 = Mat.mm x0 x1 := by
  unfold k0_pay3
  dsimp only
  rw [shapeCast_self]
  exact matmul_eq dot_S256x4096_S4096x256_S256x256_1_0_0_1_n_n rfl rfl rfl rfl rfl rfl none _ _

/-- The encoder's block: two affine layers with the positive part between them. -/
theorem pay4_eq (x7 : Vec Ideal S256x512 .f32) (x8 : Vec Ideal S512x256 .f32) (x11 : Vec Ideal S1x256 .f32)
    (x17 : Vec Ideal S256x128 .f32) (x20 : Vec Ideal S1x128 .f32) :
    k0_pay4 (F := Ideal) x7 x8 x11 x17 x20 = Mat.lin (Mat.relu (Mat.lin x7 x8 x11)) x17 x20 := by
  unfold k0_pay4
  dsimp only
  simp only [shapeCast_self]
  refine (lin_eq dot_S256x256_S256x128_S256x128_1_0_0_1_n_n rfl rfl rfl rfl rfl rfl none _ x17 x20 _).trans ?_
  refine congrArg (fun z => Mat.lin z x17 x20) ?_
  refine (maximumf_zero_eq _).trans (congrArg Mat.relu ?_)
  exact lin_eq dot_S256x512_S512x256_S256x256_1_0_0_1_n_n rfl rfl rfl rfl rfl rfl none x7 x8 x11 _

/-- The encoder's block multiplied on by the feature decoder's first weights. -/
theorem pay5_eq (x7 : Vec Ideal S256x512 .f32) (x8 : Vec Ideal S512x256 .f32) (x11 : Vec Ideal S1x256 .f32)
    (x17 : Vec Ideal S256x128 .f32) (x20 : Vec Ideal S1x128 .f32) (x25 : Vec Ideal S128x256 .f32) :
    k0_pay5 (F := Ideal) x7 x8 x11 x17 x20 x25 = Mat.mm (Mat.lin (Mat.relu (Mat.lin x7 x8 x11)) x17 x20) x25 := by
  unfold k0_pay5
  dsimp only
  rw [shapeCast_self, pay4_eq]
  exact matmul_eq dot_S256x128_S128x256_S256x256_1_0_0_1_n_n rfl rfl rfl rfl rfl rfl none _ _

/-- A bias row is loaded as it is. -/
theorem pay6_eq (x28 : Vec Ideal S1x256 .f32) : k0_pay6 (F := Ideal) x28 = x28 := by
  unfold k0_pay6
  dsimp only
  rw [shapeCast_self]

/-- The feature decoder's block, from the product its first layer starts with. -/
theorem pay1_eq (x27 : FVec Ideal S256x256 .f32) (x29 : FVec Ideal S1x256 .f32) (x34 : Vec Ideal S256x512 .f32)
    (x37 : Vec Ideal S1x512 .f32) :
    k0_pay1 (F := Ideal) x27 x29 x34 x37 = Mat.lin (Mat.relu (Mat.addRow x27 x29)) x34 x37 := by
  unfold k0_pay1
  dsimp only
  simp only [shapeCast_self]
  refine (lin_eq dot_S256x256_S256x512_S256x512_1_0_0_1_n_n rfl rfl rfl rfl rfl rfl none _ x34 x37 _).trans ?_
  refine congrArg (fun z => Mat.lin z x34 x37) ?_
  refine (maximumf_zero_eq _).trans (congrArg Mat.relu ?_)
  exact addf_broadcastTo_eq x27 x29 _

/-- The adjacency decoder's front: two affine layers on the encoder's block. -/
theorem pay2_eq (x23 : FVec Ideal S256x128 .f32) (x42 : Vec Ideal S128x128 .f32) (x44 : Vec Ideal S1x128 .f32)
    (x50 : Vec Ideal S128x128 .f32) (x52 : Vec Ideal S1x128 .f32) :
    k0_pay2 (F := Ideal) x23 x42 x44 x50 x52 = Mat.lin (Mat.relu (Mat.lin x23 x42 x44)) x50 x52 := by
  unfold k0_pay2
  dsimp only
  simp only [shapeCast_self]
  refine (lin_eq dot_S256x128_S128x128_S256x128_1_0_0_1_n_n rfl rfl rfl rfl rfl rfl none _ x50 x52 _).trans ?_
  refine congrArg (fun z => Mat.lin z x50 x52) ?_
  refine (maximumf_zero_eq _).trans (congrArg Mat.relu ?_)
  exact lin_eq dot_S256x128_S128x128_S256x128_1_0_0_1_n_n rfl rfl rfl rfl rfl rfl none x23 x42 x44 _

end Cert.KernelIdeal.R0

end
-- ==== Proof.Region0c.lean ====
/-
  What region 0's body leaves in each output block, as operations of the input blocks.

  The body loads each operand's whole block, stores each result through the whole block, and stores each once: a load
  through the whole block reads the block, and one covering store leaves its value. So each output block is the stored
  value of the loaded blocks, and those values are the compositions of the row-wise operations.
-/
import proofs.«141271_g66125316489530_cont_sun_m_792_6_alg».proof.Proof.Gen.KernelIdeal.Frame
import proofs.«141271_g66125316489530_cont_sun_m_792_6_alg».proof.Proof.Region0a

noncomputable section

namespace Cert.KernelIdeal.R0

open Idealize.ShloMosaic Idealize.ShloMosaic.ValueIdx Cert.KernelIdeal Cert.KernelIdeal.Gen

theorem hz : (![0, 0] : Fin 2 → Nat) = fun _ => 0 := funext fun a => by fin_cases a <;> rfl

variable (x0 : Vec Ideal S256x512 .f32) (x1 : Vec Ideal S256x4096 .f32) (x2 : Vec Ideal S4096x256 .f32)
    (x3 : Vec Ideal S512x256 .f32) (x4 : Vec Ideal S1x256 .f32) (x5 : Vec Ideal S256x128 .f32) (x6 : Vec Ideal S1x128 .f32)
    (x7 : Vec Ideal S128x256 .f32) (x8 : Vec Ideal S1x256 .f32) (x9 : Vec Ideal S256x512 .f32) (x10 : Vec Ideal S1x512 .f32)
    (x11 : Vec Ideal S128x128 .f32) (x12 : Vec Ideal S1x128 .f32) (x13 : Vec Ideal S128x128 .f32) (x14 : Vec Ideal S1x128 .f32)

/-- The first output's block: the product of the second operand's block of rows with the third operand. -/
theorem out15_eq : out0_15 (F := Ideal) x0 x1 x2 x3 x4 x5 x6 x7 x8 x9 x10 x11 x12 x13 x14 = Mat.mm x1 x2 := by
  unfold out0_15
  rw [View.canon_unit_zero hz]
  simp only [View.ld_unit_zero (S := S256x512) hz, View.ld_unit_zero (S := S256x4096) hz,
    View.ld_unit_zero (S := S4096x256) hz, View.ld_unit_zero (S := S512x256) hz, View.ld_unit_zero (S := S1x256) hz,
    View.ld_unit_zero (S := S256x128) hz, View.ld_unit_zero (S := S1x128) hz, View.ld_unit_zero (S := S128x256) hz,
    View.ld_unit_zero (S := S1x512) hz, View.ld_unit_zero (S := S128x128) hz]
  exact pay3_eq x1 x2

/-- The second output's block: the encoder on the first operand's block of rows. -/
theorem out16_eq : out0_16 (F := Ideal) x0 x1 x2 x3 x4 x5 x6 x7 x8 x9 x10 x11 x12 x13 x14 = Z x0 x3 x4 x5 x6 := by
  unfold out0_16
  rw [View.canon_unit_zero hz]
  simp only [View.ld_unit_zero (S := S256x512) hz, View.ld_unit_zero (S := S256x4096) hz,
    View.ld_unit_zero (S := S4096x256) hz, View.ld_unit_zero (S := S512x256) hz, View.ld_unit_zero (S := S1x256) hz,
    View.ld_unit_zero (S := S256x128) hz, View.ld_unit_zero (S := S1x128) hz, View.ld_unit_zero (S := S128x256) hz,
    View.ld_unit_zero (S := S1x512) hz, View.ld_unit_zero (S := S128x128) hz]
  exact pay4_eq x0 x3 x4 x5 x6

/-- The third output's block: the feature decoder, two affine layers, on the encoder's block. -/
theorem out17_eq : out0_17 (F := Ideal) x0 x1 x2 x3 x4 x5 x6 x7 x8 x9 x10 x11 x12 x13 x14
    = Mat.lin (Mat.relu (Mat.lin (Z x0 x3 x4 x5 x6) x7 x8)) x9 x10 := by
  unfold out0_17
  rw [View.canon_unit_zero hz]
  simp only [View.ld_unit_zero (S := S256x512) hz, View.ld_unit_zero (S := S256x4096) hz,
    View.ld_unit_zero (S := S4096x256) hz, View.ld_unit_zero (S := S512x256) hz, View.ld_unit_zero (S := S1x256) hz,
    View.ld_unit_zero (S := S256x128) hz, View.ld_unit_zero (S := S1x128) hz, View.ld_unit_zero (S := S128x256) hz,
    View.ld_unit_zero (S := S1x512) hz, View.ld_unit_zero (S := S128x128) hz]
  refine (pay1_eq _ _ x9 x10).trans ?_
  refine congrArg (fun z => Mat.lin (Mat.relu z) x9 x10) ?_
  show Mat.addRow (k0_pay5 (F := Ideal) x0 x3 x4 x5 x6 x7) (k0_pay6 (F := Ideal) x8) = _
  rw [pay5_eq, pay6_eq]
  rfl

/-- The fourth output's block: the adjacency decoder's front, two affine layers, on the encoder's block. -/
theorem out18_eq : out0_18 (F := Ideal) x0 x1 x2 x3 x4 x5 x6 x7 x8 x9 x10 x11 x12 x13 x14
    = Mat.lin (Mat.relu (Mat.lin (Z x0 x3 x4 x5 x6) x11 x12)) x13 x14 := by
  unfold out0_18
  rw [View.canon_unit_zero hz]
  simp only [View.ld_unit_zero (S := S256x512) hz, View.ld_unit_zero (S := S256x4096) hz,
    View.ld_unit_zero (S := S4096x256) hz, View.ld_unit_zero (S := S512x256) hz, View.ld_unit_zero (S := S1x256) hz,
    View.ld_unit_zero (S := S256x128) hz, View.ld_unit_zero (S := S1x128) hz, View.ld_unit_zero (S := S128x256) hz,
    View.ld_unit_zero (S := S1x512) hz, View.ld_unit_zero (S := S128x128) hz]
  refine (pay2_eq _ x11 x12 x13 x14).trans ?_
  refine congrArg (fun z => Mat.lin (Mat.relu (Mat.lin z x11 x12)) x13 x14) ?_
  exact pay4_eq x0 x3 x4 x5 x6

/-! ## The same, when the input blocks are rows of arrays

Every operation acts row by row: if the row-blocked operands' blocks are the 256 rows starting at row 256 t of their
arrays and the other blocks are their whole arrays, each output block is those rows of the whole-array result. -/

/-- Output block 15 is rows 256 t … 256 t + 255 of the product of the arrays. -/
theorem out15_rows (x0 : Vec Ideal S256x512 .f32) (x1 : Vec Ideal S256x4096 .f32) (x2 : Vec Ideal S4096x256 .f32)
    (x3 : Vec Ideal S512x256 .f32) (x4 : Vec Ideal S1x256 .f32) (x5 : Vec Ideal S256x128 .f32) (x6 : Vec Ideal S1x128 .f32)
    (x7 : Vec Ideal S128x256 .f32) (x8 : Vec Ideal S1x256 .f32) (x9 : Vec Ideal S256x512 .f32) (x10 : Vec Ideal S1x512 .f32)
    (x11 : Vec Ideal S128x128 .f32) (x12 : Vec Ideal S1x128 .f32) (x13 : Vec Ideal S128x128 .f32) (x14 : Vec Ideal S1x128 .f32)
    (t : Nat) (h : t * 256 + 256 ≤ 4096) (A1 : Mat.Arr 4096 4096) (A2 : Mat.Arr 4096 256)
    (h1 : x1 = Mat.rowsAt 256 t h A1) (h2 : x2 = A2) :
    out0_15 (F := Ideal) x0 x1 x2 x3 x4 x5 x6 x7 x8 x9 x10 x11 x12 x13 x14
      = Mat.rowsAt 256 t h (Mat.mm A1 A2) := by
  subst h1 h2
  exact out15_eq ..

/-- Output block 16 is rows 256 t … 256 t + 255 of the encoder of the arrays. -/
theorem out16_rows (x0 : Vec Ideal S256x512 .f32) (x1 : Vec Ideal S256x4096 .f32) (x2 : Vec Ideal S4096x256 .f32)
    (x3 : Vec Ideal S512x256 .f32) (x4 : Vec Ideal S1x256 .f32) (x5 : Vec Ideal S256x128 .f32) (x6 : Vec Ideal S1x128 .f32)
    (x7 : Vec Ideal S128x256 .f32) (x8 : Vec Ideal S1x256 .f32) (x9 : Vec Ideal S256x512 .f32) (x10 : Vec Ideal S1x512 .f32)
    (x11 : Vec Ideal S128x128 .f32) (x12 : Vec Ideal S1x128 .f32) (x13 : Vec Ideal S128x128 .f32) (x14 : Vec Ideal S1x128 .f32)
    (t : Nat) (h : t * 256 + 256 ≤ 4096) (A0 : Mat.Arr 4096 512) (A3 : Mat.Arr 512 256) (A4 : Mat.Arr 1 256) (A5 : Mat.Arr 256 128) (A6 : Mat.Arr 1 128)
    (h0 : x0 = Mat.rowsAt 256 t h A0) (h3 : x3 = A3) (h4 : x4 = A4) (h5 : x5 = A5) (h6 : x6 = A6) :
    out0_16 (F := Ideal) x0 x1 x2 x3 x4 x5 x6 x7 x8 x9 x10 x11 x12 x13 x14
      = Mat.rowsAt 256 t h (Z A0 A3 A4 A5 A6) := by
  subst h0 h3 h4 h5 h6
  exact out16_eq ..

/-- Output block 17 is rows 256 t … 256 t + 255 of the feature decoder of the encoder of the arrays. -/
theorem out17_rows (x0 : Vec Ideal S256x512 .f32) (x1 : Vec Ideal S256x4096 .f32) (x2 : Vec Ideal S4096x256 .f32)
    (x3 : Vec Ideal S512x256 .f32) (x4 : Vec Ideal S1x256 .f32) (x5 : Vec Ideal S256x128 .f32) (x6 : Vec Ideal S1x128 .f32)
    (x7 : Vec Ideal S128x256 .f32) (x8 : Vec Ideal S1x256 .f32) (x9 : Vec Ideal S256x512 .f32) (x10 : Vec Ideal S1x512 .f32)
    (x11 : Vec Ideal S128x128 .f32) (x12 : Vec Ideal S1x128 .f32) (x13 : Vec Ideal S128x128 .f32) (x14 : Vec Ideal S1x128 .f32)
    (t : Nat) (h : t * 256 + 256 ≤ 4096) (A0 : Mat.Arr 4096 512) (A3 : Mat.Arr 512 256) (A4 : Mat.Arr 1 256) (A5 : Mat.Arr 256 128) (A6 : Mat.Arr 1 128) (A7 : Mat.Arr 128 256) (A8 : Mat.Arr 1 256) (A9 : Mat.Arr 256 512) (A10 : Mat.Arr 1 512)
    (h0 : x0 = Mat.rowsAt 256 t h A0) (h3 : x3 = A3) (h4 : x4 = A4) (h5 : x5 = A5) (h6 : x6 = A6) (h7 : x7 = A7) (h8 : x8 = A8) (h9 : x9 = A9) (h10 : x10 = A10) :
    out0_17 (F := Ideal) x0 x1 x2 x3 x4 x5 x6 x7 x8 x9 x10 x11 x12 x13 x14
      = Mat.rowsAt 256 t h (Mat.lin (Mat.relu (Mat.lin (Z A0 A3 A4 A5 A6) A7 A8)) A9 A10) := by
  subst h0 h3 h4 h5 h6 h7 h8 h9 h10
  exact out17_eq ..

/-- Output block 18 is rows 256 t … 256 t + 255 of the adjacency decoder's front of the encoder of the arrays. -/
theorem out18_rows (x0 : Vec Ideal S256x512 .f32) (x1 : Vec Ideal S256x4096 .f32) (x2 : Vec Ideal S4096x256 .f32)
    (x3 : Vec Ideal S512x256 .f32) (x4 : Vec Ideal S1x256 .f32) (x5 : Vec Ideal S256x128 .f32) (x6 : Vec Ideal S1x128 .f32)
    (x7 : Vec Ideal S128x256 .f32) (x8 : Vec Ideal S1x256 .f32) (x9 : Vec Ideal S256x512 .f32) (x10 : Vec Ideal S1x512 .f32)
    (x11 : Vec Ideal S128x128 .f32) (x12 : Vec Ideal S1x128 .f32) (x13 : Vec Ideal S128x128 .f32) (x14 : Vec Ideal S1x128 .f32)
    (t : Nat) (h : t * 256 + 256 ≤ 4096) (A0 : Mat.Arr 4096 512) (A3 : Mat.Arr 512 256) (A4 : Mat.Arr 1 256) (A5 : Mat.Arr 256 128) (A6 : Mat.Arr 1 128) (A11 : Mat.Arr 128 128) (A12 : Mat.Arr 1 128) (A13 : Mat.Arr 128 128) (A14 : Mat.Arr 1 128)
    (h0 : x0 = Mat.rowsAt 256 t h A0) (h3 : x3 = A3) (h4 : x4 = A4) (h5 : x5 = A5) (h6 : x6 = A6) (h11 : x11 = A11) (h12 : x12 = A12) (h13 : x13 = A13) (h14 : x14 = A14) :
    out0_18 (F := Ideal) x0 x1 x2 x3 x4 x5 x6 x7 x8 x9 x10 x11 x12 x13 x14
      = Mat.rowsAt 256 t h (Mat.lin (Mat.relu (Mat.lin (Z A0 A3 A4 A5 A6) A11 A12)) A13 A14) := by
  subst h0 h3 h4 h5 h6 h11 h12 h13 h14
  exact out18_eq ..

end Cert.KernelIdeal.R0

end
-- ==== Proof.Region0.lean ====
/-
  Region 0's four output arrays after the region, each as one function of the arrays the region finds.

  Every output window is row-blocked: point t writes back the block of 256 rows starting at row 256 t, and the 16
  points' blocks cover the 4096 rows. Each operation of the network acts row by row, so the block a point computes
  from its input blocks is that block of rows of the whole-array result; hence each output array ends as the
  whole-array result: the product of the second operand with the third; the encoder of the first operand; and the
  feature decoder and the adjacency decoder's front applied to the encoder's output.
-/
import proofs.«141271_g66125316489530_cont_sun_m_792_6_alg».proof.Proof.Region0b
import proofs.«141271_g66125316489530_cont_sun_m_792_6_alg».proof.Proof.Region0c
import Idealize.ShloMosaic.Lib.Pipeline.Value

noncomputable section

namespace Cert.KernelIdeal.R0

open Idealize.ShloMosaic Idealize.ShloMosaic.ValueIdx Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b)) (c : Dev nD)

/-! ## Output window 15 -/

/-- An index of the array is in point t's block iff each coordinate is in the block's range on its axis. -/
theorem mem_blk_15 (t : Fin cfg0.N) (i : S4096x256.Idx) :
    i ∈ ((cfg0.win 15).blk t).view.set ↔ ∀ a : Fin 2, win0_15.index t a * S256x256.size a ≤ (i a).val
      ∧ (i a).val < win0_15.index t a * S256x256.size a + S256x256.size a := by
  show i ∈ ((View.whole main_v16_0).slice (win0_15.rect t)).set ↔ _
  rw [View.set_slice_whole, Rect.mem_set_unit]
  exact Iff.rfl

/-- Row r of the array is in the block of point r / 256, and every point writes its block back. -/
theorem cover_15 (i : S4096x256.Idx) :
    ∃ t : Fin cfg0.N, (cfg0.win 15).flush t = true ∧ i ∈ ((cfg0.win 15).blk t).view.set := by
  have hi0 : (i 0).val < 4096 := idx2_lt0 i
  have hi1 : (i 1).val < 256 := idx2_lt1 i
  obtain ⟨t, ht⟩ : ∃ t : Fin cfg0.N, t.val = (i 0).val / 256 :=
    ⟨⟨(i 0).val / 256, lt_of_lt_of_eq (by omega : (i 0).val / 256 < 16) (N_0 : cfg0.N = 16).symm⟩, rfl⟩
  obtain ⟨-, -, ⟨e0, e1⟩, -, -, -⟩ := idx_rows t
  refine ⟨t, flush0_15 t, ?_⟩
  rw [mem_blk_15]
  intro a
  match a with
  | ⟨0, _⟩ =>
    show win0_15.index t (0 : Fin 2) * 256 ≤ (i 0).val ∧ (i 0).val < win0_15.index t (0 : Fin 2) * 256 + 256
    omega
  | ⟨1, _⟩ =>
    show win0_15.index t (1 : Fin 2) * 256 ≤ (i 1).val ∧ (i 1).val < win0_15.index t (1 : Fin 2) * 256 + 256
    omega

/-- What the body leaves in the output's buffer at point t: rows 256 t … 256 t + 255 of the product of the second operand with the third. -/
theorem after_15 (t : Fin cfg0.N) :
    (dat0 (F := Ideal) V c).after 15 t = Mat.rowsAt 256 t.val (pt_rows t)
      (Mat.mm (V c (Pipeline.arrRef spec0 1) : Mat.Arr 4096 4096) (V c (Pipeline.arrRef spec0 2) : Mat.Arr 4096 256)) :=
  (after0_15 V c t).trans
    (out15_rows (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
      t.val (pt_rows t)
      (V c (Pipeline.arrRef spec0 1) : Mat.Arr 4096 4096)
      (V c (Pipeline.arrRef spec0 2) : Mat.Arr 4096 256)
      (iblk_1 V c t) (iblk_2 V c t))

/-- What point t writes back is rows 256 t … 256 t + 255 of the product of the second operand with the third. -/
theorem flushed_15 (t : Fin cfg0.N) :
    (dat0 (F := Ideal) V c).flushed 15 t = ((cfg0.win 15).blk t).view.read (Elt Ideal)
      (Mat.mm (V c (Pipeline.arrRef spec0 1) : Mat.Arr 4096 4096) (V c (Pipeline.arrRef spec0 2) : Mat.Arr 4096 256)) := by
  show (cfg0.win 15).cut (grid0.coords t) ((dat0 V c).after 15 t) = _
  rw [after_15 V c t, read_blk_15 t]
  rfl

/-- The array after the region: the product of the second operand with the third. -/
theorem arr0_15 : (dat0 (F := Ideal) V c).arrAt 15 cfg0.N
    = (Mat.mm (V c (Pipeline.arrRef spec0 1) : Mat.Arr 4096 4096) (V c (Pipeline.arrRef spec0 2) : Mat.Arr 4096 256)) :=
  (dat0 V c).arrAt_eq_of_cover 15 _ (fun t _ => flushed_15 V c t) cover_15

/-! ## Output window 16 -/

/-- An index of the array is in point t's block iff each coordinate is in the block's range on its axis. -/
theorem mem_blk_16 (t : Fin cfg0.N) (i : S4096x128.Idx) :
    i ∈ ((cfg0.win 16).blk t).view.set ↔ ∀ a : Fin 2, win0_16.index t a * S256x128.size a ≤ (i a).val
      ∧ (i a).val < win0_16.index t a * S256x128.size a + S256x128.size a := by
  show i ∈ ((View.whole main_v16_1).slice (win0_16.rect t)).set ↔ _
  rw [View.set_slice_whole, Rect.mem_set_unit]
  exact Iff.rfl

/-- Row r of the array is in the block of point r / 256, and every point writes its block back. -/
theorem cover_16 (i : S4096x128.Idx) :
    ∃ t : Fin cfg0.N, (cfg0.win 16).flush t = true ∧ i ∈ ((cfg0.win 16).blk t).view.set := by
  have hi0 : (i 0).val < 4096 := idx2_lt0 i
  have hi1 : (i 1).val < 128 := idx2_lt1 i
  obtain ⟨t, ht⟩ : ∃ t : Fin cfg0.N, t.val = (i 0).val / 256 :=
    ⟨⟨(i 0).val / 256, lt_of_lt_of_eq (by omega : (i 0).val / 256 < 16) (N_0 : cfg0.N = 16).symm⟩, rfl⟩
  obtain ⟨-, -, -, ⟨e0, e1⟩, -, -⟩ := idx_rows t
  refine ⟨t, flush0_16 t, ?_⟩
  rw [mem_blk_16]
  intro a
  match a with
  | ⟨0, _⟩ =>
    show win0_16.index t (0 : Fin 2) * 256 ≤ (i 0).val ∧ (i 0).val < win0_16.index t (0 : Fin 2) * 256 + 256
    omega
  | ⟨1, _⟩ =>
    show win0_16.index t (1 : Fin 2) * 128 ≤ (i 1).val ∧ (i 1).val < win0_16.index t (1 : Fin 2) * 128 + 128
    omega

/-- What the body leaves in the output's buffer at point t: rows 256 t … 256 t + 255 of the encoder of the first operand. -/
theorem after_16 (t : Fin cfg0.N) :
    (dat0 (F := Ideal) V c).after 16 t = Mat.rowsAt 256 t.val (pt_rows t)
      (Z (V c (Pipeline.arrRef spec0 0) : Mat.Arr 4096 512) (V c (Pipeline.arrRef spec0 3) : Mat.Arr 512 256) (V c (Pipeline.arrRef spec0 4) : Mat.Arr 1 256)
      (V c (Pipeline.arrRef spec0 5) : Mat.Arr 256 128) (V c (Pipeline.arrRef spec0 6) : Mat.Arr 1 128)) :=
  (after0_16 V c t).trans
    (out16_rows (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
      t.val (pt_rows t)
      (V c (Pipeline.arrRef spec0 0) : Mat.Arr 4096 512)
      (V c (Pipeline.arrRef spec0 3) : Mat.Arr 512 256)
      (V c (Pipeline.arrRef spec0 4) : Mat.Arr 1 256)
      (V c (Pipeline.arrRef spec0 5) : Mat.Arr 256 128)
      (V c (Pipeline.arrRef spec0 6) : Mat.Arr 1 128)
      (iblk_0 V c t) (iblk_3 V c t) (iblk_4 V c t) (iblk_5 V c t) (iblk_6 V c t))

/-- What point t writes back is rows 256 t … 256 t + 255 of the encoder of the first operand. -/
theorem flushed_16 (t : Fin cfg0.N) :
    (dat0 (F := Ideal) V c).flushed 16 t = ((cfg0.win 16).blk t).view.read (Elt Ideal)
      (Z (V c (Pipeline.arrRef spec0 0) : Mat.Arr 4096 512) (V c (Pipeline.arrRef spec0 3) : Mat.Arr 512 256) (V c (Pipeline.arrRef spec0 4) : Mat.Arr 1 256)
      (V c (Pipeline.arrRef spec0 5) : Mat.Arr 256 128) (V c (Pipeline.arrRef spec0 6) : Mat.Arr 1 128)) := by
  show (cfg0.win 16).cut (grid0.coords t) ((dat0 V c).after 16 t) = _
  rw [after_16 V c t, read_blk_16 t]
  rfl

/-- The array after the region: the encoder of the first operand. -/
theorem arr0_16 : (dat0 (F := Ideal) V c).arrAt 16 cfg0.N
    = (Z (V c (Pipeline.arrRef spec0 0) : Mat.Arr 4096 512) (V c (Pipeline.arrRef spec0 3) : Mat.Arr 512 256) (V c (Pipeline.arrRef spec0 4) : Mat.Arr 1 256)
      (V c (Pipeline.arrRef spec0 5) : Mat.Arr 256 128) (V c (Pipeline.arrRef spec0 6) : Mat.Arr 1 128)) :=
  (dat0 V c).arrAt_eq_of_cover 16 _ (fun t _ => flushed_16 V c t) cover_16

/-! ## Output window 17 -/

/-- An index of the array is in point t's block iff each coordinate is in the block's range on its axis. -/
theorem mem_blk_17 (t : Fin cfg0.N) (i : S4096x512.Idx) :
    i ∈ ((cfg0.win 17).blk t).view.set ↔ ∀ a : Fin 2, win0_17.index t a * S256x512.size a ≤ (i a).val
      ∧ (i a).val < win0_17.index t a * S256x512.size a + S256x512.size a := by
  show i ∈ ((View.whole main_v16_2).slice (win0_17.rect t)).set ↔ _
  rw [View.set_slice_whole, Rect.mem_set_unit]
  exact Iff.rfl

/-- Row r of the array is in the block of point r / 256, and every point writes its block back. -/
theorem cover_17 (i : S4096x512.Idx) :
    ∃ t : Fin cfg0.N, (cfg0.win 17).flush t = true ∧ i ∈ ((cfg0.win 17).blk t).view.set := by
  have hi0 : (i 0).val < 4096 := idx2_lt0 i
  have hi1 : (i 1).val < 512 := idx2_lt1 i
  obtain ⟨t, ht⟩ : ∃ t : Fin cfg0.N, t.val = (i 0).val / 256 :=
    ⟨⟨(i 0).val / 256, lt_of_lt_of_eq (by omega : (i 0).val / 256 < 16) (N_0 : cfg0.N = 16).symm⟩, rfl⟩
  obtain ⟨-, -, -, -, ⟨e0, e1⟩, -⟩ := idx_rows t
  refine ⟨t, flush0_17 t, ?_⟩
  rw [mem_blk_17]
  intro a
  match a with
  | ⟨0, _⟩ =>
    show win0_17.index t (0 : Fin 2) * 256 ≤ (i 0).val ∧ (i 0).val < win0_17.index t (0 : Fin 2) * 256 + 256
    omega
  | ⟨1, _⟩ =>
    show win0_17.index t (1 : Fin 2) * 512 ≤ (i 1).val ∧ (i 1).val < win0_17.index t (1 : Fin 2) * 512 + 512
    omega

/-- What the body leaves in the output's buffer at point t: rows 256 t … 256 t + 255 of the feature decoder of the encoder's output. -/
theorem after_17 (t : Fin cfg0.N) :
    (dat0 (F := Ideal) V c).after 17 t = Mat.rowsAt 256 t.val (pt_rows t)
      (Mat.lin (Mat.relu (Mat.lin (Z (V c (Pipeline.arrRef spec0 0) : Mat.Arr 4096 512) (V c (Pipeline.arrRef spec0 3) : Mat.Arr 512 256) (V c (Pipeline.arrRef spec0 4) : Mat.Arr 1 256)
      (V c (Pipeline.arrRef spec0 5) : Mat.Arr 256 128) (V c (Pipeline.arrRef spec0 6) : Mat.Arr 1 128))
      (V c (Pipeline.arrRef spec0 7) : Mat.Arr 128 256) (V c (Pipeline.arrRef spec0 8) : Mat.Arr 1 256)))
      (V c (Pipeline.arrRef spec0 9) : Mat.Arr 256 512) (V c (Pipeline.arrRef spec0 10) : Mat.Arr 1 512)) :=
  (after0_17 V c t).trans
    (out17_rows (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
      t.val (pt_rows t)
      (V c (Pipeline.arrRef spec0 0) : Mat.Arr 4096 512)
      (V c (Pipeline.arrRef spec0 3) : Mat.Arr 512 256)
      (V c (Pipeline.arrRef spec0 4) : Mat.Arr 1 256)
      (V c (Pipeline.arrRef spec0 5) : Mat.Arr 256 128)
      (V c (Pipeline.arrRef spec0 6) : Mat.Arr 1 128)
      (V c (Pipeline.arrRef spec0 7) : Mat.Arr 128 256)
      (V c (Pipeline.arrRef spec0 8) : Mat.Arr 1 256)
      (V c (Pipeline.arrRef spec0 9) : Mat.Arr 256 512)
      (V c (Pipeline.arrRef spec0 10) : Mat.Arr 1 512)
      (iblk_0 V c t) (iblk_3 V c t) (iblk_4 V c t) (iblk_5 V c t) (iblk_6 V c t) (iblk_7 V c t) (iblk_8 V c t) (iblk_9 V c t) (iblk_10 V c t))

/-- What point t writes back is rows 256 t … 256 t + 255 of the feature decoder of the encoder's output. -/
theorem flushed_17 (t : Fin cfg0.N) :
    (dat0 (F := Ideal) V c).flushed 17 t = ((cfg0.win 17).blk t).view.read (Elt Ideal)
      (Mat.lin (Mat.relu (Mat.lin (Z (V c (Pipeline.arrRef spec0 0) : Mat.Arr 4096 512) (V c (Pipeline.arrRef spec0 3) : Mat.Arr 512 256) (V c (Pipeline.arrRef spec0 4) : Mat.Arr 1 256)
      (V c (Pipeline.arrRef spec0 5) : Mat.Arr 256 128) (V c (Pipeline.arrRef spec0 6) : Mat.Arr 1 128))
      (V c (Pipeline.arrRef spec0 7) : Mat.Arr 128 256) (V c (Pipeline.arrRef spec0 8) : Mat.Arr 1 256)))
      (V c (Pipeline.arrRef spec0 9) : Mat.Arr 256 512) (V c (Pipeline.arrRef spec0 10) : Mat.Arr 1 512)) := by
  show (cfg0.win 17).cut (grid0.coords t) ((dat0 V c).after 17 t) = _
  rw [after_17 V c t, read_blk_17 t]
  rfl

/-- The array after the region: the feature decoder of the encoder's output. -/
theorem arr0_17 : (dat0 (F := Ideal) V c).arrAt 17 cfg0.N
    = (Mat.lin (Mat.relu (Mat.lin (Z (V c (Pipeline.arrRef spec0 0) : Mat.Arr 4096 512) (V c (Pipeline.arrRef spec0 3) : Mat.Arr 512 256) (V c (Pipeline.arrRef spec0 4) : Mat.Arr 1 256)
      (V c (Pipeline.arrRef spec0 5) : Mat.Arr 256 128) (V c (Pipeline.arrRef spec0 6) : Mat.Arr 1 128))
      (V c (Pipeline.arrRef spec0 7) : Mat.Arr 128 256) (V c (Pipeline.arrRef spec0 8) : Mat.Arr 1 256)))
      (V c (Pipeline.arrRef spec0 9) : Mat.Arr 256 512) (V c (Pipeline.arrRef spec0 10) : Mat.Arr 1 512)) :=
  (dat0 V c).arrAt_eq_of_cover 17 _ (fun t _ => flushed_17 V c t) cover_17

/-! ## Output window 18 -/

/-- An index of the array is in point t's block iff each coordinate is in the block's range on its axis. -/
theorem mem_blk_18 (t : Fin cfg0.N) (i : S4096x128.Idx) :
    i ∈ ((cfg0.win 18).blk t).view.set ↔ ∀ a : Fin 2, win0_18.index t a * S256x128.size a ≤ (i a).val
      ∧ (i a).val < win0_18.index t a * S256x128.size a + S256x128.size a := by
  show i ∈ ((View.whole main_v16_3).slice (win0_18.rect t)).set ↔ _
  rw [View.set_slice_whole, Rect.mem_set_unit]
  exact Iff.rfl

/-- Row r of the array is in the block of point r / 256, and every point writes its block back. -/
theorem cover_18 (i : S4096x128.Idx) :
    ∃ t : Fin cfg0.N, (cfg0.win 18).flush t = true ∧ i ∈ ((cfg0.win 18).blk t).view.set := by
  have hi0 : (i 0).val < 4096 := idx2_lt0 i
  have hi1 : (i 1).val < 128 := idx2_lt1 i
  obtain ⟨t, ht⟩ : ∃ t : Fin cfg0.N, t.val = (i 0).val / 256 :=
    ⟨⟨(i 0).val / 256, lt_of_lt_of_eq (by omega : (i 0).val / 256 < 16) (N_0 : cfg0.N = 16).symm⟩, rfl⟩
  obtain ⟨-, -, -, -, -, ⟨e0, e1⟩⟩ := idx_rows t
  refine ⟨t, flush0_18 t, ?_⟩
  rw [mem_blk_18]
  intro a
  match a with
  | ⟨0, _⟩ =>
    show win0_18.index t (0 : Fin 2) * 256 ≤ (i 0).val ∧ (i 0).val < win0_18.index t (0 : Fin 2) * 256 + 256
    omega
  | ⟨1, _⟩ =>
    show win0_18.index t (1 : Fin 2) * 128 ≤ (i 1).val ∧ (i 1).val < win0_18.index t (1 : Fin 2) * 128 + 128
    omega

/-- What the body leaves in the output's buffer at point t: rows 256 t … 256 t + 255 of the adjacency decoder's front of the encoder's output. -/
theorem after_18 (t : Fin cfg0.N) :
    (dat0 (F := Ideal) V c).after 18 t = Mat.rowsAt 256 t.val (pt_rows t)
      (Mat.lin (Mat.relu (Mat.lin (Z (V c (Pipeline.arrRef spec0 0) : Mat.Arr 4096 512) (V c (Pipeline.arrRef spec0 3) : Mat.Arr 512 256) (V c (Pipeline.arrRef spec0 4) : Mat.Arr 1 256)
      (V c (Pipeline.arrRef spec0 5) : Mat.Arr 256 128) (V c (Pipeline.arrRef spec0 6) : Mat.Arr 1 128))
      (V c (Pipeline.arrRef spec0 11) : Mat.Arr 128 128) (V c (Pipeline.arrRef spec0 12) : Mat.Arr 1 128)))
      (V c (Pipeline.arrRef spec0 13) : Mat.Arr 128 128) (V c (Pipeline.arrRef spec0 14) : Mat.Arr 1 128)) :=
  (after0_18 V c t).trans
    (out18_rows (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
      t.val (pt_rows t)
      (V c (Pipeline.arrRef spec0 0) : Mat.Arr 4096 512)
      (V c (Pipeline.arrRef spec0 3) : Mat.Arr 512 256)
      (V c (Pipeline.arrRef spec0 4) : Mat.Arr 1 256)
      (V c (Pipeline.arrRef spec0 5) : Mat.Arr 256 128)
      (V c (Pipeline.arrRef spec0 6) : Mat.Arr 1 128)
      (V c (Pipeline.arrRef spec0 11) : Mat.Arr 128 128)
      (V c (Pipeline.arrRef spec0 12) : Mat.Arr 1 128)
      (V c (Pipeline.arrRef spec0 13) : Mat.Arr 128 128)
      (V c (Pipeline.arrRef spec0 14) : Mat.Arr 1 128)
      (iblk_0 V c t) (iblk_3 V c t) (iblk_4 V c t) (iblk_5 V c t) (iblk_6 V c t) (iblk_11 V c t) (iblk_12 V c t) (iblk_13 V c t) (iblk_14 V c t))

/-- What point t writes back is rows 256 t … 256 t + 255 of the adjacency decoder's front of the encoder's output. -/
theorem flushed_18 (t : Fin cfg0.N) :
    (dat0 (F := Ideal) V c).flushed 18 t = ((cfg0.win 18).blk t).view.read (Elt Ideal)
      (Mat.lin (Mat.relu (Mat.lin (Z (V c (Pipeline.arrRef spec0 0) : Mat.Arr 4096 512) (V c (Pipeline.arrRef spec0 3) : Mat.Arr 512 256) (V c (Pipeline.arrRef spec0 4) : Mat.Arr 1 256)
      (V c (Pipeline.arrRef spec0 5) : Mat.Arr 256 128) (V c (Pipeline.arrRef spec0 6) : Mat.Arr 1 128))
      (V c (Pipeline.arrRef spec0 11) : Mat.Arr 128 128) (V c (Pipeline.arrRef spec0 12) : Mat.Arr 1 128)))
      (V c (Pipeline.arrRef spec0 13) : Mat.Arr 128 128) (V c (Pipeline.arrRef spec0 14) : Mat.Arr 1 128)) := by
  show (cfg0.win 18).cut (grid0.coords t) ((dat0 V c).after 18 t) = _
  rw [after_18 V c t, read_blk_18 t]
  rfl

/-- The array after the region: the adjacency decoder's front of the encoder's output. -/
theorem arr0_18 : (dat0 (F := Ideal) V c).arrAt 18 cfg0.N
    = (Mat.lin (Mat.relu (Mat.lin (Z (V c (Pipeline.arrRef spec0 0) : Mat.Arr 4096 512) (V c (Pipeline.arrRef spec0 3) : Mat.Arr 512 256) (V c (Pipeline.arrRef spec0 4) : Mat.Arr 1 256)
      (V c (Pipeline.arrRef spec0 5) : Mat.Arr 256 128) (V c (Pipeline.arrRef spec0 6) : Mat.Arr 1 128))
      (V c (Pipeline.arrRef spec0 11) : Mat.Arr 128 128) (V c (Pipeline.arrRef spec0 12) : Mat.Arr 1 128)))
      (V c (Pipeline.arrRef spec0 13) : Mat.Arr 128 128) (V c (Pipeline.arrRef spec0 14) : Mat.Arr 1 128)) :=
  (dat0 V c).arrAt_eq_of_cover 18 _ (fun t _ => flushed_18 V c t) cover_18

end Cert.KernelIdeal.R0

end
-- ==== Proof.Region1Pay.lean ====
/-
  The arithmetic of the second kernel's body, as one expression of matrix operations.

  The body multiplies its block of rows of the adjacency array by the whole array P, adds the bias row to every row,
  takes the positive part, and multiplies by the second weight array. On the extended reals the two changes of
  float format are the identity, a product accumulated into the zero array is the plain matrix product, a one-row
  array broadcast over the rows and added is the row added to every row, and the maximum with the zero splat is the
  positive part. So the stored block is  mm (relu (lin x0 x1 x2)) x3  of the four loaded blocks.

  The four general facts are stated over arbitrary extents so that every body of this network can use them.
-/
import proofs.«141271_g66125316489530_cont_sun_m_792_6_alg».proof.Proof.Gen.KernelIdeal.Skeleton
import proofs.«141271_g66125316489530_cont_sun_m_792_6_alg».proof.Proof.Mat
import proofs.«141271_g66125316489530_cont_sun_m_792_6_alg».proof.Proof.LibDot
import Idealize.ShloMosaic.Lib.Pipeline.Value

noncomputable section

namespace Cert.KernelIdeal.R1

open Idealize.ShloMosaic Idealize.ShloMosaic.ValueIdx
open Cert Cert.KernelIdeal

variable {M K N : Nat} {φ₁ φ₂ : FTy}

/-- A product of an M × K by a K × N array accumulated into the zero array is the matrix product: entry (i, j) is
    the sum over k of l (i, k) · r (k, j). -/
theorem matmul_zero (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) :
    matmul d prec l r (constant (F := Ideal) ⟨2, ![M, N]⟩ .f32 0x00000000#32) = Mat.mm l r :=
  funext fun y => LibDot.matmul_zero_plain_apply d hlc hrc hln hrn hlb hrb prec l r y

/-- A change of float format is the identity on extended reals. -/
theorem truncf_id {s : Shape} {φ ψ : FTy} (a : FVec Ideal s φ) (h : ψ.bits < φ.bits) :
    (truncf ψ a h : FVec Ideal s ψ) = a := rfl

/-- A one-row array broadcast over the rows and added is the row added to every row: the broadcast reads the row
    at column j whatever the row index. -/
theorem addf_broadcastRow (x : FVec Ideal ⟨2, ![M, N]⟩ .f32) (v : FVec Ideal ⟨2, ![1, N]⟩ .f32)
    (h : (⟨2, ![1, N]⟩ : Shape).Broadcasts ⟨2, ![M, N]⟩) :
    addf x (broadcastTo ⟨2, ![M, N]⟩ v h) = Mat.addRow x v := by
  funext y
  show x y + broadcastTo ⟨2, ![M, N]⟩ v h y = x y + v (ix2 0 (y 1))
  refine congrArg (x y + ·) (broadcastTo_apply v h y (ix2 0 (y 1)) fun a => ?_)
  match a with
  | ⟨0, _⟩ => exact (if_pos rfl).symm
  | ⟨1, _⟩ =>
    show (y 1).val = if N = 1 then 0 else (y 1).val
    split_ifs with hN
    · have := idx2_lt1 y; omega
    · rfl

/-- The maximum with the zero splat is the positive part, max(x, 0), entry by entry. -/
theorem maximumf_zero {s : Shape} (x : FVec Ideal s .f32) :
    maximumf x (broadcast s (FloatOps.ofBits (F := Ideal) .f32 0x00000000#32)) = fun y => max (x y) 0 := by
  funext y
  show max (x y) (Ideal.ofBits .f32 0x00000000#32) = max (x y) 0
  rw [Ideal.ofBits_zero_f32]

/-- The block the second kernel's body stores, from the four blocks it loads: rows of the adjacency array times P,
    plus the bias row, positive part, times the second weights. -/
theorem pay1_eq (x0 : Vec Ideal S256x4096 .f32) (x1 : Vec Ideal S4096x256 .f32) (x2 : Vec Ideal S1x256 .f32)
    (x3 : Vec Ideal S256x128 .f32) :
    (Gen.k1_pay1 (F := Ideal) x0 x1 x2 x3 : Mat.Arr 256 128) = Mat.mm (Mat.relu (Mat.lin x0 x1 x2)) x3 := by
  unfold Gen.k1_pay1
  simp only [shapeCast_self, truncf_id]
  rw [matmul_zero _ rfl rfl rfl rfl rfl rfl, matmul_zero _ rfl rfl rfl rfl rfl rfl, addf_broadcastRow, maximumf_zero]
  rfl

end Cert.KernelIdeal.R1

end
-- ==== Proof.Region1.lean ====
/-
  What the second kernel leaves in its output array Q.

  The kernel runs at 16 grid points. At point t it loads rows 256·t … 256·t + 255 of the adjacency array (window 0),
  the whole of P, of the padded bias row and of the padded second weight array (windows 1, 2, 3), and stores one
  block of 256 rows of Q (window 4), which is written back to rows 256·t … 256·t + 255 of Q.

  Every operation of the body acts row by row, so the block stored at point t is the block of rows 256·t … of ONE
  whole-array function of the four input arrays,

      G = mm (relu (lin adj P b)) W,

  and since the 16 row blocks tile the 4096 rows, Q ends holding G. The steps: each window's block at a point is
  rows of its array (or the whole array), read off the printed index maps, which are decided once over the grid;
  the stored block is the body's arithmetic of those blocks; the block of rows of G is that same arithmetic because
  taking a block of rows commutes with every operation; the row r is covered by the point r / 256.
-/
import proofs.«141271_g66125316489530_cont_sun_m_792_6_alg».proof.Proof.Gen.KernelIdeal.Frame
import proofs.«141271_g66125316489530_cont_sun_m_792_6_alg».proof.Proof.Region1Pay
import Idealize.ShloMosaic.Lib.Pipeline.Value

set_option maxRecDepth 16384

noncomputable section

namespace Cert.KernelIdeal.R1

open Idealize.ShloMosaic Idealize.ShloMosaic.TcCoe Idealize.ShloMosaic.ValueIdx Idealize.SL.Sem
open Idealize.ShloMosaic.Pipeline (Dat)
open Cert Cert.KernelIdeal

variable (V : (c : Dev nD) → (b : Ref sig .tc) → Buf (Elt Ideal) ((c : Thread nD τ).loc b)) (c : Dev nD)

/-- The zero offsets of a whole-block rectangle, as a constant function. -/
theorem hz : (![0, 0] : Fin 2 → Nat) = fun _ => 0 := funext fun a => by fin_cases a <;> rfl

/-- The adjacency array as the kernel finds it: 4096 × 4096. -/
abbrev A0 : Mat.Arr 4096 4096 := V c (Pipeline.arrRef spec1 0)
/-- The array P: 4096 × 256. -/
abbrev A1 : Mat.Arr 4096 256 := V c (Pipeline.arrRef spec1 1)
/-- The padded bias row: 1 × 256. -/
abbrev A2 : Mat.Arr 1 256 := V c (Pipeline.arrRef spec1 2)
/-- The padded second weight array: 256 × 128. -/
abbrev A3 : Mat.Arr 256 128 := V c (Pipeline.arrRef spec1 3)

/-- The block index of each window at each of the 16 points: windows 0 and 4 move down one block of rows per point,
    windows 1, 2, 3 stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of 256 rows at point t lies inside the 4096 rows. -/
theorem hrow (t : Fin cfg1.N) : t.val * 256 + 256 ≤ 4096 := by
  have h := t.isLt; have hN : cfg1.N = 16 := Gen.N_1; omega

/-! ## Each window's block at a point, as rows of its array

A block's coordinate on an axis is (block index) × (block size) + 1 × (coordinate inside the block). -/

/-- Window 0's block at point t is rows 256·t … of the array. -/
theorem blk0_read (t : Fin cfg1.N) (X : Mat.Arr 4096 4096) :
    (((cfg1.win 0).blk t).view.read (Elt Ideal) X : Mat.Arr 256 4096) = Mat.rowsAt 256 t.val (hrow t) X := by
  obtain ⟨e0, e1, -⟩ := idx_facts t
  funext y
  rw [View.read_apply]
  refine congrArg X (funext fun a => Fin.ext ?_)
  match a with
  | ⟨0, _⟩ => show win1_0.index t (0 : Fin 2) * 256 + 1 * (y 0).val = t.val * 256 + (y 0).val; rw [e0]; omega
  | ⟨1, _⟩ => show win1_0.index t (1 : Fin 2) * 4096 + 1 * (y 1).val = (y 1).val; rw [e1]; omega

/-- Window 4's block at point t is rows 256·t … of the array. -/
theorem blk4_read (t : Fin cfg1.N) (X : Mat.Arr 4096 128) :
    (((cfg1.win 4).blk t).view.read (Elt Ideal) X : Mat.Arr 256 128) = Mat.rowsAt 256 t.val (hrow t) X := by
  obtain ⟨-, -, -, -, -, -, -, -, e0, e1⟩ := idx_facts t
  funext y
  rw [View.read_apply]
  refine congrArg X (funext fun a => Fin.ext ?_)
  match a with
  | ⟨0, _⟩ => show win1_4.index t (0 : Fin 2) * 256 + 1 * (y 0).val = t.val * 256 + (y 0).val; rw [e0]; omega
  | ⟨1, _⟩ => show win1_4.index t (1 : Fin 2) * 128 + 1 * (y 1).val = (y 1).val; rw [e1]; omega

/-- Window 1's block at every point is the whole array. -/
theorem blk1_read (t : Fin cfg1.N) (X : Mat.Arr 4096 256) :
    (((cfg1.win 1).blk t).view.read (Elt Ideal) X : Mat.Arr 4096 256) = X := by
  obtain ⟨-, -, e0, e1, -⟩ := idx_facts t
  funext y
  rw [View.read_apply]
  refine congrArg X (funext fun a => Fin.ext ?_)
  match a with
  | ⟨0, _⟩ => show win1_1.index t (0 : Fin 2) * 4096 + 1 * (y 0).val = (y 0).val; rw [e0]; omega
  | ⟨1, _⟩ => show win1_1.index t (1 : Fin 2) * 256 + 1 * (y 1).val = (y 1).val; rw [e1]; omega

/-- Window 2's block at every point is the whole row. -/
theorem blk2_read (t : Fin cfg1.N) (X : Mat.Arr 1 256) :
    (((cfg1.win 2).blk t).view.read (Elt Ideal) X : Mat.Arr 1 256) = X := by
  obtain ⟨-, -, -, -, e0, e1, -⟩ := idx_facts t
  funext y
  rw [View.read_apply]
  refine congrArg X (funext fun a => Fin.ext ?_)
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- Window 3's block at every point is the whole array. -/
theorem blk3_read (t : Fin cfg1.N) (X : Mat.Arr 256 128) :
    (((cfg1.win 3).blk t).view.read (Elt Ideal) X : Mat.Arr 256 128) = X := by
  obtain ⟨-, -, -, -, -, -, e0, e1, -⟩ := idx_facts t
  funext y
  rw [View.read_apply]
  refine congrArg X (funext fun a => Fin.ext ?_)
  match a with
  | ⟨0, _⟩ => show win1_3.index t (0 : Fin 2) * 256 + 1 * (y 0).val = (y 0).val; rw [e0]; omega
  | ⟨1, _⟩ => show win1_3.index t (1 : Fin 2) * 128 + 1 * (y 1).val = (y 1).val; rw [e1]; omega

/-! ## The output array -/

/-- The whole-array function Q ends holding: the adjacency array times P, plus the bias row, positive part, times
    the second weights. -/
abbrev G : Mat.Arr 4096 128 := Mat.mm (Mat.relu (Mat.lin (A0 V c) (A1 V c) (A2 V c))) (A3 V c)

/-- What point t writes back is the block of rows 256·t … of G: the body's one store covers its whole buffer, its
    value is the body's arithmetic of the four input blocks, the first of which is a block of rows of the adjacency
    array and the others whole arrays, and a block of rows of G is G's arithmetic of that block of rows. -/
theorem flushed_eq (t : Fin cfg1.N) :
    (Gen.dat1 (F := Ideal) V c).flushed 4 t = ((cfg1.win 4).blk t).view.read (Elt Ideal) (G V c) := by
  show (cfg1.win 4).cut (grid1.coords t) ((Gen.dat1 (F := Ideal) V c).after 4 t) = _
  rw [Gen.after1_4]
  unfold Gen.out1_4
  rw [View.canon_unit_zero hz]
  simp only [View.ld_unit_zero (S := S256x4096) hz, View.ld_unit_zero (S := S4096x256) hz,
    View.ld_unit_zero (S := S1x256) hz, View.ld_unit_zero (S := S256x128) hz]
  have h0 : (Gen.iblk1 V c 0 t : Mat.Arr 256 4096) = Mat.rowsAt 256 t.val (hrow t) (A0 V c) := blk0_read t (A0 V c)
  have h1 : (Gen.iblk1 V c 1 t : Mat.Arr 4096 256) = A1 V c := blk1_read t (A1 V c)
  have h2 : (Gen.iblk1 V c 2 t : Mat.Arr 1 256) = A2 V c := blk2_read t (A2 V c)
  have h3 : (Gen.iblk1 V c 3 t : Mat.Arr 256 128) = A3 V c := blk3_read t (A3 V c)
  refine ((pay1_eq (Gen.iblk1 V c 0 t) (Gen.iblk1 V c 1 t) (Gen.iblk1 V c 2 t) (Gen.iblk1 V c 3 t)).trans ?_).trans
    (blk4_read t (G V c)).symm
  rw [h0, h1, h2, h3]
  rfl

/-- THE OUTPUT ARRAY after the 16 points: Q = mm (relu (lin adj P b)) W. The row r is in the block of the point
    r / 256, and every point writes its block back. -/
theorem arr1_4 : (Gen.dat1 (F := Ideal) V c).arrAt 4 cfg1.N
    = Mat.mm (Mat.relu (Mat.lin (A0 V c) (A1 V c) (A2 V c))) (A3 V c) :=
  (Gen.dat1 (F := Ideal) V c).arrAt_eq_of_cover 4 (G V c) (fun t _ => flushed_eq V c t) fun i => by
    have hi0 : (i 0).val < 4096 := (i 0).isLt
    have hN : cfg1.N = 16 := Gen.N_1
    let t : Fin cfg1.N := ⟨(i 0).val / 256, by omega⟩
    obtain ⟨-, -, -, -, -, -, -, -, e0, e1⟩ := idx_facts t
    refine ⟨t, Gen.flush1_4 t, ?_⟩
    show i ∈ ((View.whole main_v17).slice (win1_4.rect t)).set
    rw [View.set_slice_whole, Rect.mem_set_unit]
    intro a
    match a with
    | ⟨0, _⟩ =>
      show win1_4.index t (0 : Fin 2) * 256 ≤ (i 0).val ∧ (i 0).val < win1_4.index t (0 : Fin 2) * 256 + 256
      rw [e0]; show (i 0).val / 256 * 256 ≤ (i 0).val ∧ (i 0).val < (i 0).val / 256 * 256 + 256; omega
    | ⟨1, _⟩ =>
      show win1_4.index t (1 : Fin 2) * 128 ≤ (i 1).val ∧ (i 1).val < win1_4.index t (1 : Fin 2) * 128 + 128
      rw [e1]; have hi1 : (i 1).val < 128 := (i 1).isLt; omega

end Cert.KernelIdeal.R1

end
-- ==== Proof.Region2Blk.lean ====
/-
  The third kernel's windows: which rows of its array each block is.

  The kernel runs at 16 grid points. Windows 0 (the adjacency array) and 11, 12, 13 (the three outputs) move down
  one block of 256 rows per point: their block at point t is rows 256·t … 256·t + 255 of the array. Windows 1 to 10
  (Q, the weights and the bias rows) stay at block (0, 0), which is the whole array. A block's coordinate on an axis
  is (block index) × (block size) + 1 × (coordinate inside the block); the block indices are read off the printed
  index maps, decided once over the 16 points.
-/
import proofs.«141271_g66125316489530_cont_sun_m_792_6_alg».proof.Proof.Gen.KernelIdeal.Frame
import proofs.«141271_g66125316489530_cont_sun_m_792_6_alg».proof.Proof.Mat
import Idealize.ShloMosaic.Lib.Pipeline.Value

set_option maxRecDepth 16384

noncomputable section

namespace Cert.KernelIdeal.R2

open Idealize.ShloMosaic Idealize.ShloMosaic.TcCoe Idealize.ShloMosaic.ValueIdx Idealize.SL.Sem
open Cert Cert.KernelIdeal

/-- The zero offsets of a whole-block rectangle, as a constant function. -/
theorem hz : (![0, 0] : Fin 2 → Nat) = fun _ => 0 := funext fun a => by fin_cases a <;> rfl

/-- The block index of each window at each of the 16 points. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = t.val ∧ win2_11.index t (1 : Fin 2) = 0
    ∧ win2_12.index t (0 : Fin 2) = t.val ∧ win2_12.index t (1 : Fin 2) = 0
    ∧ win2_13.index t (0 : Fin 2) = t.val ∧ win2_13.index t (1 : Fin 2) = 0 :=
  (by decide +kernel : ∀ t : Fin grid2.N, _)

/-- The block of 256 rows at point t lies inside the 4096 rows. -/
theorem hrow (t : Fin cfg2.N) : t.val * 256 + 256 ≤ 4096 := by
  have h := t.isLt; have hN : cfg2.N = 16 := Gen.N_2; omega

/-- Window 0's block at point t is rows 256·t … of its array (the adjacency array). -/
theorem blk0_read (t : Fin cfg2.N) (X : Mat.Arr 4096 4096) :
    (((cfg2.win 0).blk t).view.read (Elt Ideal) X : Mat.Arr 256 4096) = Mat.rowsAt 256 t.val (hrow t) X := by
  obtain ⟨e0, e1, -⟩ := idx_facts t
  funext y
  rw [View.read_apply]
  refine congrArg X (funext fun a => Fin.ext ?_)
  match a with
  | ⟨0, _⟩ => show win2_0.index t (0 : Fin 2) * 256 + 1 * (y 0).val = t.val * 256 + (y 0).val; rw [e0]; omega
  | ⟨1, _⟩ => show win2_0.index t (1 : Fin 2) * 4096 + 1 * (y 1).val = (y 1).val; rw [e1]; omega

/-- Window 1's block at every point is its whole array (the array Q). -/
theorem blk1_read (t : Fin cfg2.N) (X : Mat.Arr 4096 128) :
    (((cfg2.win 1).blk t).view.read (Elt Ideal) X : Mat.Arr 4096 128) = X := by
  obtain ⟨-, -, e0, e1, -⟩ := idx_facts t
  funext y
  rw [View.read_apply]
  refine congrArg X (funext fun a => Fin.ext ?_)
  match a with
  | ⟨0, _⟩ => show win2_1.index t (0 : Fin 2) * 4096 + 1 * (y 0).val = (y 0).val; rw [e0]; omega
  | ⟨1, _⟩ => show win2_1.index t (1 : Fin 2) * 128 + 1 * (y 1).val = (y 1).val; rw [e1]; omega

/-- Window 2's block at every point is its whole array (the embedding's bias row). -/
theorem blk2_read (t : Fin cfg2.N) (X : Mat.Arr 1 128) :
    (((cfg2.win 2).blk t).view.read (Elt Ideal) X : Mat.Arr 1 128) = X := by
  obtain ⟨-, -, -, -, e0, e1, -⟩ := idx_facts t
  funext y
  rw [View.read_apply]
  refine congrArg X (funext fun a => Fin.ext ?_)
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- Window 3's block at every point is its whole array (the feature decoder's first weights, padded). -/
theorem blk3_read (t : Fin cfg2.N) (X : Mat.Arr 128 256) :
    (((cfg2.win 3).blk t).view.read (Elt Ideal) X : Mat.Arr 128 256) = X := by
  obtain ⟨-, -, -, -, -, -, e0, e1, -⟩ := idx_facts t
  funext y
  rw [View.read_apply]
  refine congrArg X (funext fun a => Fin.ext ?_)
  match a with
  | ⟨0, _⟩ => show win2_3.index t (0 : Fin 2) * 128 + 1 * (y 0).val = (y 0).val; rw [e0]; omega
  | ⟨1, _⟩ => show win2_3.index t (1 : Fin 2) * 256 + 1 * (y 1).val = (y 1).val; rw [e1]; omega

/-- Window 4's block at every point is its whole array (the feature decoder's first bias row, padded). -/
theorem blk4_read (t : Fin cfg2.N) (X : Mat.Arr 1 256) :
    (((cfg2.win 4).blk t).view.read (Elt Ideal) X : Mat.Arr 1 256) = X := by
  obtain ⟨-, -, -, -, -, -, -, -, e0, e1, -⟩ := idx_facts t
  funext y
  rw [View.read_apply]
  refine congrArg X (funext fun a => Fin.ext ?_)
  match a with
  | ⟨0, _⟩ => show win2_4.index t (0 : Fin 2) * 1 + 1 * (y 0).val = (y 0).val; rw [e0]; omega
  | ⟨1, _⟩ => show win2_4.index t (1 : Fin 2) * 256 + 1 * (y 1).val = (y 1).val; rw [e1]; omega

/-- Window 5's block at every point is its whole array (the feature decoder's second weights, padded). -/
theorem blk5_read (t : Fin cfg2.N) (X : Mat.Arr 256 512) :
    (((cfg2.win 5).blk t).view.read (Elt Ideal) X : Mat.Arr 256 512) = X := by
  obtain ⟨-, -, -, -, -, -, -, -, -, -, e0, e1, -⟩ := idx_facts t
  funext y
  rw [View.read_apply]
  refine congrArg X (funext fun a => Fin.ext ?_)
  match a with
  | ⟨0, _⟩ => show win2_5.index t (0 : Fin 2) * 256 + 1 * (y 0).val = (y 0).val; rw [e0]; omega
  | ⟨1, _⟩ => show win2_5.index t (1 : Fin 2) * 512 + 1 * (y 1).val = (y 1).val; rw [e1]; omega

/-- Window 6's block at every point is its whole array (the feature decoder's second bias row). -/
theorem blk6_read (t : Fin cfg2.N) (X : Mat.Arr 1 512) :
    (((cfg2.win 6).blk t).view.read (Elt Ideal) X : Mat.Arr 1 512) = X := by
  obtain ⟨-, -, -, -, -, -, -, -, -, -, -, -, e0, e1, -⟩ := idx_facts t
  funext y
  rw [View.read_apply]
  refine congrArg X (funext fun a => Fin.ext ?_)
  match a with
  | ⟨0, _⟩ => show win2_6.index t (0 : Fin 2) * 1 + 1 * (y 0).val = (y 0).val; rw [e0]; omega
  | ⟨1, _⟩ => show win2_6.index t (1 : Fin 2) * 512 + 1 * (y 1).val = (y 1).val; rw [e1]; omega

/-- Window 7's block at every point is its whole array (the adjacency decoder's first weights). -/
theorem blk7_read (t : Fin cfg2.N) (X : Mat.Arr 128 128) :
    (((cfg2.win 7).blk t).view.read (Elt Ideal) X : Mat.Arr 128 128) = X := by
  obtain ⟨-, -, -, -, -, -, -, -, -, -, -, -, -, -, e0, e1, -⟩ := idx_facts t
  funext y
  rw [View.read_apply]
  refine congrArg X (funext fun a => Fin.ext ?_)
  match a with
  | ⟨0, _⟩ => show win2_7.index t (0 : Fin 2) * 128 + 1 * (y 0).val = (y 0).val; rw [e0]; omega
  | ⟨1, _⟩ => show win2_7.index t (1 : Fin 2) * 128 + 1 * (y 1).val = (y 1).val; rw [e1]; omega

/-- Window 8's block at every point is its whole array (the adjacency decoder's first bias row). -/
theorem blk8_read (t : Fin cfg2.N) (X : Mat.Arr 1 128) :
    (((cfg2.win 8).blk t).view.read (Elt Ideal) X : Mat.Arr 1 128) = X := by
  obtain ⟨-, -, -, -, -, -, -, -, -, -, -, -, -, -, -, -, e0, e1, -⟩ := idx_facts t
  funext y
  rw [View.read_apply]
  refine congrArg X (funext fun a => Fin.ext ?_)
  match a with
  | ⟨0, _⟩ => show win2_8.index t (0 : Fin 2) * 1 + 1 * (y 0).val = (y 0).val; rw [e0]; omega
  | ⟨1, _⟩ => show win2_8.index t (1 : Fin 2) * 128 + 1 * (y 1).val = (y 1).val; rw [e1]; omega

/-- Window 9's block at every point is its whole array (the adjacency decoder's second weights). -/
theorem blk9_read (t : Fin cfg2.N) (X : Mat.Arr 128 128) :
    (((cfg2.win 9).blk t).view.read (Elt Ideal) X : Mat.Arr 128 128) = X := by
  obtain ⟨-, -, -, -, -, -, -, -, -, -, -, -, -, -, -, -, -, -, e0, e1, -⟩ := idx_facts t
  funext y
  rw [View.read_apply]
  refine congrArg X (funext fun a => Fin.ext ?_)
  match a with
  | ⟨0, _⟩ => show win2_9.index t (0 : Fin 2) * 128 + 1 * (y 0).val = (y 0).val; rw [e0]; omega
  | ⟨1, _⟩ => show win2_9.index t (1 : Fin 2) * 128 + 1 * (y 1).val = (y 1).val; rw [e1]; omega

/-- Window 10's block at every point is its whole array (the adjacency decoder's second bias row). -/
theorem blk10_read (t : Fin cfg2.N) (X : Mat.Arr 1 128) :
    (((cfg2.win 10).blk t).view.read (Elt Ideal) X : Mat.Arr 1 128) = X := by
  obtain ⟨-, -, -, -, -, -, -, -, -, -, -, -, -, -, -, -, -, -, -, -, e0, e1, -⟩ := idx_facts t
  funext y
  rw [View.read_apply]
  refine congrArg X (funext fun a => Fin.ext ?_)
  match a with
  | ⟨0, _⟩ => show win2_10.index t (0 : Fin 2) * 1 + 1 * (y 0).val = (y 0).val; rw [e0]; omega
  | ⟨1, _⟩ => show win2_10.index t (1 : Fin 2) * 128 + 1 * (y 1).val = (y 1).val; rw [e1]; omega

/-- Window 11's block at point t is rows 256·t … of its array (the embedding output). -/
theorem blk11_read (t : Fin cfg2.N) (X : Mat.Arr 4096 128) :
    (((cfg2.win 11).blk t).view.read (Elt Ideal) X : Mat.Arr 256 128) = Mat.rowsAt 256 t.val (hrow t) X := by
  obtain ⟨-, -, -, -, -, -, -, -, -, -, -, -, -, -, -, -, -, -, -, -, -, -, e0, e1, -⟩ := idx_facts t
  funext y
  rw [View.read_apply]
  refine congrArg X (funext fun a => Fin.ext ?_)
  match a with
  | ⟨0, _⟩ => show win2_11.index t (0 : Fin 2) * 256 + 1 * (y 0).val = t.val * 256 + (y 0).val; rw [e0]; omega
  | ⟨1, _⟩ => show win2_11.index t (1 : Fin 2) * 128 + 1 * (y 1).val = (y 1).val; rw [e1]; omega

/-- Window 12's block at point t is rows 256·t … of its array (the decoded features output). -/
theorem blk12_read (t : Fin cfg2.N) (X : Mat.Arr 4096 512) :
    (((cfg2.win 12).blk t).view.read (Elt Ideal) X : Mat.Arr 256 512) = Mat.rowsAt 256 t.val (hrow t) X := by
  obtain ⟨-, -, -, -, -, -, -, -, -, -, -, -, -, -, -, -, -, -, -, -, -, -, -, -, e0, e1, -⟩ := idx_facts t
  funext y
  rw [View.read_apply]
  refine congrArg X (funext fun a => Fin.ext ?_)
  match a with
  | ⟨0, _⟩ => show win2_12.index t (0 : Fin 2) * 256 + 1 * (y 0).val = t.val * 256 + (y 0).val; rw [e0]; omega
  | ⟨1, _⟩ => show win2_12.index t (1 : Fin 2) * 512 + 1 * (y 1).val = (y 1).val; rw [e1]; omega

/-- Window 13's block at point t is rows 256·t … of its array (the adjacency decoder's front output). -/
theorem blk13_read (t : Fin cfg2.N) (X : Mat.Arr 4096 128) :
    (((cfg2.win 13).blk t).view.read (Elt Ideal) X : Mat.Arr 256 128) = Mat.rowsAt 256 t.val (hrow t) X := by
  obtain ⟨-, -, -, -, -, -, -, -, -, -, -, -, -, -, -, -, -, -, -, -, -, -, -, -, -, -, e0, e1⟩ := idx_facts t
  funext y
  rw [View.read_apply]
  refine congrArg X (funext fun a => Fin.ext ?_)
  match a with
  | ⟨0, _⟩ => show win2_13.index t (0 : Fin 2) * 256 + 1 * (y 0).val = t.val * 256 + (y 0).val; rw [e0]; omega
  | ⟨1, _⟩ => show win2_13.index t (1 : Fin 2) * 128 + 1 * (y 1).val = (y 1).val; rw [e1]; omega

end Cert.KernelIdeal.R2

end
-- ==== Proof.Region2Pay.lean ====
/-
  The arithmetic of the third kernel's body, as expressions of matrix operations.

  The body multiplies its block of rows of the adjacency array by the whole array Q and adds a bias row: the
  embedding block z. From z it computes two two-layer maps: the feature decoder, lin (relu (lin z W1 b1)) W2 b2 at
  the padded hidden width, and the adjacency decoder's front, lin (relu (lin z W3 b3)) W4 b4. On the extended reals
  the changes of float format are the identity, a product accumulated into the zero array is the plain matrix
  product, a broadcast row added is the row added to every row, and the maximum with the zero splat is the positive
  part; so each stored block is one expression of Mat operations of the loaded blocks.
-/
import proofs.«141271_g66125316489530_cont_sun_m_792_6_alg».proof.Proof.Region1Pay

noncomputable section

namespace Cert.KernelIdeal.R2

open Idealize.ShloMosaic Idealize.ShloMosaic.ValueIdx
open Cert Cert.KernelIdeal
open Cert.KernelIdeal.R1 (matmul_zero truncf_id addf_broadcastRow maximumf_zero)

/-- The embedding block: rows of the adjacency array times Q, plus the bias row. -/
theorem pay2_eq (x0 : Vec Ideal S256x4096 .f32) (x1 : Vec Ideal S4096x128 .f32) (x2 : Vec Ideal S1x128 .f32) :
    (Gen.k2_pay2 (F := Ideal) x0 x1 x2 : Mat.Arr 256 128) = Mat.lin x0 x1 x2 := by
  unfold Gen.k2_pay2
  simp only [shapeCast_self, truncf_id]
  rw [matmul_zero _ rfl rfl rfl rfl rfl rfl, addf_broadcastRow]
  rfl

/-- The feature decoder's block: two affine layers with the positive part between them, from the embedding block. -/
theorem pay3_eq (x0 : Vec Ideal S256x4096 .f32) (x1 : Vec Ideal S4096x128 .f32) (x2 : Vec Ideal S1x128 .f32)
    (x3 : Vec Ideal S128x256 .f32) (x4 : Vec Ideal S1x256 .f32) (x5 : Vec Ideal S256x512 .f32) (x6 : Vec Ideal S1x512 .f32) :
    (Gen.k2_pay3 (F := Ideal) x0 x1 x2 x3 x4 x5 x6 : Mat.Arr 256 512)
      = Mat.lin (Mat.relu (Mat.lin (Mat.lin x0 x1 x2) x3 x4)) x5 x6 := by
  unfold Gen.k2_pay3
  simp only [shapeCast_self]
  rw [pay2_eq, matmul_zero _ rfl rfl rfl rfl rfl rfl, addf_broadcastRow, maximumf_zero,
    matmul_zero _ rfl rfl rfl rfl rfl rfl, addf_broadcastRow]
  rfl

/-- The adjacency decoder's first product, from the embedding block. -/
theorem pay4_eq (x0 : Vec Ideal S256x4096 .f32) (x1 : Vec Ideal S4096x128 .f32) (x2 : Vec Ideal S1x128 .f32)
    (x7 : Vec Ideal S128x128 .f32) :
    (Gen.k2_pay4 (F := Ideal) x0 x1 x2 x7 : Mat.Arr 256 128) = Mat.mm (Mat.lin x0 x1 x2) x7 := by
  unfold Gen.k2_pay4
  dsimp only
  rw [pay2_eq, matmul_zero _ rfl rfl rfl rfl rfl rfl]

/-- The rest of the adjacency decoder's front: bias row, positive part, second affine layer. -/
theorem pay1_eq (p : FVec Ideal S256x128 .f32) (x8 : Vec Ideal S1x128 .f32) (x9 : Vec Ideal S128x128 .f32)
    (x10 : Vec Ideal S1x128 .f32) :
    (Gen.k2_pay1 (F := Ideal) p x8 x9 x10 : Mat.Arr 256 128) = Mat.lin (Mat.relu (Mat.addRow p x8)) x9 x10 := by
  unfold Gen.k2_pay1
  simp only [shapeCast_self]
  rw [addf_broadcastRow, maximumf_zero, matmul_zero _ rfl rfl rfl rfl rfl rfl, addf_broadcastRow]
  rfl

/-- The adjacency decoder's block, from the embedding block: two affine layers with the positive part between. -/
theorem pay13_eq (x0 : Vec Ideal S256x4096 .f32) (x1 : Vec Ideal S4096x128 .f32) (x2 : Vec Ideal S1x128 .f32)
    (x7 : Vec Ideal S128x128 .f32) (x8 : Vec Ideal S1x128 .f32) (x9 : Vec Ideal S128x128 .f32) (x10 : Vec Ideal S1x128 .f32) :
    (Gen.k2_pay1 (F := Ideal) (Gen.k2_pay4 x0 x1 x2 x7) x8 x9 x10 : Mat.Arr 256 128)
      = Mat.lin (Mat.relu (Mat.lin (Mat.lin x0 x1 x2) x7 x8)) x9 x10 := by
  rw [pay1_eq, pay4_eq]
  rfl

end Cert.KernelIdeal.R2

end
-- ==== Proof.Region2.lean ====
/-
  What the third kernel leaves in its three output arrays.

  At point t the kernel loads rows 256·t … 256·t + 255 of the adjacency array, the whole of Q and of every weight
  array and bias row, and stores one block of 256 rows into each of three outputs, written back to rows 256·t … of
  the embedding z, of the decoded features and of the adjacency decoder's front.

  Every operation of the body acts row by row, so each block stored at point t is the block of rows 256·t … of ONE
  whole-array function of the input arrays:

      z    = lin adj Q b,
      fts  = lin (relu (lin z W1 b1)) W2 b2,
      h    = lin (relu (lin z W3 b3)) W4 b4,

  and since the 16 row blocks tile the 4096 rows, each output ends holding its function. Per output: the one store
  covers its whole buffer; its value is the body's arithmetic of the input blocks; the first input block is rows of
  the adjacency array and the others are whole arrays; a block of rows of the whole-array function is that same
  arithmetic of that block of rows; the row r is covered by the point r / 256.
-/
import proofs.«141271_g66125316489530_cont_sun_m_792_6_alg».proof.Proof.Region2Blk
import proofs.«141271_g66125316489530_cont_sun_m_792_6_alg».proof.Proof.Region2Pay

set_option maxRecDepth 16384

noncomputable section

namespace Cert.KernelIdeal.R2

open Idealize.ShloMosaic Idealize.ShloMosaic.TcCoe Idealize.ShloMosaic.ValueIdx Idealize.SL.Sem
open Idealize.ShloMosaic.Pipeline (Dat)
open Cert Cert.KernelIdeal

variable (V : (c : Dev nD) → (b : Ref sig .tc) → Buf (Elt Ideal) ((c : Thread nD τ).loc b)) (c : Dev nD)

/-- The adjacency array as the kernel finds it: 4096 × 4096. -/
abbrev A0 : Mat.Arr 4096 4096 := V c (Pipeline.arrRef spec2 0)
/-- The array Q as the kernel finds it: 4096 × 128. -/
abbrev A1 : Mat.Arr 4096 128 := V c (Pipeline.arrRef spec2 1)
/-- The embedding's bias row as the kernel finds it: 1 × 128. -/
abbrev A2 : Mat.Arr 1 128 := V c (Pipeline.arrRef spec2 2)
/-- The feature decoder's first weights, padded as the kernel finds it: 128 × 256. -/
abbrev A3 : Mat.Arr 128 256 := V c (Pipeline.arrRef spec2 3)
/-- The feature decoder's first bias row, padded as the kernel finds it: 1 × 256. -/
abbrev A4 : Mat.Arr 1 256 := V c (Pipeline.arrRef spec2 4)
/-- The feature decoder's second weights, padded as the kernel finds it: 256 × 512. -/
abbrev A5 : Mat.Arr 256 512 := V c (Pipeline.arrRef spec2 5)
/-- The feature decoder's second bias row as the kernel finds it: 1 × 512. -/
abbrev A6 : Mat.Arr 1 512 := V c (Pipeline.arrRef spec2 6)
/-- The adjacency decoder's first weights as the kernel finds it: 128 × 128. -/
abbrev A7 : Mat.Arr 128 128 := V c (Pipeline.arrRef spec2 7)
/-- The adjacency decoder's first bias row as the kernel finds it: 1 × 128. -/
abbrev A8 : Mat.Arr 1 128 := V c (Pipeline.arrRef spec2 8)
/-- The adjacency decoder's second weights as the kernel finds it: 128 × 128. -/
abbrev A9 : Mat.Arr 128 128 := V c (Pipeline.arrRef spec2 9)
/-- The adjacency decoder's second bias row as the kernel finds it: 1 × 128. -/
abbrev A10 : Mat.Arr 1 128 := V c (Pipeline.arrRef spec2 10)

/-- The embedding: the adjacency array times Q, plus the bias row. -/
abbrev GZ : Mat.Arr 4096 128 := Mat.lin (A0 V c) (A1 V c) (A2 V c)
/-- The decoded features: two affine layers of the embedding with the positive part between, at the padded width. -/
abbrev GF : Mat.Arr 4096 512 := Mat.lin (Mat.relu (Mat.lin (GZ V c) (A3 V c) (A4 V c))) (A5 V c) (A6 V c)
/-- The adjacency decoder's front: two affine layers of the embedding with the positive part between. -/
abbrev GH : Mat.Arr 4096 128 := Mat.lin (Mat.relu (Mat.lin (GZ V c) (A7 V c) (A8 V c))) (A9 V c) (A10 V c)

/-! ## What each point writes back -/

/-- Point t writes back the block of rows 256·t … of the embedding. -/
theorem flushed11_eq (t : Fin cfg2.N) :
    (Gen.dat2 (F := Ideal) V c).flushed 11 t = ((cfg2.win 11).blk t).view.read (Elt Ideal) (GZ V c) := by
  show (cfg2.win 11).cut (grid2.coords t) ((Gen.dat2 (F := Ideal) V c).after 11 t) = _
  rw [Gen.after2_11]
  unfold Gen.out2_11
  rw [View.canon_unit_zero hz]
  simp only [View.ld_unit_zero (S := S256x4096) hz,
    View.ld_unit_zero (S := S4096x128) hz,
    View.ld_unit_zero (S := S1x128) hz]
  have h0 : (Gen.iblk2 V c 0 t : Mat.Arr 256 4096) = Mat.rowsAt 256 t.val (hrow t) (A0 V c) := blk0_read t (A0 V c)
  have h1 : (Gen.iblk2 V c 1 t : Mat.Arr 4096 128) = A1 V c := blk1_read t (A1 V c)
  have h2 : (Gen.iblk2 V c 2 t : Mat.Arr 1 128) = A2 V c := blk2_read t (A2 V c)
  refine ((pay2_eq (Gen.iblk2 V c 0 t) (Gen.iblk2 V c 1 t) (Gen.iblk2 V c 2 t)).trans ?_).trans
    (blk11_read t (GZ V c)).symm
  rw [h0, h1, h2]
  rfl

/-- Point t writes back the block of rows 256·t … of the decoded features. -/
theorem flushed12_eq (t : Fin cfg2.N) :
    (Gen.dat2 (F := Ideal) V c).flushed 12 t = ((cfg2.win 12).blk t).view.read (Elt Ideal) (GF V c) := by
  show (cfg2.win 12).cut (grid2.coords t) ((Gen.dat2 (F := Ideal) V c).after 12 t) = _
  rw [Gen.after2_12]
  unfold Gen.out2_12
  rw [View.canon_unit_zero hz]
  simp only [View.ld_unit_zero (S := S256x4096) hz,
    View.ld_unit_zero (S := S4096x128) hz,
    View.ld_unit_zero (S := S1x128) hz,
    View.ld_unit_zero (S := S128x256) hz,
    View.ld_unit_zero (S := S1x256) hz,
    View.ld_unit_zero (S := S256x512) hz,
    View.ld_unit_zero (S := S1x512) hz]
  have h0 : (Gen.iblk2 V c 0 t : Mat.Arr 256 4096) = Mat.rowsAt 256 t.val (hrow t) (A0 V c) := blk0_read t (A0 V c)
  have h1 : (Gen.iblk2 V c 1 t : Mat.Arr 4096 128) = A1 V c := blk1_read t (A1 V c)
  have h2 : (Gen.iblk2 V c 2 t : Mat.Arr 1 128) = A2 V c := blk2_read t (A2 V c)
  have h3 : (Gen.iblk2 V c 3 t : Mat.Arr 128 256) = A3 V c := blk3_read t (A3 V c)
  have h4 : (Gen.iblk2 V c 4 t : Mat.Arr 1 256) = A4 V c := blk4_read t (A4 V c)
  have h5 : (Gen.iblk2 V c 5 t : Mat.Arr 256 512) = A5 V c := blk5_read t (A5 V c)
  have h6 : (Gen.iblk2 V c 6 t : Mat.Arr 1 512) = A6 V c := blk6_read t (A6 V c)
  refine ((pay3_eq (Gen.iblk2 V c 0 t) (Gen.iblk2 V c 1 t) (Gen.iblk2 V c 2 t) (Gen.iblk2 V c 3 t) (Gen.iblk2 V c 4 t) (Gen.iblk2 V c 5 t) (Gen.iblk2 V c 6 t)).trans ?_).trans
    (blk12_read t (GF V c)).symm
  rw [h0, h1, h2, h3, h4, h5, h6]
  rfl

/-- Point t writes back the block of rows 256·t … of the adjacency decoder's front. -/
theorem flushed13_eq (t : Fin cfg2.N) :
    (Gen.dat2 (F := Ideal) V c).flushed 13 t = ((cfg2.win 13).blk t).view.read (Elt Ideal) (GH V c) := by
  show (cfg2.win 13).cut (grid2.coords t) ((Gen.dat2 (F := Ideal) V c).after 13 t) = _
  rw [Gen.after2_13]
  unfold Gen.out2_13
  rw [View.canon_unit_zero hz]
  simp only [View.ld_unit_zero (S := S256x4096) hz,
    View.ld_unit_zero (S := S4096x128) hz,
    View.ld_unit_zero (S := S1x128) hz,
    View.ld_unit_zero (S := S128x128) hz]
  have h0 : (Gen.iblk2 V c 0 t : Mat.Arr 256 4096) = Mat.rowsAt 256 t.val (hrow t) (A0 V c) := blk0_read t (A0 V c)
  have h1 : (Gen.iblk2 V c 1 t : Mat.Arr 4096 128) = A1 V c := blk1_read t (A1 V c)
  have h2 : (Gen.iblk2 V c 2 t : Mat.Arr 1 128) = A2 V c := blk2_read t (A2 V c)
  have h7 : (Gen.iblk2 V c 7 t : Mat.Arr 128 128) = A7 V c := blk7_read t (A7 V c)
  have h8 : (Gen.iblk2 V c 8 t : Mat.Arr 1 128) = A8 V c := blk8_read t (A8 V c)
  have h9 : (Gen.iblk2 V c 9 t : Mat.Arr 128 128) = A9 V c := blk9_read t (A9 V c)
  have h10 : (Gen.iblk2 V c 10 t : Mat.Arr 1 128) = A10 V c := blk10_read t (A10 V c)
  refine ((pay13_eq (Gen.iblk2 V c 0 t) (Gen.iblk2 V c 1 t) (Gen.iblk2 V c 2 t) (Gen.iblk2 V c 7 t) (Gen.iblk2 V c 8 t) (Gen.iblk2 V c 9 t) (Gen.iblk2 V c 10 t)).trans ?_).trans
    (blk13_read t (GH V c)).symm
  rw [h0, h1, h2, h7, h8, h9, h10]
  rfl

/-! ## The output arrays after the 16 points -/

/-- THE EMBEDDING: z = lin adj Q b. -/
theorem arr2_11 : (Gen.dat2 (F := Ideal) V c).arrAt 11 cfg2.N
    = Mat.lin (A0 V c) (A1 V c) (A2 V c) :=
  (Gen.dat2 (F := Ideal) V c).arrAt_eq_of_cover 11 (GZ V c) (fun t _ => flushed11_eq V c t) fun i => by
    have hi0 : (i 0).val < 4096 := (i 0).isLt
    have hN : cfg2.N = 16 := Gen.N_2
    let t : Fin cfg2.N := ⟨(i 0).val / 256, by omega⟩
    obtain ⟨-, -, -, -, -, -, -, -, -, -, -, -, -, -, -, -, -, -, -, -, -, -, e0, e1, -⟩ := idx_facts t
    refine ⟨t, Gen.flush2_11 t, ?_⟩
    show i ∈ ((View.whole main_v22_0).slice (win2_11.rect t)).set
    rw [View.set_slice_whole, Rect.mem_set_unit]
    intro a
    match a with
    | ⟨0, _⟩ =>
      show win2_11.index t (0 : Fin 2) * 256 ≤ (i 0).val ∧ (i 0).val < win2_11.index t (0 : Fin 2) * 256 + 256
      rw [e0]; show (i 0).val / 256 * 256 ≤ (i 0).val ∧ (i 0).val < (i 0).val / 256 * 256 + 256; omega
    | ⟨1, _⟩ =>
      show win2_11.index t (1 : Fin 2) * 128 ≤ (i 1).val ∧ (i 1).val < win2_11.index t (1 : Fin 2) * 128 + 128
      rw [e1]; have hi1 : (i 1).val < 128 := (i 1).isLt; omega

/-- THE DECODED FEATURES: lin (relu (lin z W1 b1)) W2 b2. -/
theorem arr2_12 : (Gen.dat2 (F := Ideal) V c).arrAt 12 cfg2.N
    = Mat.lin (Mat.relu (Mat.lin (Mat.lin (A0 V c) (A1 V c) (A2 V c)) (A3 V c) (A4 V c))) (A5 V c) (A6 V c) :=
  (Gen.dat2 (F := Ideal) V c).arrAt_eq_of_cover 12 (GF V c) (fun t _ => flushed12_eq V c t) fun i => by
    have hi0 : (i 0).val < 4096 := (i 0).isLt
    have hN : cfg2.N = 16 := Gen.N_2
    let t : Fin cfg2.N := ⟨(i 0).val / 256, by omega⟩
    obtain ⟨-, -, -, -, -, -, -, -, -, -, -, -, -, -, -, -, -, -, -, -, -, -, -, -, e0, e1, -⟩ := idx_facts t
    refine ⟨t, Gen.flush2_12 t, ?_⟩
    show i ∈ ((View.whole main_v22_1).slice (win2_12.rect t)).set
    rw [View.set_slice_whole, Rect.mem_set_unit]
    intro a
    match a with
    | ⟨0, _⟩ =>
      show win2_12.index t (0 : Fin 2) * 256 ≤ (i 0).val ∧ (i 0).val < win2_12.index t (0 : Fin 2) * 256 + 256
      rw [e0]; show (i 0).val / 256 * 256 ≤ (i 0).val ∧ (i 0).val < (i 0).val / 256 * 256 + 256; omega
    | ⟨1, _⟩ =>
      show win2_12.index t (1 : Fin 2) * 512 ≤ (i 1).val ∧ (i 1).val < win2_12.index t (1 : Fin 2) * 512 + 512
      rw [e1]; have hi1 : (i 1).val < 512 := (i 1).isLt; omega

/-- THE ADJACENCY DECODER'S FRONT: lin (relu (lin z W3 b3)) W4 b4. -/
theorem arr2_13 : (Gen.dat2 (F := Ideal) V c).arrAt 13 cfg2.N
    = Mat.lin (Mat.relu (Mat.lin (Mat.lin (A0 V c) (A1 V c) (A2 V c)) (A7 V c) (A8 V c))) (A9 V c) (A10 V c) :=
  (Gen.dat2 (F := Ideal) V c).arrAt_eq_of_cover 13 (GH V c) (fun t _ => flushed13_eq V c t) fun i => by
    have hi0 : (i 0).val < 4096 := (i 0).isLt
    have hN : cfg2.N = 16 := Gen.N_2
    let t : Fin cfg2.N := ⟨(i 0).val / 256, by omega⟩
    obtain ⟨-, -, -, -, -, -, -, -, -, -, -, -, -, -, -, -, -, -, -, -, -, -, -, -, -, -, e0, e1⟩ := idx_facts t
    refine ⟨t, Gen.flush2_13 t, ?_⟩
    show i ∈ ((View.whole main_v22_2).slice (win2_13.rect t)).set
    rw [View.set_slice_whole, Rect.mem_set_unit]
    intro a
    match a with
    | ⟨0, _⟩ =>
      show win2_13.index t (0 : Fin 2) * 256 ≤ (i 0).val ∧ (i 0).val < win2_13.index t (0 : Fin 2) * 256 + 256
      rw [e0]; show (i 0).val / 256 * 256 ≤ (i 0).val ∧ (i 0).val < (i 0).val / 256 * 256 + 256; omega
    | ⟨1, _⟩ =>
      show win2_13.index t (1 : Fin 2) * 128 ≤ (i 1).val ∧ (i 1).val < win2_13.index t (1 : Fin 2) * 128 + 128
      rw [e1]; have hi1 : (i 1).val < 128 := (i 1).isLt; omega

end Cert.KernelIdeal.R2

end
-- ==== Proof.LibDotT.lean ====
/-
  A matrix product with the transpose of the right factor, read at an index, on the extended reals.

  For a rows × contraction by columns × contraction product — the dimension numbers that contract the left operand's
  second axis with the right operand's SECOND axis, with no batch axis — the entry at (i, j) of the host's
  `dot_general`, and of a `tpu.matmul` accumulated into the zero splat, is the plain sum over the contraction
  coordinate k of l (i, k) · r (j, k): row i of the left operand against row j of the right one. The sum over the
  product's own contraction index is re-indexed through the bijection between a one-axis contraction index and its
  coordinate; the operand indices are computed from the dimension numbers: the left operand reads the result's first
  coordinate on its first axis, the right operand reads the result's second coordinate on its first axis, and both
  read the contraction coordinate on their second axis. Nothing here needs finiteness: only that the sum is re-indexed.
-/
import Idealize.ShloMosaic.Lib.ValueIdx
import Idealize.ShloMosaic.PureOps.Ideal.Laws

noncomputable section

namespace Cert.LibDotT

open Idealize.ShloMosaic Idealize.ShloMosaic.ValueIdx

variable {M K N : Nat}

/-- The contraction of row `y 0` of `l` with row `y 1` of `r`: the sum over the product's contraction index is
    the sum over the one contracted coordinate. -/
theorem sum_transposed (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (y : (⟨2, ![M, N]⟩ : Shape).Idx) :
    ∑ q : d.contr.Idx, l (d.lhsIdx y q) * r (d.rhsIdx y q) = ∑ k : Fin K, l (ix2 (y 0) k) * r (ix2 (y 1) k) := by
  obtain ⟨lc, rc, ln, rn, lb, rb, wf⟩ := d
  dsimp only at hlc hrc hln hrn hlb hrb
  subst hlc hrc hln hrn hlb hrb
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 1) k := funext fun a => Fin.ext (by
    match a with
    | ⟨0, _⟩ =>
      unfold DotDims.rhsIdx
      rw [dif_neg (by simp), dif_pos (by simp)]
      rfl
    | ⟨1, _⟩ => exact (DotDims.rhsIdx_val_of_single _ rfl y _).trans hk)
  rw [el, er]
  rfl

variable {φ₁ φ₂ : FTy}

/-- The host's `dot_general` of those dimension numbers, at an index: the sum over the contracted coordinate. -/
theorem dotGeneral_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule)
    (l : FVec Ideal ⟨2, ![M, K]⟩ φ₁) (r : FVec Ideal ⟨2, ![N, K]⟩ φ₂) (y : (⟨2, ![M, N]⟩ : Shape).Idx) :
    FloatOps.dotGeneral d prec sched l r y = ∑ k : Fin K, l (ix2 (y 0) k) * r (ix2 (y 1) k) := by
  rw [Ideal.dotGeneral_apply]
  exact sum_transposed d hlc hrc hln hrn hlb hrb l r y

/-- A `tpu.matmul` of those dimension numbers into the zero accumulator, at an index: the same sum. -/
theorem matmul_zero_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![M, K]⟩ φ₁) (r : FVec Ideal ⟨2, ![N, K]⟩ φ₂) (y : (⟨2, ![M, N]⟩ : Shape).Idx) :
    FloatOps.matmul d prec l r (constant ⟨2, ![M, N]⟩ .f32 0x00000000#32) y
      = ∑ k : Fin K, l (ix2 (y 0) k) * r (ix2 (y 1) k) := by
  rw [Ideal.matmul_constant_zero_apply]
  exact sum_transposed d hlc hrc hln hrn hlb hrb l r y

end Cert.LibDotT

end
-- ==== Proof.Region3Body.lean ====
/-
  The Gram kernel, one grid point: what its two stores hold.

  The fourth kernel computes two Gram matrices, x · xᵀ for two arrays x of 4096 rows and 128 columns, sixteen row
  blocks of 256 rows each. At grid point t it loads rows [256 t, 256 t + 256) of an array and the whole array, and
  stores the product of the first with the transpose of the second: entry (p, j) of the stored block is the sum over k
  of x (256 t + p, k) · x (j, k). The casts to the narrower float format are the identity on the extended reals, so
  the stored block is rows [256 t, 256 t + 256) of the one array x · xᵀ; because the product with a transpose acts row
  by row, that is the product of those rows of x with xᵀ.

  Here: each output's staging buffer after the body, as the body's one store's value of its two loads; that value, on
  the extended reals, as the product with a transpose; the row offset of the first load and the windows' index maps
  over the sixteen points in closed form; and the stored block as a block of rows of x · xᵀ.
-/
import proofs.«141271_g66125316489530_cont_sun_m_792_6_alg».proof.Proof.Gen.KernelIdeal.Frame
import proofs.«141271_g66125316489530_cont_sun_m_792_6_alg».proof.Proof.Mat
import proofs.«141271_g66125316489530_cont_sun_m_792_6_alg».proof.Proof.LibDotT
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R3

open Cert.KernelIdeal Cert.KernelIdeal.Gen

variable {F : FTy → Type} [FloatOps F]

/-- Both offsets of a whole-block rectangle are zero. -/
theorem zero_offsets : (![0, 0] : Fin 2 → Nat) = fun _ => 0 := funext fun a => by fin_cases a <;> rfl

/-! ## What the body leaves in each output's staging buffer -/

/-- The first output's buffer after the body holds its one covering store's value: the payload of the rows loaded at
    the point's row offset and of the whole first input. -/
theorem stored_aeAdj (c : Dev nD) (i : grid3.Coords) (arg1 : Memref sig .tc .vmem S4096x128 .f32) (harg1 : arg1.IsWhole)
    (arg2 : Memref sig .tc .vmem S4096x128 .f32) (harg2 : arg2.IsWhole) (arg3 : Memref sig .tc .vmem S256x4096 .f32) (harg3 : arg3.IsWhole)
    (arg4 : Memref sig .tc .vmem S256x4096 .f32) (harg4 : arg4.IsWhole) (x0 : Vec F S4096x128 .f32) (x1 : Vec F S4096x128 .f32) :
    out3_A_2 c i arg1 harg1 arg2 harg2 arg3 harg3 arg4 harg4 x0 x1
      = k3_pay1 (View.ld x0 (Rect.unit (s := S4096x128) (k3_off1 i) S256x128.size (k3_off1_inb i))) x0 := by
  unfold out3_A_2
  rw [View.read_writes_eq_canon _ _ _ (cover3_A_2 c i arg1 harg1 arg2 harg2 arg3 harg3 arg4 harg4 x0 x1)]
  unfold kernelRun3_A
  dsimp only
  rw [View.canon_unit_zero zero_offsets]
  simp only [View.readAt_eq_ld, harg1.read_unread, View.ld_unit_zero (S := S4096x128) zero_offsets]

/-- The second output's buffer after the body: the same of the second input. -/
theorem stored_gaeAdj (c : Dev nD) (i : grid3.Coords) (arg1 : Memref sig .tc .vmem S4096x128 .f32) (harg1 : arg1.IsWhole)
    (arg2 : Memref sig .tc .vmem S4096x128 .f32) (harg2 : arg2.IsWhole) (arg3 : Memref sig .tc .vmem S256x4096 .f32) (harg3 : arg3.IsWhole)
    (arg4 : Memref sig .tc .vmem S256x4096 .f32) (harg4 : arg4.IsWhole) (x0 : Vec F S4096x128 .f32) (x1 : Vec F S4096x128 .f32) :
    out3_A_3 c i arg1 harg1 arg2 harg2 arg3 harg3 arg4 harg4 x0 x1
      = k3_pay2 (View.ld x1 (Rect.unit (s := S4096x128) (k3_off1 i) S256x128.size (k3_off1_inb i))) x1 := by
  unfold out3_A_3
  rw [View.read_writes_eq_canon _ _ _ (cover3_A_3 c i arg1 harg1 arg2 harg2 arg3 harg3 arg4 harg4 x0 x1)]
  unfold kernelRun3_A
  dsimp only
  rw [View.canon_unit_zero zero_offsets]
  simp only [View.readAt_eq_ld, harg2.read_unread, View.ld_unit_zero (S := S4096x128) zero_offsets]

/-! ## The stored value on the extended reals: a product with a transpose -/

/-- The first store's value: entry (p, j) is the sum over k of rows (p, k) · whole (j, k). The same-shape casts and
    the casts to the narrower float format are the identity; the accumulator is the zero splat. -/
theorem gram_pay1 (v2 : Vec Ideal S256x128 .f32) (v5 : Vec Ideal S4096x128 .f32) :
    k3_pay1 (F := Ideal) v2 v5 = Mat.mmT (v2 : Mat.Arr 256 128) (v5 : Mat.Arr 4096 128) := by
  funext y
  unfold k3_pay1
  refine (LibDotT.matmul_zero_transposed_apply dot_S256x128_S4096x128_S256x4096_1_1_0_0_n_n rfl rfl rfl rfl rfl rfl none _ _ y).trans ?_
  rw [shapeCast_self, shapeCast_self]
  rfl

/-- The second store's value: the same product. -/
theorem gram_pay2 (v12 : Vec Ideal S256x128 .f32) (v15 : Vec Ideal S4096x128 .f32) :
    k3_pay2 (F := Ideal) v12 v15 = Mat.mmT (v12 : Mat.Arr 256 128) (v15 : Mat.Arr 4096 128) := by
  funext y
  unfold k3_pay2
  refine (LibDotT.matmul_zero_transposed_apply dot_S256x128_S4096x128_S256x4096_1_1_0_0_n_n rfl rfl rfl rfl rfl rfl none _ _ y).trans ?_
  rw [shapeCast_self, shapeCast_self]
  rfl

/-! ## The sixteen points: coordinates and index maps in closed form -/

/-- Point t has grid coordinate t; both inputs' blocks are the whole arrays (block index (0, 0) at every point);
    both outputs' blocks are row block t (block index (t, 0)). -/
theorem index_maps : ∀ t : Fin cfg3.N, (grid3.coords t (0 : Fin 1)).val = t.val
    ∧ win3_0.index t (0 : Fin 2) = 0 ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row block t of sixteen lies inside the 4096 rows. -/
theorem rows_le (t : Fin cfg3.N) : t.val * 256 + 256 ≤ 4096 := by
  have hN : cfg3.N = 16 := N_3
  have := t.isLt
  omega

/-! ## The stored block is a block of rows of x · xᵀ -/

/-- At a point whose grid coordinate is tv, the rows the body loads are rows [256 tv, 256 tv + 256) of x (the load's
    row offset is 256 times the coordinate, its column offset 0), so the first store's value is that block of rows
    of x · xᵀ: the product with a transpose acts row by row. -/
theorem gramRows_pay1 (i : grid3.Coords) (tv : Nat) (hi : (i 0).val = tv) (ht : tv * 256 + 256 ≤ 4096)
    (x0 : Vec Ideal S4096x128 .f32) :
    k3_pay1 (F := Ideal) (View.ld x0 (Rect.unit (s := S4096x128) (k3_off1 i) S256x128.size (k3_off1_inb i))) x0
      = Mat.rowsAt 256 tv ht (Mat.mmT (x0 : Mat.Arr 4096 128) (x0 : Mat.Arr 4096 128)) := by
  rw [gram_pay1, Mat.rowsAt_mmT]
  refine congrArg (fun r : Mat.Arr 256 128 => Mat.mmT r (x0 : Mat.Arr 4096 128)) ?_
  funext y
  refine congrArg x0 ?_
  funext a
  apply Fin.ext
  have e0 : k3_off1 i 0 = 256 * (i 0).val := congrFun (k3_off1_eq i) 0
  have e1 : k3_off1 i 1 = 0 := congrFun (k3_off1_eq i) 1
  match a with
  | ⟨0, _⟩ =>
    show k3_off1 i 0 + 1 * (y 0).val = tv * 256 + (y 0).val
    omega
  | ⟨1, _⟩ =>
    show k3_off1 i 1 + 1 * (y 1).val = (y 1).val
    omega

/-- The same for the second store. -/
theorem gramRows_pay2 (i : grid3.Coords) (tv : Nat) (hi : (i 0).val = tv) (ht : tv * 256 + 256 ≤ 4096)
    (x1 : Vec Ideal S4096x128 .f32) :
    k3_pay2 (F := Ideal) (View.ld x1 (Rect.unit (s := S4096x128) (k3_off1 i) S256x128.size (k3_off1_inb i))) x1
      = Mat.rowsAt 256 tv ht (Mat.mmT (x1 : Mat.Arr 4096 128) (x1 : Mat.Arr 4096 128)) := by
  rw [gram_pay2, Mat.rowsAt_mmT]
  refine congrArg (fun r : Mat.Arr 256 128 => Mat.mmT r (x1 : Mat.Arr 4096 128)) ?_
  funext y
  refine congrArg x1 ?_
  funext a
  apply Fin.ext
  have e0 : k3_off1 i 0 = 256 * (i 0).val := congrFun (k3_off1_eq i) 0
  have e1 : k3_off1 i 1 = 0 := congrFun (k3_off1_eq i) 1
  match a with
  | ⟨0, _⟩ =>
    show k3_off1 i 0 + 1 * (y 0).val = tv * 256 + (y 0).val
    omega
  | ⟨1, _⟩ =>
    show k3_off1 i 1 + 1 * (y 1).val = (y 1).val
    omega

end Cert.KernelIdeal.R3

end
-- ==== Proof.Region3.lean ====
/-
  The Gram kernel, the whole region: each output array after its sixteen points is x · xᵀ.

  With H the 4096 × 128 array a window of the region finds on entry, every point's input block is all of H (the
  window's block is the whole array at every point). Point t leaves in an output's staging buffer rows
  [256 t, 256 t + 256) of H · Hᵀ, and writes them back to row block t of the 4096 × 4096 output array: a block
  coordinate is the block index times the block size plus the coordinate inside the block, so what is written at
  block t is the block read of the ONE array H · Hᵀ. Row r lies in the block of point r / 256, so the sixteen blocks
  cover the array, and the array ends holding H · Hᵀ: entry (r, j) is the sum over k of H (r, k) · H (j, k).
  The first output is this for the first window's array, the second for the second's. Nothing needs finiteness.
-/
import proofs.«141271_g66125316489530_cont_sun_m_792_6_alg».proof.Proof.Region3Body

noncomputable section

open Idealize.ShloMosaic Idealize.ShloMosaic.TcCoe Idealize.SL.Sem
open Idealize.ShloMosaic.Pipeline (Dat)

namespace Cert.KernelIdeal.R3

open Cert.KernelIdeal Cert.KernelIdeal.Gen

variable (V : (c : Dev nD) → (b : Ref sig .tc) → Buf (Elt Ideal) ((c : Thread nD τ).loc b))

/-- The array the first input window finds on entry. -/
abbrev H0 (c : Dev nD) : Mat.Arr 4096 128 := V c (Pipeline.arrRef spec3 0)
/-- The array the second input window finds on entry. -/
abbrev H1 (c : Dev nD) : Mat.Arr 4096 128 := V c (Pipeline.arrRef spec3 1)

/-! ## The input windows' blocks are the whole arrays -/

/-- The first input's block at every point is its array: block index (0, 0), block size the array's. -/
theorem block0_whole (c : Dev nD) (t : Fin cfg3.N) : (iblk3 V c 0 t : Vec Ideal S4096x128 .f32) = H0 V c := by
  obtain ⟨-, e0, e1, -⟩ := index_maps t
  funext y
  unfold iblk3
  rw [View.read_apply]
  show V c (Pipeline.arrRef spec3 0) _ = V c (Pipeline.arrRef spec3 0) y
  refine congrArg (V c (Pipeline.arrRef spec3 0)) ?_
  funext a
  apply Fin.ext
  match a with
  | ⟨0, _⟩ => show win3_0.index t 0 * 4096 + 1 * (y 0).val = (y 0).val; rw [e0]; omega
  | ⟨1, _⟩ => show win3_0.index t 1 * 128 + 1 * (y 1).val = (y 1).val; rw [e1]; omega

/-- The second input's block at every point is its array. -/
theorem block1_whole (c : Dev nD) (t : Fin cfg3.N) : (iblk3 V c 1 t : Vec Ideal S4096x128 .f32) = H1 V c := by
  obtain ⟨-, -, -, e0, e1, -⟩ := index_maps t
  funext y
  unfold iblk3
  rw [View.read_apply]
  show V c (Pipeline.arrRef spec3 1) _ = V c (Pipeline.arrRef spec3 1) y
  refine congrArg (V c (Pipeline.arrRef spec3 1)) ?_
  funext a
  apply Fin.ext
  match a with
  | ⟨0, _⟩ => show win3_1.index t 0 * 4096 + 1 * (y 0).val = (y 0).val; rw [e0]; omega
  | ⟨1, _⟩ => show win3_1.index t 1 * 128 + 1 * (y 1).val = (y 1).val; rw [e1]; omega

/-! ## What point t leaves in each output's staging buffer -/

/-- Point t leaves rows [256 t, 256 t + 256) of H0 · H0ᵀ in the first output's buffer. -/
theorem point_aeAdj (c : Dev nD) (t : Fin cfg3.N) :
    (outsAt3 (F := Ideal) V c t).1 = Mat.rowsAt 256 t.val (rows_le t) (Mat.mmT (H0 V c) (H0 V c)) := by
  unfold outsAt3
  dsimp only
  refine (stored_aeAdj (F := Ideal) c (grid3.coords t) (ms3_0 t) (hs3_0 t) (ms3_1 t) (hs3_1 t) (ms3_2 t) (hs3_2 t) (ms3_3 t) (hs3_3 t) (iblk3 V c 0 t) (iblk3 V c 1 t)).trans ?_
  rw [block0_whole V c t]
  exact gramRows_pay1 (grid3.coords t) t.val (index_maps t).1 (rows_le t) (H0 V c)

/-- Point t leaves rows [256 t, 256 t + 256) of H1 · H1ᵀ in the second output's buffer. -/
theorem point_gaeAdj (c : Dev nD) (t : Fin cfg3.N) :
    (outsAt3 (F := Ideal) V c t).2 = Mat.rowsAt 256 t.val (rows_le t) (Mat.mmT (H1 V c) (H1 V c)) := by
  unfold outsAt3
  dsimp only
  refine (stored_gaeAdj (F := Ideal) c (grid3.coords t) (ms3_0 t) (hs3_0 t) (ms3_1 t) (hs3_1 t) (ms3_2 t) (hs3_2 t) (ms3_3 t) (hs3_3 t) (iblk3 V c 0 t) (iblk3 V c 1 t)).trans ?_
  rw [block1_whole V c t]
  exact gramRows_pay2 (grid3.coords t) t.val (index_maps t).1 (rows_le t) (H1 V c)

/-! ## What each point writes back: row block t of ONE whole-array function -/

/-- Point t writes back, to the first output, block t of H0 · H0ᵀ: row 256 t + p of the array is row p of the block. -/
theorem written_aeAdj (c : Dev nD) (t : Fin cfg3.N) :
    (dat3 (F := Ideal) V c).flushed 2 t
      = ((cfg3.win 2).blk t).view.read (Elt Ideal) (Mat.mmT (H0 V c) (H0 V c) : Mat.Arr 4096 4096) := by
  show (cfg3.win 2).cut (grid3.coords t) ((dat3 V c).after 2 t) = _
  rw [after3_2, point_aeAdj V c t]
  obtain ⟨-, -, -, -, -, e0, e1, -⟩ := index_maps t
  funext j
  show (Mat.mmT (H0 V c) (H0 V c) : Mat.Arr 4096 4096) _
    = (Mat.mmT (H0 V c) (H0 V c) : Mat.Arr 4096 4096) (((cfg3.win 2).blk t).view.emb j)
  refine congrArg (Mat.mmT (H0 V c) (H0 V c) : Mat.Arr 4096 4096) ?_
  funext a
  apply Fin.ext
  match a with
  | ⟨0, _⟩ => show t.val * 256 + (j 0).val = win3_2.index t 0 * 256 + 1 * (j 0).val; rw [e0]; omega
  | ⟨1, _⟩ => show (j 1).val = win3_2.index t 1 * 4096 + 1 * (j 1).val; rw [e1]; omega

/-- Point t writes back, to the second output, block t of H1 · H1ᵀ. -/
theorem written_gaeAdj (c : Dev nD) (t : Fin cfg3.N) :
    (dat3 (F := Ideal) V c).flushed 3 t
      = ((cfg3.win 3).blk t).view.read (Elt Ideal) (Mat.mmT (H1 V c) (H1 V c) : Mat.Arr 4096 4096) := by
  show (cfg3.win 3).cut (grid3.coords t) ((dat3 V c).after 3 t) = _
  rw [after3_3, point_gaeAdj V c t]
  obtain ⟨-, -, -, -, -, -, -, e0, e1⟩ := index_maps t
  funext j
  show (Mat.mmT (H1 V c) (H1 V c) : Mat.Arr 4096 4096) _
    = (Mat.mmT (H1 V c) (H1 V c) : Mat.Arr 4096 4096) (((cfg3.win 3).blk t).view.emb j)
  refine congrArg (Mat.mmT (H1 V c) (H1 V c) : Mat.Arr 4096 4096) ?_
  funext a
  apply Fin.ext
  match a with
  | ⟨0, _⟩ => show t.val * 256 + (j 0).val = win3_3.index t 0 * 256 + 1 * (j 0).val; rw [e0]; omega
  | ⟨1, _⟩ => show (j 1).val = win3_3.index t 1 * 4096 + 1 * (j 1).val; rw [e1]; omega

/-! ## The sixteen row blocks cover the array -/

/-- An index of the first output array is in point t's block iff each coordinate is in the block's range on its axis. -/
theorem mem_rows2 (t : Fin cfg3.N) (i : S4096x4096.Idx) :
    i ∈ ((cfg3.win 2).blk t).view.set ↔ ∀ a : Fin 2, win3_2.index t a * S256x4096.size a ≤ (i a).val
      ∧ (i a).val < win3_2.index t a * S256x4096.size a + S256x4096.size a := by
  show i ∈ ((View.whole main_v23_0).slice (win3_2.rect t)).set ↔ _
  rw [View.set_slice_whole, Rect.mem_set_unit]
  exact Iff.rfl

/-- The same for the second output array. -/
theorem mem_rows3 (t : Fin cfg3.N) (i : S4096x4096.Idx) :
    i ∈ ((cfg3.win 3).blk t).view.set ↔ ∀ a : Fin 2, win3_3.index t a * S256x4096.size a ≤ (i a).val
      ∧ (i a).val < win3_3.index t a * S256x4096.size a + S256x4096.size a := by
  show i ∈ ((View.whole main_v23_1).slice (win3_3.rect t)).set ↔ _
  rw [View.set_slice_whole, Rect.mem_set_unit]
  exact Iff.rfl

/-- Row r of the first output is written by point r / 256, and every point writes back. -/
theorem rows_cover2 (i : S4096x4096.Idx) :
    ∃ t : Fin cfg3.N, (cfg3.win 2).flush t = true ∧ i ∈ ((cfg3.win 2).blk t).view.set := by
  have hN : cfg3.N = 16 := N_3
  have hi0 : (i 0).val < 4096 := (i 0).isLt
  have hi1 : (i 1).val < 4096 := (i 1).isLt
  refine ⟨⟨(i 0).val / 256, by rw [hN]; omega⟩, flush3_2 _, ?_⟩
  rw [mem_rows2]
  obtain ⟨-, -, -, -, -, e0, e1, -⟩ := index_maps ⟨(i 0).val / 256, by rw [hN]; omega⟩
  intro a
  match a with
  | ⟨0, _⟩ =>
    show win3_2.index _ 0 * 256 ≤ (i 0).val ∧ (i 0).val < win3_2.index _ 0 * 256 + 256
    rw [e0]
    show (i 0).val / 256 * 256 ≤ (i 0).val ∧ (i 0).val < (i 0).val / 256 * 256 + 256
    omega
  | ⟨1, _⟩ =>
    show win3_2.index _ 1 * 4096 ≤ (i 1).val ∧ (i 1).val < win3_2.index _ 1 * 4096 + 4096
    rw [e1]
    omega

/-- Row r of the second output is written by point r / 256. -/
theorem rows_cover3 (i : S4096x4096.Idx) :
    ∃ t : Fin cfg3.N, (cfg3.win 3).flush t = true ∧ i ∈ ((cfg3.win 3).blk t).view.set := by
  have hN : cfg3.N = 16 := N_3
  have hi0 : (i 0).val < 4096 := (i 0).isLt
  have hi1 : (i 1).val < 4096 := (i 1).isLt
  refine ⟨⟨(i 0).val / 256, by rw [hN]; omega⟩, flush3_3 _, ?_⟩
  rw [mem_rows3]
  obtain ⟨-, -, -, -, -, -, -, e0, e1⟩ := index_maps ⟨(i 0).val / 256, by rw [hN]; omega⟩
  intro a
  match a with
  | ⟨0, _⟩ =>
    show win3_3.index _ 0 * 256 ≤ (i 0).val ∧ (i 0).val < win3_3.index _ 0 * 256 + 256
    rw [e0]
    show (i 0).val / 256 * 256 ≤ (i 0).val ∧ (i 0).val < (i 0).val / 256 * 256 + 256
    omega
  | ⟨1, _⟩ =>
    show win3_3.index _ 1 * 4096 ≤ (i 1).val ∧ (i 1).val < win3_3.index _ 1 * 4096 + 4096
    rw [e1]
    omega

/-! ## The two output arrays after the region -/

/-- The first output array after the sixteen points is H0 · H0ᵀ. -/
theorem arr3_2 (c : Dev nD) :
    (dat3 (F := Ideal) V c).arrAt 2 cfg3.N
      = Mat.mmT (V c (Pipeline.arrRef spec3 0) : Mat.Arr 4096 128) (V c (Pipeline.arrRef spec3 0) : Mat.Arr 4096 128) :=
  (dat3 (F := Ideal) V c).arrAt_eq_of_cover 2 (Mat.mmT (H0 V c) (H0 V c) : Mat.Arr 4096 4096)
    (fun t _ => written_aeAdj V c t) rows_cover2

/-- The second output array after the sixteen points is H1 · H1ᵀ. -/
theorem arr3_3 (c : Dev nD) :
    (dat3 (F := Ideal) V c).arrAt 3 cfg3.N
      = Mat.mmT (V c (Pipeline.arrRef spec3 1) : Mat.Arr 4096 128) (V c (Pipeline.arrRef spec3 1) : Mat.Arr 4096 128) :=
  (dat3 (F := Ideal) V c).arrAt_eq_of_cover 3 (Mat.mmT (H1 V c) (H1 V c) : Mat.Arr 4096 4096)
    (fun t _ => written_gaeAdj V c t) rows_cover3

end Cert.KernelIdeal.R3

end
-- ==== Proof.Final.lean ====
/-
  The idealized kernels compute the specification.

  Kernel by kernel, each output array is the specification's function of the launch contents of the arguments. The
  first kernel's four outputs are the node features' product with the padded graph weights, the feature encoder's
  codes, and the two decoders applied to those codes; each is computed at the padded hidden width, and the padding law
  removes the padding. The second kernel's output is the graph encoder's hidden layer multiplied on, from the first
  kernel's product; the third kernel adds the last graph layer and applies the two decoders to the graph codes; the
  fourth takes the inner products of the rows of each adjacency decoder's array. The six results are the output
  arrays of the kernels that wrote them.

  Each step is first stated for arbitrary arrays that are assumed equal to the padded (or passed-on) ones, and then
  applied to what the kernel finds.
-/
import proofs.«141271_g66125316489530_cont_sun_m_792_6_alg».proof.Proof.Gen.KernelIdeal.Frame
import Idealize.ShloMosaic.Lib.StableHlo.Run
import Idealize.ShloMosaic.PureOps.Ideal
import proofs.«141271_g66125316489530_cont_sun_m_792_6_alg».proof.Proof.Entries
import proofs.«141271_g66125316489530_cont_sun_m_792_6_alg».proof.Proof.SpecPad
import proofs.«141271_g66125316489530_cont_sun_m_792_6_alg».proof.Proof.Region0
import proofs.«141271_g66125316489530_cont_sun_m_792_6_alg».proof.Proof.Region1
import proofs.«141271_g66125316489530_cont_sun_m_792_6_alg».proof.Proof.Region2
import proofs.«141271_g66125316489530_cont_sun_m_792_6_alg».proof.Proof.Region3
set_option maxRecDepth 16384

noncomputable section

namespace Cert.KernelIdeal.Final

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

open Cert.Mat Cert.Spec Cert.KernelIdeal.Chain Cert.KernelIdeal.Entries

/-! ## The steps, over arbitrary arrays -/

section Steps

variable (x : Arr 4096 512) (adj df : Arr 4096 4096) (w1 : Arr 512 200) (b1 : Vec1 200) (w2 : Arr 200 128) (b2 : Vec1 128)
  (wg1 : Arr 4096 200) (bg1 : Vec1 200) (wg2 : Arr 200 128) (bg2 : Vec1 128)
  (wd1 : Arr 128 200) (bd1 : Vec1 200) (wd2 : Arr 200 512) (bd2 : Vec1 512)
  (wa1 : Arr 128 128) (ba1 : Vec1 128) (wa2 : Arr 128 128) (ba2 : Vec1 128)

theorem step_enc (A0 : Arr 4096 512) (A3 : Arr 512 256) (A4 : Arr 1 256) (A5 : Arr 256 128) (A6 : Arr 1 128)
    (h0 : A0 = x) (h3 : A3 = padCols 256 w1) (h4 : A4 = padCols 256 (row b1)) (h5 : A5 = padRows 256 w2) (h6 : A6 = row b2) :
    R0.Z A0 A3 A4 A5 A6 = enc x w1 b1 w2 b2 := by
  subst h0 h3 h4 h5 h6
  exact enc_pad _ _ _ _ _

theorem step_decF (z : Arr 4096 128) (Zc : Arr 4096 128) (A7 : Arr 128 256) (A8 : Arr 1 256) (A9 : Arr 256 512) (A10 : Arr 1 512)
    (hz : Zc = z) (h7 : A7 = padCols 256 wd1) (h8 : A8 = padCols 256 (row bd1)) (h9 : A9 = padRows 256 wd2) (h10 : A10 = row bd2) :
    lin (relu (lin Zc A7 A8)) A9 A10 = decF z wd1 bd1 wd2 bd2 := by
  subst hz h7 h8 h9 h10
  exact decF_pad _ _ _ _ _

theorem step_decH (z : Arr 4096 128) (Zc : Arr 4096 128) (A11 : Arr 128 128) (A12 : Arr 1 128) (A13 : Arr 128 128) (A14 : Arr 1 128)
    (hz : Zc = z) (h11 : A11 = wa1) (h12 : A12 = row ba1) (h13 : A13 = wa2) (h14 : A14 = row ba2) :
    lin (relu (lin Zc A11 A12)) A13 A14 = decH z wa1 ba1 wa2 ba2 := by
  subst hz h11 h12 h13 h14
  rfl

theorem step_hidden (A0 : Arr 4096 4096) (A1 : Arr 4096 256) (A2 : Arr 1 256) (A3 : Arr 256 128)
    (h0 : A0 = adj) (h1 : A1 = mm df (padCols 256 wg1)) (h2 : A2 = padCols 256 (row bg1)) (h3 : A3 = padRows 256 wg2) :
    mm (relu (lin A0 A1 A2)) A3 = mm (relu (lin adj (mm df wg1) (row bg1))) wg2 := by
  subst h0 h1 h2 h3
  exact gcn_hidden_pad _ _ _ _ _

theorem step_gcn (A0 : Arr 4096 4096) (A1 : Arr 4096 128) (A2 : Arr 1 128)
    (h0 : A0 = adj) (h1 : A1 = mm (relu (lin adj (mm df wg1) (row bg1))) wg2) (h2 : A2 = row bg2) :
    lin A0 A1 A2 = gcn adj df wg1 bg1 wg2 bg2 := by
  subst h0 h1 h2
  rfl

theorem step_decA (h : Arr 4096 128) (H : Arr 4096 128) (hH : H = h) : mmT H H = mmT h h := by
  subst hH
  rfl

end Steps

/-! ## The kernels, at what they find -/

variable (c : Dev nD)

/-- The first kernel: the node features times the padded graph weights. -/
theorem out0_15 : (dat0 (V19 m ρ) c).arrAt 15 cfg0.N = mm (a2 m c) (padCols 256 (a7 m c)) :=
  (R0.arr0_15 (V19 m ρ) c).trans (congrArg₂ mm (e0_1 m ρ c) (e0_2 m ρ c))

/-- The first kernel: the feature encoder's codes. -/
theorem out0_16 : (dat0 (V19 m ρ) c).arrAt 16 cfg0.N = enc (a0 m c) (a3 m c) (a4 m c) (a5 m c) (a6 m c) :=
  (R0.arr0_16 (V19 m ρ) c).trans
    (step_enc _ _ _ _ _ _ _ _ _ _ (e0_0 m ρ c) (e0_3 m ρ c) (e0_4 m ρ c) (e0_5 m ρ c) (e0_6 m ρ c))

/-- The first kernel: the feature decoder on the feature encoder's codes. -/
theorem out0_17 : (dat0 (V19 m ρ) c).arrAt 17 cfg0.N = decF (enc (a0 m c) (a3 m c) (a4 m c) (a5 m c) (a6 m c)) (a11 m c) (a12 m c) (a13 m c) (a14 m c) :=
  (R0.arr0_17 (V19 m ρ) c).trans
    (step_decF _ _ _ _ _ _ _ _ _ _
      (step_enc _ _ _ _ _ _ _ _ _ _ (e0_0 m ρ c) (e0_3 m ρ c) (e0_4 m ρ c) (e0_5 m ρ c) (e0_6 m ρ c))
      (e0_7 m ρ c) (e0_8 m ρ c) (e0_9 m ρ c) (e0_10 m ρ c))

/-- The first kernel: the adjacency decoder's rows on the feature encoder's codes. -/
theorem out0_18 : (dat0 (V19 m ρ) c).arrAt 18 cfg0.N = decH (enc (a0 m c) (a3 m c) (a4 m c) (a5 m c) (a6 m c)) (a15 m c) (a16 m c) (a17 m c) (a18 m c) :=
  (R0.arr0_18 (V19 m ρ) c).trans
    (step_decH _ _ _ _ _ _ _ _ _ _
      (step_enc _ _ _ _ _ _ _ _ _ _ (e0_0 m ρ c) (e0_3 m ρ c) (e0_4 m ρ c) (e0_5 m ρ c) (e0_6 m ρ c))
      (e0_11 m ρ c) (e0_12 m ρ c) (e0_13 m ρ c) (e0_14 m ρ c))

theorem e1_1 : (V20 m ρ c (Pipeline.arrRef spec1 1) : Arr 4096 256) = mm (a2 m c) (padCols 256 (a7 m c)) :=
  (at20_main_v16_0 m ρ c).trans (out0_15 m ρ c)

/-- The second kernel: the graph encoder's hidden layer, multiplied on. -/
theorem out1_4 : (dat1 (V20 m ρ) c).arrAt 4 cfg1.N = mm (relu (lin (a1 m c) (mm (a2 m c) (a7 m c)) (row (a8 m c)))) (a9 m c) :=
  (R1.arr1_4 (V20 m ρ) c).trans
    (step_hidden _ _ _ _ _ _ _ _ _ (e1_0 m ρ c) (e1_1 m ρ c) (e1_2 m ρ c) (e1_3 m ρ c))

theorem e2_1 : (V22 m ρ c (Pipeline.arrRef spec2 1) : Arr 4096 128) = mm (relu (lin (a1 m c) (mm (a2 m c) (a7 m c)) (row (a8 m c)))) (a9 m c) :=
  (at22_main_v17 m ρ c).trans (out1_4 m ρ c)

/-- The third kernel: the graph encoder's codes. -/
theorem out2_11 : (dat2 (V22 m ρ) c).arrAt 11 cfg2.N = gcn (a1 m c) (a2 m c) (a7 m c) (a8 m c) (a9 m c) (a10 m c) :=
  (R2.arr2_11 (V22 m ρ) c).trans
    (step_gcn _ _ _ _ _ _ _ _ _ (e2_0 m ρ c) (e2_1 m ρ c) (e2_2 m ρ c))

/-- The third kernel: the feature decoder on the graph encoder's codes. -/
theorem out2_12 : (dat2 (V22 m ρ) c).arrAt 12 cfg2.N = decF (gcn (a1 m c) (a2 m c) (a7 m c) (a8 m c) (a9 m c) (a10 m c)) (a11 m c) (a12 m c) (a13 m c) (a14 m c) :=
  (R2.arr2_12 (V22 m ρ) c).trans
    (step_decF _ _ _ _ _ _ _ _ _ _
      (step_gcn _ _ _ _ _ _ _ _ _ (e2_0 m ρ c) (e2_1 m ρ c) (e2_2 m ρ c))
      (e2_3 m ρ c) (e2_4 m ρ c) (e2_5 m ρ c) (e2_6 m ρ c))

/-- The third kernel: the adjacency decoder's rows on the graph encoder's codes. -/
theorem out2_13 : (dat2 (V22 m ρ) c).arrAt 13 cfg2.N = decH (gcn (a1 m c) (a2 m c) (a7 m c) (a8 m c) (a9 m c) (a10 m c)) (a15 m c) (a16 m c) (a17 m c) (a18 m c) :=
  (R2.arr2_13 (V22 m ρ) c).trans
    (step_decH _ _ _ _ _ _ _ _ _ _
      (step_gcn _ _ _ _ _ _ _ _ _ (e2_0 m ρ c) (e2_1 m ρ c) (e2_2 m ρ c))
      (e2_7 m ρ c) (e2_8 m ρ c) (e2_9 m ρ c) (e2_10 m ρ c))

theorem e3_0 : (V23 m ρ c (Pipeline.arrRef spec3 0) : Arr 4096 128) = decH (enc (a0 m c) (a3 m c) (a4 m c) (a5 m c) (a6 m c)) (a15 m c) (a16 m c) (a17 m c) (a18 m c) :=
  (at23_main_v16_3 m ρ c).trans (out0_18 m ρ c)

theorem e3_1 : (V23 m ρ c (Pipeline.arrRef spec3 1) : Arr 4096 128) = decH (gcn (a1 m c) (a2 m c) (a7 m c) (a8 m c) (a9 m c) (a10 m c)) (a15 m c) (a16 m c) (a17 m c) (a18 m c) :=
  (at23_main_v22_2 m ρ c).trans (out2_13 m ρ c)

/-- The fourth kernel: the adjacency decoder on the feature encoder's codes. -/
theorem out3_2 : (dat3 (V23 m ρ) c).arrAt 2 cfg3.N = decA (enc (a0 m c) (a3 m c) (a4 m c) (a5 m c) (a6 m c)) (a15 m c) (a16 m c) (a17 m c) (a18 m c) :=
  (R3.arr3_2 (V23 m ρ) c).trans (step_decA _ _ (e3_0 m ρ c))

/-- The fourth kernel: the adjacency decoder on the graph encoder's codes. -/
theorem out3_3 : (dat3 (V23 m ρ) c).arrAt 3 cfg3.N = decA (gcn (a1 m c) (a2 m c) (a7 m c) (a8 m c) (a9 m c) (a10 m c)) (a15 m c) (a16 m c) (a17 m c) (a18 m c) :=
  (R3.arr3_3 (V23 m ρ) c).trans (step_decA _ _ (e3_1 m ρ c))

/-! ## The six results -/

theorem res_main_v16_1 : W24 m ρ c (Proc.devRef .tc main_v16_1) = enc (a0 m c) (a3 m c) (a4 m c) (a5 m c) (a6 m c) :=
  (at24_main_v16_1 m ρ c).trans (out0_16 m ρ c)
theorem res_main_v16_2 : W24 m ρ c (Proc.devRef .tc main_v16_2) = decF (enc (a0 m c) (a3 m c) (a4 m c) (a5 m c) (a6 m c)) (a11 m c) (a12 m c) (a13 m c) (a14 m c) :=
  (at24_main_v16_2 m ρ c).trans (out0_17 m ρ c)
theorem res_main_v23_0 : W24 m ρ c (Proc.devRef .tc main_v23_0) = decA (enc (a0 m c) (a3 m c) (a4 m c) (a5 m c) (a6 m c)) (a15 m c) (a16 m c) (a17 m c) (a18 m c) :=
  (at24_main_v23_0 m ρ c).trans (out3_2 m ρ c)
theorem res_main_v22_0 : W24 m ρ c (Proc.devRef .tc main_v22_0) = gcn (a1 m c) (a2 m c) (a7 m c) (a8 m c) (a9 m c) (a10 m c) :=
  (at24_main_v22_0 m ρ c).trans (out2_11 m ρ c)
theorem res_main_v22_1 : W24 m ρ c (Proc.devRef .tc main_v22_1) = decF (gcn (a1 m c) (a2 m c) (a7 m c) (a8 m c) (a9 m c) (a10 m c)) (a11 m c) (a12 m c) (a13 m c) (a14 m c) :=
  (at24_main_v22_1 m ρ c).trans (out2_12 m ρ c)
theorem res_main_v23_1 : W24 m ρ c (Proc.devRef .tc main_v23_1) = decA (gcn (a1 m c) (a2 m c) (a7 m c) (a8 m c) (a9 m c) (a10 m c)) (a15 m c) (a16 m c) (a17 m c) (a18 m c) :=
  (at24_main_v23_1 m ρ c).trans (out3_3 m ρ c)

end Cert.KernelIdeal.Final

end
-- ==== Proof.lean ====
/-
  A dense graph autoencoder, computed by four row-blocked kernels, against its plain reference.

  The network encodes 4096 nodes twice — from their features, and from the graph (the adjacency applied to the node
  features times a weight array, twice, with a positive part in between) — and decodes each code array twice: back to
  features, and to a 4096 × 4096 array of inner products of the rows of a decoded array. The kernels store the hidden
  width 200 padded with zeros to 256 and cast the operands of their large products to a shorter float format.

  At the exact values both differences vanish. A change of float format is the identity, and a product whose right
  factor has zero rows from row 200 on multiplies whatever the left factor holds there by zero; x · 0 = 0 for every
  extended real, so no finiteness of the inputs is used. Every operation of the network acts row by row, so each
  kernel's block of 256 rows is the restriction of one function of the whole arrays, and the kernels' results are
  the reference's, array by array.

  The modules: Mat (arrays with two axes, the four operations, the padding law), MatHost (the host's pads, layouts
  and products read as those operations), Spec and SpecPad (the network as a function of its arguments; the padded
  network is the network), RefValue (the reference computes it), KernelRun (the whole run of the four kernels and the
  host operations between them, with the result buffers named), Chain19a / Chain19b / ChainUp / Entries (what each
  kernel finds in the buffers it reads), Region0 … Region3 (each kernel's output arrays as functions of what it
  finds), Final (the kernels compute the network). The three frames are the generated ones; the idealization
  rewrote no operation, so there is nothing to preserve.
-/
import proofs.«141271_g66125316489530_cont_sun_m_792_6_alg».proof.Defs
import proofs.«141271_g66125316489530_cont_sun_m_792_6_alg».proof.Proof.Gen.Kernel
import proofs.«141271_g66125316489530_cont_sun_m_792_6_alg».proof.Proof.Gen.Kernel.Skeleton
import proofs.«141271_g66125316489530_cont_sun_m_792_6_alg».proof.Proof.Gen.Kernel.Launch
import proofs.«141271_g66125316489530_cont_sun_m_792_6_alg».proof.Proof.Gen.Kernel.Points
import proofs.«141271_g66125316489530_cont_sun_m_792_6_alg».proof.Proof.Gen.Kernel.Frame
import proofs.«141271_g66125316489530_cont_sun_m_792_6_alg».proof.Proof.Gen.KernelIdeal
import proofs.«141271_g66125316489530_cont_sun_m_792_6_alg».proof.Proof.Gen.KernelIdeal.Skeleton
import proofs.«141271_g66125316489530_cont_sun_m_792_6_alg».proof.Proof.Gen.KernelIdeal.Launch
import proofs.«141271_g66125316489530_cont_sun_m_792_6_alg».proof.Proof.Gen.KernelIdeal.Points
import proofs.«141271_g66125316489530_cont_sun_m_792_6_alg».proof.Proof.Gen.KernelIdeal.Frame
import proofs.«141271_g66125316489530_cont_sun_m_792_6_alg».proof.Proof.Gen.ReferenceIdeal
import proofs.«141271_g66125316489530_cont_sun_m_792_6_alg».proof.Proof.Gen.ReferenceIdeal.Run
import proofs.«141271_g66125316489530_cont_sun_m_792_6_alg».proof.Proof.Gen.Pre_finite_inputs
import proofs.«141271_g66125316489530_cont_sun_m_792_6_alg».proof.Proof.KernelRun
import proofs.«141271_g66125316489530_cont_sun_m_792_6_alg».proof.Proof.RefValue
import proofs.«141271_g66125316489530_cont_sun_m_792_6_alg».proof.Proof.Final
import Idealize.ShloMosaic.Adequacy
import Idealize.ShloMosaic.Init

set_option maxRecDepth 16384

noncomputable section

namespace Cert.Proof

open Idealize.ShloMosaic Idealize.SL.Sem

/-- The word-level program runs and leaves its arguments as launched: the generated frame. -/
theorem frame_kernel : Cert.frame_Kernel := fun m ρ _ => Cert.Kernel.Gen.frame m ρ

/-- The idealized program runs and leaves its arguments as launched: the generated frame. -/
theorem frame_kernelIdeal : Cert.frame_KernelIdeal := fun m ρ _ => Cert.KernelIdeal.Gen.frame m ρ

/-- The reference runs and leaves its arguments as launched: its generated run, the results dropped. -/
theorem frame_reference : Cert.frame_ReferenceIdeal := fun m ρ _ =>
  (θ_run Cert.ReferenceIdeal.defs _ _).mono (fun _ h c => (h c).2.2.2.2.2.2) (Cert.ReferenceIdeal.Value.run (F := Ideal) m ρ)

/-- From memories agreeing on the nineteen arguments both programs run, and the six results agree: the kernels'
    are the network's function of the arguments (the four kernels' output arrays, traced through the padding), and
    so are the reference's. -/
theorem algebraic : Cert.algebraic_KernelIdeal_ReferenceIdeal := by
  intro m ρ m' ρ' _ hagree
  refine ⟨fun c => Cert.KernelIdeal.Gen.W24 m ρ c (Idealize.ShloMosaic.Proc.devRef .tc Cert.KernelIdeal.main_v16_1),
    fun c => Cert.KernelIdeal.Gen.W24 m ρ c (Idealize.ShloMosaic.Proc.devRef .tc Cert.KernelIdeal.main_v16_2),
    fun c => Cert.KernelIdeal.Gen.W24 m ρ c (Idealize.ShloMosaic.Proc.devRef .tc Cert.KernelIdeal.main_v23_0),
    fun c => Cert.KernelIdeal.Gen.W24 m ρ c (Idealize.ShloMosaic.Proc.devRef .tc Cert.KernelIdeal.main_v22_0),
    fun c => Cert.KernelIdeal.Gen.W24 m ρ c (Idealize.ShloMosaic.Proc.devRef .tc Cert.KernelIdeal.main_v22_1),
    fun c => Cert.KernelIdeal.Gen.W24 m ρ c (Idealize.ShloMosaic.Proc.devRef .tc Cert.KernelIdeal.main_v23_1),
    Cert.KernelIdeal.Run.run_final m ρ, ?_⟩
  refine (θ_run Cert.ReferenceIdeal.defs _ _).mono (fun r h c => ?_) (Cert.ReferenceIdeal.Value.run (F := Ideal) m' ρ')
  obtain ⟨h8, h28, h48, h19, h37, h59, hargs⟩ := h c
  obtain ⟨g0, g1, g2, g3, g4, g5, g6, g7, g8, g9, g10, g11, g12, g13, g14, g15, g16, g17, g18⟩ := hagree c
  refine ⟨h8.trans ?_, h28.trans ?_, h48.trans ?_, h19.trans ?_, h37.trans ?_, h59.trans ?_, hargs⟩
  · refine (Cert.ReferenceIdeal.RefValue.ref_main_v8 _ _ _ _ _).trans ?_
    rw [g0, g3, g4, g5, g6]
    exact (Cert.KernelIdeal.Final.res_main_v16_1 m ρ c).symm
  · refine (Cert.ReferenceIdeal.RefValue.ref_main_v28 _ _ _ _ _ _ _ _ _).trans ?_
    rw [g0, g3, g4, g5, g6, g11, g12, g13, g14]
    exact (Cert.KernelIdeal.Final.res_main_v16_2 m ρ c).symm
  · refine (Cert.ReferenceIdeal.RefValue.ref_main_v48 _ _ _ _ _ _ _ _ _).trans ?_
    rw [g0, g3, g4, g5, g6, g15, g16, g17, g18]
    exact (Cert.KernelIdeal.Final.res_main_v23_0 m ρ c).symm
  · refine (Cert.ReferenceIdeal.RefValue.ref_main_v19 _ _ _ _ _ _).trans ?_
    rw [g1, g2, g7, g8, g9, g10]
    exact (Cert.KernelIdeal.Final.res_main_v22_0 m ρ c).symm
  · refine (Cert.ReferenceIdeal.RefValue.ref_main_v37 _ _ _ _ _ _ _ _ _ _).trans ?_
    rw [g1, g2, g7, g8, g9, g10, g11, g12, g13, g14]
    exact (Cert.KernelIdeal.Final.res_main_v22_1 m ρ c).symm
  · refine (Cert.ReferenceIdeal.RefValue.ref_main_v59 _ _ _ _ _ _ _ _ _ _).trans ?_
    rw [g1, g2, g7, g8, g9, g10, g15, g16, g17, g18]
    exact (Cert.KernelIdeal.Final.res_main_v23_1 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
